-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S5x96 : Shape := ⟨2, ![5, 96]⟩
abbrev S192x40 : Shape := ⟨2, ![192, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S5x96 : S_.BroadcastsInDim S5x96 (![] : Fin 0 → Fin S5x96.rank)
  reducesTo_S5x96_S_d0_1 : S5x96.ReducesTo [0, 1] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S5x96 .f32) (main_arg9 : FVec F S5x96 .f32) (main_arg10 : FVec F S192x40 .f32) (main_arg11 : FVec F S40 .f32) (main_v33 : IVec S_ 1) : IVec S_ 1 :=
  let main_v34 : FVec F S5x96 .f32 := Host.absf main_arg8
  let main_cst_12 : FVec F S_ .f32 := constant S_ .f32 0x7F800000#32
  let main_v35 : FVec F S5x96 .f32 := broadcastInDim S5x96 ![] bcast_S_S5x96 main_cst_12
  let main_v36 : IVec S5x96 1 := cmpf .olt main_v34 main_v35
  let main_c_13 : IVec S_ 1 := constantI S_ 1 1#1
  let main_v37 : IVec S_ 1 := (fun x v => Host.reduce IntOp.andi x v reducesTo_S5x96_S_d0_1 h_S_) main_v36 main_c_13
  let main_v38 : IVec S_ 1 := andi main_v33 main_v37
  let main_v39 : FVec F S5x96 .f32 := Host.absf main_arg9
  let main_cst_14 : FVec F S_ .f32 := constant S_ .f32 0x7F800000#32
  let main_v40 : FVec F S5x96 .f32 := broadcastInDim S5x96 ![] bcast_S_S5x96 main_cst_14
  let main_v41 : IVec S5x96 1 := cmpf .olt main_v39 main_v40
  let main_c_15 : IVec S_ 1 := constantI S_ 1 1#1
  let main_v42 : IVec S_ 1 := (fun x v => Host.reduce IntOp.andi x v reducesTo_S5x96_S_d0_1 h_S_) main_v41 main_c_15
  let main_v43 : IVec S_ 1 := andi main_v38 main_v42
  let main_v44 : FVec F S192x40 .f32 := Host.absf main_arg10
  let main_cst_16 : FVec F S_ .f32 := constant S_ .f32 0x7F800000#32
  let main_v45 : FVec F S192x40 .f32 := broadcastInDim S192x40 ![] bcast_S_S192x40 main_cst_16
  let main_v46 : IVec S192x40 1 := cmpf .olt main_v44 main_v45
  let main_c_17 : IVec S_ 1 := constantI S_ 1 1#1
  let main_v47 : IVec S_ 1 := (fun x v => Host.reduce IntOp.andi x v reducesTo_S192x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S96 .f32) (main_arg6 : FVec F S5x96 .f32) (main_arg7 : FVec F S5x96 .f32) (main_arg8 : FVec F S5x96 .f32) (main_arg9 : FVec F S5x96 .f32) (main_arg10 : FVec F S192x40 .f32) (main_arg11 : FVec F S40 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S5x96 .f32 := Host.absf main_arg6
  let main_cst_8 : FVec F S_ .f32 := constant S_ .f32 0x7F800000#32
  let main_v25 : FVec F S5x96 .f32 := broadcastInDim S5x96 ![] bcast_S_S5x96 main_cst_8
  let main_v26 : IVec S5x96 1 := cmpf .olt main_v24 main_v25
  let main_c_9 : IVec S_ 1 := constantI S_ 1 1#1
  let main_v27 : IVec S_ 1 := (fun x v => Host.reduce IntOp.andi x v reducesTo_S5x96_S_d0_1 h_S_) main_v26 main_c_9
  let main_v28 : IVec S_ 1 := andi main_v23 main_v27
  let main_v29 : FVec F S5x96 .f32 := Host.absf main_arg7
  let main_cst_10 : FVec F S_ .f32 := constant S_ .f32 0x7F800000#32
  let main_v30 : FVec F S5x96 .f32 := broadcastInDim S5x96 ![] bcast_S_S5x96 main_cst_10
  let main_v31 : IVec S5x96 1 := cmpf .olt main_v29 main_v30
  let main_c_11 : IVec S_ 1 := constantI S_ 1 1#1
  let main_v32 : IVec S_ 1 := (fun x v => Host.reduce IntOp.andi x v reducesTo_S5x96_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x96 .f32) (main_arg3 : FVec F S96 .f32) (main_arg4 : FVec F S128x96 .f32) (main_arg5 : FVec F S96 .f32) (main_arg6 : FVec F S5x96 .f32) (main_arg7 : FVec F S5x96 .f32) (main_arg8 : FVec F S5x96 .f32) (main_arg9 : FVec F S5x96 .f32) (main_arg10 : FVec F S192x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S128x96 .f32 := Host.absf main_arg4
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S5x96 : Shape := ⟨2, ![5, 96]⟩
abbrev S192x40 : Shape := ⟨2, ![192, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x96 : Shape := ⟨2, ![1, 96]⟩
abbrev S50000x96 : Shape := ⟨2, ![50000, 96]⟩
abbrev S2000x128 : Shape := ⟨2, ![2000, 128]⟩
abbrev S2000x96 : Shape := ⟨2, ![2000, 96]⟩
abbrev S96x40 : Shape := ⟨2, ![96, 40]⟩
abbrev S50000x192 : Shape := ⟨2, ![50000, 192]⟩
abbrev S800000x192 : Shape := ⟨2, ![800000, 192]⟩
abbrev S2000x1 : Shape := ⟨2, ![2000, 1]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 145
  | .vmem => 101
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S128x96, .f32⟩
  | 5 => ⟨S96, .f32⟩
  | 6 => ⟨S5x96, .f32⟩
  | 7 => ⟨S5x96, .f32⟩
  | 8 => ⟨S5x96, .f32⟩
  | 9 => ⟨S5x96, .f32⟩
  | 10 => ⟨S192x40, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S1x96, .f32⟩
  | 30 => ⟨S1x96, .f32⟩
  | 31 => ⟨S50000x96, .f32⟩
  | 32 => ⟨S50000x96, .f32⟩
  | 33 => ⟨S96x40, .f32⟩
  | 34 => ⟨S96x40, .f32⟩
  | 35 => ⟨S50000x192, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x192, .f32⟩
  | 45 => ⟨S_, .f32⟩
  | 46 => ⟨S50000x192, .f32⟩
  | 47 => ⟨S800000x1, .i32⟩
  | 48 => ⟨S50000x192, .f32⟩
  | 49 => ⟨S50000x96, .f32⟩
  | 50 => ⟨S50000x96, .f32⟩
  | 51 => ⟨S1x96, .f32⟩
  | 52 => ⟨S1x96, .f32⟩
  | 53 => ⟨S1x96, .f32⟩
  | 54 => ⟨S1x96, .f32⟩
  | 55 => ⟨S50000x96, .f32⟩
  | 56 => ⟨S50000x96, .f32⟩
  | 57 => ⟨S50000x192, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x192, .f32⟩
  | 67 => ⟨S_, .f32⟩
  | 68 => ⟨S50000x192, .f32⟩
  | 69 => ⟨S800000x1, .i32⟩
  | 70 => ⟨S50000x192, .f32⟩
  | 71 => ⟨S50000x96, .f32⟩
  | 72 => ⟨S50000x96, .f32⟩
  | 73 => ⟨S1x96, .f32⟩
  | 74 => ⟨S1x96, .f32⟩
  | 75 => ⟨S1x96, .f32⟩
  | 76 => ⟨S1x96, .f32⟩
  | 77 => ⟨S50000x96, .f32⟩
  | 78 => ⟨S50000x96, .f32⟩
  | 79 => ⟨S50000x192, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x192, .f32⟩
  | 89 => ⟨S_, .f32⟩
  | 90 => ⟨S50000x192, .f32⟩
  | 91 => ⟨S800000x1, .i32⟩
  | 92 => ⟨S50000x192, .f32⟩
  | 93 => ⟨S50000x96, .f32⟩
  | 94 => ⟨S50000x96, .f32⟩
  | 95 => ⟨S1x96, .f32⟩
  | 96 => ⟨S1x96, .f32⟩
  | 97 => ⟨S1x96, .f32⟩
  | 98 => ⟨S1x96, .f32⟩
  | 99 => ⟨S50000x96, .f32⟩
  | 100 => ⟨S50000x96, .f32⟩
  | 101 => ⟨S50000x192, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x192, .f32⟩
  | 111 => ⟨S_, .f32⟩
  | 112 => ⟨S50000x192, .f32⟩
  | 113 => ⟨S800000x1, .i32⟩
  | 114 => ⟨S50000x192, .f32⟩
  | 115 => ⟨S50000x96, .f32⟩
  | 116 => ⟨S50000x96, .f32⟩
  | 117 => ⟨S1x96, .f32⟩
  | 118 => ⟨S1x96, .f32⟩
  | 119 => ⟨S1x96, .f32⟩
  | 120 => ⟨S1x96, .f32⟩
  | 121 => ⟨S50000x96, .f32⟩
  | 122 => ⟨S50000x96, .f32⟩
  | 123 => ⟨S50000x192, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x192, .f32⟩
  | 5 => ⟨S_, .f32⟩
  | 6 => ⟨S50000x192, .f32⟩
  | 7 => ⟨S800000x1, .i32⟩
  | 8 => ⟨S50000x192, .f32⟩
  | 9 => ⟨S50000x96, .f32⟩
  | 10 => ⟨S50000x96, .f32⟩
  | 11 => ⟨S1x96, .f32⟩
  | 12 => ⟨S1x96, .f32⟩
  | 13 => ⟨S1x96, .f32⟩
  | 14 => ⟨S1x96, .f32⟩
  | 15 => ⟨S1x40, .f32⟩
  | 16 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S1x96, .f32⟩
  | .local _ .vmem, ⟨4, _⟩ => ⟨S128x96, .f32⟩
  | .local _ .vmem, ⟨5, _⟩ => ⟨S1x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x96, .f32⟩
  | .local _ .vmem, ⟨13, _⟩ => ⟨S2000x96, .f32⟩
  | .local _ .vmem, ⟨14, _⟩ => ⟨S2000x96, .f32⟩
  | .local _ .vmem, ⟨15, _⟩ => ⟨S2000x96, .f32⟩
  | .local _ .vmem, ⟨16, _⟩ => ⟨S2000x96, .f32⟩
  | .local _ .vmem, ⟨17, _⟩ => ⟨S2000x96, .f32⟩
  | .local _ .vmem, ⟨18, _⟩ => ⟨S2000x1, .f32⟩
  | .local _ .vmem, ⟨19, _⟩ => ⟨S2000x1, .f32⟩
  | .local _ .vmem, ⟨20, _⟩ => ⟨S1x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S2000x96, .f32⟩
  | .local _ .vmem, ⟨25, _⟩ => ⟨S2000x96, .f32⟩
  | .local _ .vmem, ⟨26, _⟩ => ⟨S2000x96, .f32⟩
  | .local _ .vmem, ⟨27, _⟩ => ⟨S2000x96, .f32⟩
  | .local _ .vmem, ⟨28, _⟩ => ⟨S2000x96, .f32⟩
  | .local _ .vmem, ⟨29, _⟩ => ⟨S2000x96, .f32⟩
  | .local _ .vmem, ⟨30, _⟩ => ⟨S2000x96, .f32⟩
  | .local _ .vmem, ⟨31, _⟩ => ⟨S2000x96, .f32⟩
  | .local _ .vmem, ⟨32, _⟩ => ⟨S2000x96, .f32⟩
  | .local _ .vmem, ⟨33, _⟩ => ⟨S2000x96, .f32⟩
  | .local _ .vmem, ⟨34, _⟩ => ⟨S2000x96, .f32⟩
  | .local _ .vmem, ⟨35, _⟩ => ⟨S2000x96, .f32⟩
  | .local _ .vmem, ⟨36, _⟩ => ⟨S2000x1, .f32⟩
  | .local _ .vmem, ⟨37, _⟩ => ⟨S2000x1, .f32⟩
  | .local _ .vmem, ⟨38, _⟩ => ⟨S1x96, .f32⟩
  | .local _ .vmem, ⟨39, _⟩ => ⟨S1x96, .f32⟩
  | .local _ .vmem, ⟨40, _⟩ => ⟨S1x96, .f32⟩
  | .local _ .vmem, ⟨41, _⟩ => ⟨S1x96, .f32⟩
  | .local _ .vmem, ⟨42, _⟩ => ⟨S2000x96, .f32⟩
  | .local _ .vmem, ⟨43, _⟩ => ⟨S2000x96, .f32⟩
  | .local _ .vmem, ⟨44, _⟩ => ⟨S2000x96, .f32⟩
  | .local _ .vmem, ⟨45, _⟩ => ⟨S2000x96, .f32⟩
  | .local _ .vmem, ⟨46, _⟩ => ⟨S2000x96, .f32⟩
  | .local _ .vmem, ⟨47, _⟩ => ⟨S2000x96, .f32⟩
  | .local _ .vmem, ⟨48, _⟩ => ⟨S2000x96, .f32⟩
  | .local _ .vmem, ⟨49, _⟩ => ⟨S2000x96, .f32⟩
  | .local _ .vmem, ⟨50, _⟩ => ⟨S2000x96, .f32⟩
  | .local _ .vmem, ⟨51, _⟩ => ⟨S2000x96, .f32⟩
  | .local _ .vmem, ⟨52, _⟩ => ⟨S2000x96, .f32⟩
  | .local _ .vmem, ⟨53, _⟩ => ⟨S2000x96, .f32⟩
  | .local _ .vmem, ⟨54, _⟩ => ⟨S2000x1, .f32⟩
  | .local _ .vmem, ⟨55, _⟩ => ⟨S2000x1, .f32⟩
  | .local _ .vmem, ⟨56, _⟩ => ⟨S1x96, .f32⟩
  | .local _ .vmem, ⟨57, _⟩ => ⟨S1x96, .f32⟩
  | .local _ .vmem, ⟨58, _⟩ => ⟨S1x96, .f32⟩
  | .local _ .vmem, ⟨59, _⟩ => ⟨S1x96, .f32⟩
  | .local _ .vmem, ⟨60, _⟩ => ⟨S2000x96, .f32⟩
  | .local _ .vmem, ⟨61, _⟩ => ⟨S2000x96, .f32⟩
  | .local _ .vmem, ⟨62, _⟩ => ⟨S2000x96, .f32⟩
  | .local _ .vmem, ⟨63, _⟩ => ⟨S2000x96, .f32⟩
  | .local _ .vmem, ⟨64, _⟩ => ⟨S2000x96, .f32⟩
  | .local _ .vmem, ⟨65, _⟩ => ⟨S2000x96, .f32⟩
  | .local _ .vmem, ⟨66, _⟩ => ⟨S2000x96, .f32⟩
  | .local _ .vmem, ⟨67, _⟩ => ⟨S2000x96, .f32⟩
  | .local _ .vmem, ⟨68, _⟩ => ⟨S2000x96, .f32⟩
  | .local _ .vmem, ⟨69, _⟩ => ⟨S2000x96, .f32⟩
  | .local _ .vmem, ⟨70, _⟩ => ⟨S2000x96, .f32⟩
  | .local _ .vmem, ⟨71, _⟩ => ⟨S2000x96, .f32⟩
  | .local _ .vmem, ⟨72, _⟩ => ⟨S2000x1, .f32⟩
  | .local _ .vmem, ⟨73, _⟩ => ⟨S2000x1, .f32⟩
  | .local _ .vmem, ⟨74, _⟩ => ⟨S1x96, .f32⟩
  | .local _ .vmem, ⟨75, _⟩ => ⟨S1x96, .f32⟩
  | .local _ .vmem, ⟨76, _⟩ => ⟨S1x96, .f32⟩
  | .local _ .vmem, ⟨77, _⟩ => ⟨S1x96, .f32⟩
  | .local _ .vmem, ⟨78, _⟩ => ⟨S2000x96, .f32⟩
  | .local _ .vmem, ⟨79, _⟩ => ⟨S2000x96, .f32⟩
  | .local _ .vmem, ⟨80, _⟩ => ⟨S2000x96, .f32⟩
  | .local _ .vmem, ⟨81, _⟩ => ⟨S2000x96, .f32⟩
  | .local _ .vmem, ⟨82, _⟩ => ⟨S2000x96, .f32⟩
  | .local _ .vmem, ⟨83, _⟩ => ⟨S2000x96, .f32⟩
  | .local _ .vmem, ⟨84, _⟩ => ⟨S2000x96, .f32⟩
  | .local _ .vmem, ⟨85, _⟩ => ⟨S2000x96, .f32⟩
  | .local _ .vmem, ⟨86, _⟩ => ⟨S2000x96, .f32⟩
  | .local _ .vmem, ⟨87, _⟩ => ⟨S2000x96, .f32⟩
  | .local _ .vmem, ⟨88, _⟩ => ⟨S2000x96, .f32⟩
  | .local _ .vmem, ⟨89, _⟩ => ⟨S2000x96, .f32⟩
  | .local _ .vmem, ⟨90, _⟩ => ⟨S2000x1, .f32⟩
  | .local _ .vmem, ⟨91, _⟩ => ⟨S2000x1, .f32⟩
  | .local _ .vmem, ⟨92, _⟩ => ⟨S1x96, .f32⟩
  | .local _ .vmem, ⟨93, _⟩ => ⟨S1x96, .f32⟩
  | .local _ .vmem, ⟨94, _⟩ => ⟨S1x96, .f32⟩
  | .local _ .vmem, ⟨95, _⟩ => ⟨S1x96, .f32⟩
  | .local _ .vmem, ⟨96, _⟩ => ⟨S96x40, .f32⟩
  | .local _ .vmem, ⟨97, _⟩ => ⟨S96x40, .f32⟩
  | .local _ .vmem, ⟨98, _⟩ => ⟨S1x40, .f32⟩
  | .local _ .vmem, ⟨99, _⟩ => ⟨S2000x40, .f32⟩
  | .local _ .vmem, ⟨100, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev main_v54 : Ref sig .tc := ⟨.hbm, 79, rfl⟩
abbrev main_c_8 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71_0 : Ref sig .tc := ⟨.hbm, 99, rfl⟩
abbrev main_v71_1 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_c_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89_0 : Ref sig .tc := ⟨.hbm, 121, rfl⟩
abbrev main_v89_1 : Ref sig .tc := ⟨.hbm, 122, rfl⟩
abbrev main_v90 : Ref sig .tc := ⟨.hbm, 123, rfl⟩
abbrev main_c_14 : Ref sig .tc := ⟨.hbm, 124, rfl⟩
abbrev main_v91 : Ref sig .tc := ⟨.hbm, 125, rfl⟩
abbrev main_v92 : Ref sig .tc := ⟨.hbm, 126, rfl⟩
abbrev main_c_15 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_16 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg9_1 : Ref sig .tc := ⟨.vmem, 43, rfl⟩
abbrev cc2_stg10_0 : Ref sig .tc := ⟨.vmem, 44, rfl⟩
abbrev cc2_stg10_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc3_stg2_0 : Ref sig .tc := ⟨.vmem, 50, rfl⟩
abbrev cc3_stg2_1 : Ref sig .tc := ⟨.vmem, 51, rfl⟩
abbrev cc3_stg3_0 : Ref sig .tc := ⟨.vmem, 52, rfl⟩
abbrev cc3_stg3_1 : Ref sig .tc := ⟨.vmem, 53, rfl⟩
abbrev cc3_stg4_0 : Ref sig .tc := ⟨.vmem, 54, rfl⟩
abbrev cc3_stg4_1 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg8_0 : Ref sig .tc := ⟨.vmem, 59, rfl⟩
abbrev cc3_stg9_0 : Ref sig .tc := ⟨.vmem, 60, rfl⟩
abbrev cc3_stg9_1 : Ref sig .tc := ⟨.vmem, 61, rfl⟩
abbrev cc3_stg10_0 : Ref sig .tc := ⟨.vmem, 62, rfl⟩
abbrev cc3_stg10_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg6_0 : Ref sig .tc := ⟨.vmem, 75, rfl⟩
abbrev cc4_stg7_0 : Ref sig .tc := ⟨.vmem, 76, rfl⟩
abbrev cc4_stg8_0 : Ref sig .tc := ⟨.vmem, 77, rfl⟩
abbrev cc4_stg9_0 : Ref sig .tc := ⟨.vmem, 78, rfl⟩
abbrev cc4_stg9_1 : Ref sig .tc := ⟨.vmem, 79, rfl⟩
abbrev cc4_stg10_0 : Ref sig .tc := ⟨.vmem, 80, rfl⟩
abbrev cc4_stg10_1 : Ref sig .tc := ⟨.vmem, 81, rfl⟩
abbrev cc5_stg0_0 : Ref sig .tc := ⟨.vmem, 82, rfl⟩
abbrev cc5_stg0_1 : Ref sig .tc := ⟨.vmem, 83, rfl⟩
abbrev cc5_stg1_0 : Ref sig .tc := ⟨.vmem, 84, rfl⟩
abbrev cc5_stg1_1 : Ref sig .tc := ⟨.vmem, 85, rfl⟩
abbrev cc5_stg2_0 : Ref sig .tc := ⟨.vmem, 86, rfl⟩
abbrev cc5_stg2_1 : Ref sig .tc := ⟨.vmem, 87, rfl⟩
abbrev cc5_stg3_0 : Ref sig .tc := ⟨.vmem, 88, rfl⟩
abbrev cc5_stg3_1 : Ref sig .tc := ⟨.vmem, 89, rfl⟩
abbrev cc5_stg4_0 : Ref sig .tc := ⟨.vmem, 90, rfl⟩
abbrev cc5_stg4_1 : Ref sig .tc := ⟨.vmem, 91, rfl⟩
abbrev cc5_stg5_0 : Ref sig .tc := ⟨.vmem, 92, rfl⟩
abbrev cc5_stg6_0 : Ref sig .tc := ⟨.vmem, 93, rfl⟩
abbrev cc5_stg7_0 : Ref sig .tc := ⟨.vmem, 94, rfl⟩
abbrev cc5_stg8_0 : Ref sig .tc := ⟨.vmem, 95, rfl⟩
abbrev cc5_stg9_0 : Ref sig .tc := ⟨.vmem, 96, rfl⟩
abbrev cc5_stg10_0 : Ref sig .tc := ⟨.vmem, 97, rfl⟩
abbrev cc5_stg11_0 : Ref sig .tc := ⟨.vmem, 98, rfl⟩
abbrev cc5_stg12_0 : Ref sig .tc := ⟨.vmem, 99, rfl⟩
abbrev cc5_stg12_1 : Ref sig .tc := ⟨.vmem, 100, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem9_1 : DmaSem sig := 43
abbrev cc2_sem10_0 : DmaSem sig := 44
abbrev cc2_sem10_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem2_1 : DmaSem sig := 51
abbrev cc3_sem3_0 : DmaSem sig := 52
abbrev cc3_sem3_1 : DmaSem sig := 53
abbrev cc3_sem4_0 : DmaSem sig := 54
abbrev cc3_sem4_1 : DmaSem sig := 55
abbrev cc3_sem5_0 : DmaSem sig := 56
abbrev cc3_sem6_0 : DmaSem sig := 57
abbrev cc3_sem7_0 : DmaSem sig := 58
abbrev cc3_sem8_0 : DmaSem sig := 59
abbrev cc3_sem9_0 : DmaSem sig := 60
abbrev cc3_sem9_1 : DmaSem sig := 61
abbrev cc3_sem10_0 : DmaSem sig := 62
abbrev cc3_sem10_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem6_0 : DmaSem sig := 75
abbrev cc4_sem7_0 : DmaSem sig := 76
abbrev cc4_sem8_0 : DmaSem sig := 77
abbrev cc4_sem9_0 : DmaSem sig := 78
abbrev cc4_sem9_1 : DmaSem sig := 79
abbrev cc4_sem10_0 : DmaSem sig := 80
abbrev cc4_sem10_1 : DmaSem sig := 81
abbrev cc5_sem0_0 : DmaSem sig := 82
abbrev cc5_sem0_1 : DmaSem sig := 83
abbrev cc5_sem1_0 : DmaSem sig := 84
abbrev cc5_sem1_1 : DmaSem sig := 85
abbrev cc5_sem2_0 : DmaSem sig := 86
abbrev cc5_sem2_1 : DmaSem sig := 87
abbrev cc5_sem3_0 : DmaSem sig := 88
abbrev cc5_sem3_1 : DmaSem sig := 89
abbrev cc5_sem4_0 : DmaSem sig := 90
abbrev cc5_sem4_1 : DmaSem sig := 91
abbrev cc5_sem5_0 : DmaSem sig := 92
abbrev cc5_sem6_0 : DmaSem sig := 93
abbrev cc5_sem7_0 : DmaSem sig := 94
abbrev cc5_sem8_0 : DmaSem sig := 95
abbrev cc5_sem9_0 : DmaSem sig := 96
abbrev cc5_sem10_0 : DmaSem sig := 97
abbrev cc5_sem11_0 : DmaSem sig := 98
abbrev cc5_sem12_0 : DmaSem sig := 99
abbrev cc5_sem12_1 : DmaSem sig := 100

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x96 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x96 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x96 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x96 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x96 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x96 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x96 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x96 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x96 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x96 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2000x96 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x96 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x96 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x96 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x96 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x96 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S2000x96 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x96 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x96 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x96 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x96 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x96 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S96x40 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S96x40 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x40 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 2 → Memref sig .tc .vmem S2000x40 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S96_S1x96 : S96.ShapeCasts S1x96
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  slices_S192x40_S96x40_0_0 : S192x40.Slices ![0, 0] S96x40
  slices_S192x40_S96x40_96_0 : S192x40.Slices ![96, 0] S96x40
  concatenates_S50000x96_S50000x96_S50000x192_d1 : Shape.Concatenates [S50000x96, S50000x96] S50000x192 1
  bcast_S_S50000x192 : S_.BroadcastsInDim S50000x192 (![] : Fin 0 → Fin S50000x192.rank)
  slices_S50000x192_S50000x96_0_0 : S50000x192.Slices ![0, 0] S50000x96
  slices_S50000x192_S50000x96_0_96 : S50000x192.Slices ![0, 96] S50000x96
  slices_S5x96_S1x96_0_0 : S5x96.Slices ![0, 0] S1x96
  shapeCasts_S2000x96_S2000x96 : S2000x96.ShapeCasts S2000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x96 : S2000x1.Broadcasts S2000x96
  slices_S5x96_S1x96_1_0 : S5x96.Slices ![1, 0] S1x96
  slices_S5x96_S1x96_2_0 : S5x96.Slices ![2, 0] S1x96
  slices_S5x96_S1x96_3_0 : S5x96.Slices ![3, 0] S1x96
  slices_S5x96_S1x96_4_0 : S5x96.Slices ![4, 0] S1x96
  shapeCasts_S40_S1x40 : S40.ShapeCasts S1x40
  inb_S96x40_S96x40_0_0 : ∀ a, (![0, 0] : Fin 2 → Nat) a + S96x40.size a ≤ S96x40.size a
  h_S96x40 : 0 < S96x40.numel
  shapeCasts_S96x40_S96x40 : S96x40.ShapeCasts S96x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  dot_S2000x128_S128x96_S2000x96_1_0_0_1_n_n_wf : DotDims.WF S2000x128 S128x96 S2000x96 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S2000x96_S96x40_S2000x40_1_0_0_1_n_n_wf : DotDims.WF S2000x96 S96x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S128x96.size a
  hwx0_3 : ∀ i : grid0.Coords, EltTy.bits .f32 = 32 ∨ (Rect.block (s := S128x96) S128x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x96.size a ≤ S50000x96.size a
  hwx0_6 : ∀ i : grid0.Coords, EltTy.bits .f32 = 32 ∨ (Rect.block (s := S50000x96) S2000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x96.size a ≤ S50000x96.size a
  hwx1_2 : ∀ i : grid1.Coords, EltTy.bits .f32 = 32 ∨ (Rect.block (s := S50000x96) S2000x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S50000x96.size a
  hwx1_3 : ∀ i : grid1.Coords, EltTy.bits .f32 = 32 ∨ (Rect.block (s := S50000x96) S2000x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x96.size a ≤ S1x96.size a
  hwx1_6 : ∀ i : grid1.Coords, EltTy.bits .f32 = 32 ∨ (Rect.block (s := S1x96) S1x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x96.size a ≤ S1x96.size a
  hwx1_7 : ∀ i : grid1.Coords, EltTy.bits .f32 = 32 ∨ (Rect.block (s := S1x96) S1x96.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x96.size a ≤ S1x96.size a
  hwx1_8 : ∀ i : grid1.Coords, EltTy.bits .f32 = 32 ∨ (Rect.block (s := S1x96) S1x96.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x96.size a ≤ S50000x96.size a
  hwx1_9 : ∀ i : grid1.Coords, EltTy.bits .f32 = 32 ∨ (Rect.block (s := S50000x96) S2000x96.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x96.size a ≤ S50000x96.size a
  hwx1_10 : ∀ i : grid1.Coords, EltTy.bits .f32 = 32 ∨ (Rect.block (s := S50000x96) S2000x96.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x96.size a ≤ S50000x96.size a
  hwx2_1 : ∀ i : grid2.Coords, EltTy.bits .f32 = 32 ∨ (Rect.block (s := S50000x96) S2000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x96.size a ≤ S50000x96.size a
  hwx2_2 : ∀ i : grid2.Coords, EltTy.bits .f32 = 32 ∨ (Rect.block (s := S50000x96) S2000x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x96.size a ≤ S50000x96.size a
  hwx2_3 : ∀ i : grid2.Coords, EltTy.bits .f32 = 32 ∨ (Rect.block (s := S50000x96) S2000x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .f32 = 32 ∨ (Rect.block (s := S50000x1) S2000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x96.size a ≤ S1x96.size a
  hwx2_5 : ∀ i : grid2.Coords, EltTy.bits .f32 = 32 ∨ (Rect.block (s := S1x96) S1x96.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x96.size a ≤ S1x96.size a
  hwx2_6 : ∀ i : grid2.Coords, EltTy.bits .f32 = 32 ∨ (Rect.block (s := S1x96) S1x96.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x96.size a ≤ S1x96.size a
  hwx2_7 : ∀ i : grid2.Coords, EltTy.bits .f32 = 32 ∨ (Rect.block (s := S1x96) S1x96.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x96.size a ≤ S1x96.size a
  hwx2_8 : ∀ i : grid2.Coords, EltTy.bits .f32 = 32 ∨ (Rect.block (s := S1x96) S1x96.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x96.size a ≤ S50000x96.size a
  hwx2_9 : ∀ i : grid2.Coords, EltTy.bits .f32 = 32 ∨ (Rect.block (s := S50000x96) S2000x96.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x96.size a ≤ S50000x96.size a
  hwx2_10 : ∀ i : grid2.Coords, EltTy.bits .f32 = 32 ∨ (Rect.block (s := S50000x96) S2000x96.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x96.size a ≤ S50000x96.size a
  hwx3_0 : ∀ i : grid3.Coords, EltTy.bits .f32 = 32 ∨ (Rect.block (s := S50000x96) S2000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x96.size a ≤ S50000x96.size a
  hwx3_1 : ∀ i : grid3.Coords, EltTy.bits .f32 = 32 ∨ (Rect.block (s := S50000x96) S2000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x96.size a ≤ S50000x96.size a
  hwx3_2 : ∀ i : grid3.Coords, EltTy.bits .f32 = 32 ∨ (Rect.block (s := S50000x96) S2000x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x96.size a ≤ S50000x96.size a
  hwx3_3 : ∀ i : grid3.Coords, EltTy.bits .f32 = 32 ∨ (Rect.block (s := S50000x96) S2000x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S50000x1.size a
  hwx3_4 : ∀ i : grid3.Coords, EltTy.bits .f32 = 32 ∨ (Rect.block (s := S50000x1) S2000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x96.size a ≤ S1x96.size a
  hwx3_5 : ∀ i : grid3.Coords, EltTy.bits .f32 = 32 ∨ (Rect.block (s := S1x96) S1x96.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x96.size a ≤ S1x96.size a
  hwx3_6 : ∀ i : grid3.Coords, EltTy.bits .f32 = 32 ∨ (Rect.block (s := S1x96) S1x96.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x96.size a ≤ S1x96.size a
  hwx3_7 : ∀ i : grid3.Coords, EltTy.bits .f32 = 32 ∨ (Rect.block (s := S1x96) S1x96.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x96.size a ≤ S1x96.size a
  hwx3_8 : ∀ i : grid3.Coords, EltTy.bits .f32 = 32 ∨ (Rect.block (s := S1x96) S1x96.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x96.size a ≤ S50000x96.size a
  hwx3_9 : ∀ i : grid3.Coords, EltTy.bits .f32 = 32 ∨ (Rect.block (s := S50000x96) S2000x96.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x96.size a ≤ S50000x96.size a
  hwx3_10 : ∀ i : grid3.Coords, EltTy.bits .f32 = 32 ∨ (Rect.block (s := S50000x96) S2000x96.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x96.size a ≤ S50000x96.size a
  hwx4_0 : ∀ i : grid4.Coords, EltTy.bits .f32 = 32 ∨ (Rect.block (s := S50000x96) S2000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x96.size a ≤ S50000x96.size a
  hwx4_1 : ∀ i : grid4.Coords, EltTy.bits .f32 = 32 ∨ (Rect.block (s := S50000x96) S2000x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x96.size a ≤ S50000x96.size a
  hwx4_2 : ∀ i : grid4.Coords, EltTy.bits .f32 = 32 ∨ (Rect.block (s := S50000x96) S2000x96.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x96.size a ≤ S50000x96.size a
  hwx4_3 : ∀ i : grid4.Coords, EltTy.bits .f32 = 32 ∨ (Rect.block (s := S50000x96) S2000x96.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x1.size a ≤ S50000x1.size a
  hwx4_4 : ∀ i : grid4.Coords, EltTy.bits .f32 = 32 ∨ (Rect.block (s := S50000x1) S2000x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x96.size a ≤ S1x96.size a
  hwx4_5 : ∀ i : grid4.Coords, EltTy.bits .f32 = 32 ∨ (Rect.block (s := S1x96) S1x96.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x96.size a ≤ S1x96.size a
  hwx4_6 : ∀ i : grid4.Coords, EltTy.bits .f32 = 32 ∨ (Rect.block (s := S1x96) S1x96.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x96.size a ≤ S1x96.size a
  hwx4_7 : ∀ i : grid4.Coords, EltTy.bits .f32 = 32 ∨ (Rect.block (s := S1x96) S1x96.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x96.size a ≤ S1x96.size a
  hwx4_8 : ∀ i : grid4.Coords, EltTy.bits .f32 = 32 ∨ (Rect.block (s := S1x96) S1x96.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x96.size a ≤ S50000x96.size a
  hwx4_9 : ∀ i : grid4.Coords, EltTy.bits .f32 = 32 ∨ (Rect.block (s := S50000x96) S2000x96.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x96.size a ≤ S50000x96.size a
  hwx4_10 : ∀ i : grid4.Coords, EltTy.bits .f32 = 32 ∨ (Rect.block (s := S50000x96) S2000x96.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x96.size a ≤ S50000x96.size a
  hwx5_0 : ∀ i : grid5.Coords, EltTy.bits .f32 = 32 ∨ (Rect.block (s := S50000x96) S2000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x96.size a ≤ S50000x96.size a
  hwx5_1 : ∀ i : grid5.Coords, EltTy.bits .f32 = 32 ∨ (Rect.block (s := S50000x96) S2000x96.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x96.size a ≤ S50000x96.size a
  hwx5_2 : ∀ i : grid5.Coords, EltTy.bits .f32 = 32 ∨ (Rect.block (s := S50000x96) S2000x96.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x96.size a ≤ S50000x96.size a
  hwx5_3 : ∀ i : grid5.Coords, EltTy.bits .f32 = 32 ∨ (Rect.block (s := S50000x96) S2000x96.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x1.size a ≤ S50000x1.size a
  hwx5_4 : ∀ i : grid5.Coords, EltTy.bits .f32 = 32 ∨ (Rect.block (s := S50000x1) S2000x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x96.size a ≤ S1x96.size a
  hwx5_5 : ∀ i : grid5.Coords, EltTy.bits .f32 = 32 ∨ (Rect.block (s := S1x96) S1x96.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x96.size a ≤ S1x96.size a
  hwx5_6 : ∀ i : grid5.Coords, EltTy.bits .f32 = 32 ∨ (Rect.block (s := S1x96) S1x96.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x96.size a ≤ S1x96.size a
  hwx5_7 : ∀ i : grid5.Coords, EltTy.bits .f32 = 32 ∨ (Rect.block (s := S1x96) S1x96.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x96.size a ≤ S1x96.size a
  hwx5_8 : ∀ i : grid5.Coords, EltTy.bits .f32 = 32 ∨ (Rect.block (s := S1x96) S1x96.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S96x40.size a ≤ S96x40.size a
  hwx5_9 : ∀ i : grid5.Coords, EltTy.bits .f32 = 32 ∨ (Rect.block (s := S96x40) S96x40.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S96x40.size a ≤ S96x40.size a
  hwx5_10 : ∀ i : grid5.Coords, EltTy.bits .f32 = 32 ∨ (Rect.block (s := S96x40) S96x40.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x40.size a ≤ S1x40.size a
  hwx5_11 : ∀ i : grid5.Coords, EltTy.bits .f32 = 32 ∨ (Rect.block (s := S1x40) S1x40.size (cc5_transform_11 i) (hinb5_11 i)).WholeWords (EltTy.packing .f32)
  hstage5_12 : ∀ j, (stage5_12 j).IsWhole
  nbuf5_12 : grid5.bufCount reads5_12 false = 2
  hreads5_12 : ∀ i i' : grid5.Coords, (∀ a, reads5_12 a = true → i a = i' a) → cc5_transform_12 i = cc5_transform_12 i'
  hinb5_12 : ∀ (i : grid5.Coords) a, (cc5_transform_12 i a + 1) * S2000x40.size a ≤ S50000x40.size a
  hwx5_12 : ∀ i : grid5.Coords, EltTy.bits .f32 = 32 ∨ (Rect.block (s := S50000x40) S2000x40.size (cc5_transform_12 i) (hinb5_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S2000x96_S96x40_S2000x40_1_0_0_1_n_n : DotDims S2000x96 S96x40 S2000x40 where
  lhsContracting := [1]
  rhsContracting := [0]
  lhsNonContracting := [0]
  rhsNonContracting := [1]
  lhsBatch := []
  rhsBatch := []
  wf := dot_S2000x96_S96x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S2000x96.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S2000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15_0) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S2000x96.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1x96.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35_0) S2000x96.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v35_1) S2000x96.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v35_0) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35_1) S2000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x96.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x96.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v51) S1x96.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52) S1x96.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v53_0) S2000x96.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v53_1) S2000x96.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v53_0) S2000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53_1) S2000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2000x96.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S2000x96.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S2000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S1x96.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v69) S1x96.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v70) S1x96.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v71_0) S2000x96.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v71_1) S2000x96.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v71_0) S2000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71_1) S2000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S2000x96.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v84) S2000x96.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v12) S2000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v85) S1x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v86) S1x96.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v87) S1x96.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v88) S1x96.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v89_0) S2000x96.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v89_1) S2000x96.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v89_0) S2000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89_1) S2000x96.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v101) S2000x96.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v102) S2000x96.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v12) S2000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v103) S1x96.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v104) S1x96.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v105) S1x96.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v106) S1x96.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v16) S96x40.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v17) S96x40.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v107) S1x40.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v108) S2000x40.size cc5_transform_12 reads5_12 true false 2 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S5x96 : Shape := ⟨2, ![5, 96]⟩
abbrev S192x40 : Shape := ⟨2, ![192, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x96 : Shape := ⟨2, ![50000, 96]⟩
abbrev S1x96 : Shape := ⟨2, ![1, 96]⟩
abbrev S800000x96 : Shape := ⟨2, ![800000, 96]⟩
abbrev S50000x192 : Shape := ⟨2, ![50000, 192]⟩
abbrev S50000x40 : Shape := ⟨2, ![50000, 40]⟩
abbrev S1x40 : Shape := ⟨2, ![1, 40]⟩

abbrev nBuf : Space → Nat
  | .hbm => 349
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S128x96, .f32⟩
  | 5 => ⟨S96, .f32⟩
  | 6 => ⟨S5x96, .f32⟩
  | 7 => ⟨S5x96, .f32⟩
  | 8 => ⟨S5x96, .f32⟩
  | 9 => ⟨S5x96, .f32⟩
  | 10 => ⟨S192x40, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x96, .f32⟩
  | 30 => ⟨S1x96, .f32⟩
  | 31 => ⟨S50000x96, .f32⟩
  | 32 => ⟨S50000x96, .f32⟩
  | 33 => ⟨S50000x96, .f32⟩
  | 34 => ⟨S50000x96, .f32⟩
  | 35 => ⟨S1x96, .f32⟩
  | 36 => ⟨S50000x96, .f32⟩
  | 37 => ⟨S50000x96, .f32⟩
  | 38 => ⟨S50000x96, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x96, .f32⟩
  | 48 => ⟨S_, .f32⟩
  | 49 => ⟨S50000x96, .f32⟩
  | 50 => ⟨S800000x1, .i32⟩
  | 51 => ⟨S50000x96, .f32⟩
  | 52 => ⟨S50000x96, .f32⟩
  | 53 => ⟨S50000x96, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x96, .f32⟩
  | 63 => ⟨S_, .f32⟩
  | 64 => ⟨S50000x96, .f32⟩
  | 65 => ⟨S800000x1, .i32⟩
  | 66 => ⟨S50000x96, .f32⟩
  | 67 => ⟨S50000x96, .f32⟩
  | 68 => ⟨S50000x96, .f32⟩
  | 69 => ⟨S_, .f32⟩
  | 70 => ⟨S50000x96, .f32⟩
  | 71 => ⟨S50000x96, .f32⟩
  | 72 => ⟨S1x96, .f32⟩
  | 73 => ⟨S96, .f32⟩
  | 74 => ⟨S1x96, .f32⟩
  | 75 => ⟨S96, .f32⟩
  | 76 => ⟨S1x96, .f32⟩
  | 77 => ⟨S50000x96, .f32⟩
  | 78 => ⟨S50000x96, .f32⟩
  | 79 => ⟨S1x96, .f32⟩
  | 80 => ⟨S50000x96, .f32⟩
  | 81 => ⟨S50000x96, .f32⟩
  | 82 => ⟨S50000x96, .f32⟩
  | 83 => ⟨S50000x96, .f32⟩
  | 84 => ⟨S_, .f32⟩
  | 85 => ⟨S50000x96, .f32⟩
  | 86 => ⟨S50000x96, .f32⟩
  | 87 => ⟨S1x96, .f32⟩
  | 88 => ⟨S96, .f32⟩
  | 89 => ⟨S96, .f32⟩
  | 90 => ⟨S1x96, .f32⟩
  | 91 => ⟨S96, .f32⟩
  | 92 => ⟨S1x96, .f32⟩
  | 93 => ⟨S50000x96, .f32⟩
  | 94 => ⟨S50000x96, .f32⟩
  | 95 => ⟨S1x96, .f32⟩
  | 96 => ⟨S50000x96, .f32⟩
  | 97 => ⟨S50000x96, .f32⟩
  | 98 => ⟨S50000x96, .f32⟩
  | 99 => ⟨S50000x96, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x96, .f32⟩
  | 109 => ⟨S_, .f32⟩
  | 110 => ⟨S50000x96, .f32⟩
  | 111 => ⟨S800000x1, .i32⟩
  | 112 => ⟨S50000x96, .f32⟩
  | 113 => ⟨S50000x96, .f32⟩
  | 114 => ⟨S50000x96, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x96, .f32⟩
  | 124 => ⟨S_, .f32⟩
  | 125 => ⟨S50000x96, .f32⟩
  | 126 => ⟨S800000x1, .i32⟩
  | 127 => ⟨S50000x96, .f32⟩
  | _ => ⟨S50000x128, .f32⟩

abbrev hbmTy0_1 (i : Nat) : BufTy := match i % 128 with
  | 0 => ⟨S50000x96, .f32⟩
  | 1 => ⟨S50000x96, .f32⟩
  | 2 => ⟨S_, .f32⟩
  | 3 => ⟨S50000x96, .f32⟩
  | 4 => ⟨S50000x96, .f32⟩
  | 5 => ⟨S1x96, .f32⟩
  | 6 => ⟨S96, .f32⟩
  | 7 => ⟨S1x96, .f32⟩
  | 8 => ⟨S96, .f32⟩
  | 9 => ⟨S1x96, .f32⟩
  | 10 => ⟨S50000x96, .f32⟩
  | 11 => ⟨S50000x96, .f32⟩
  | 12 => ⟨S1x96, .f32⟩
  | 13 => ⟨S50000x96, .f32⟩
  | 14 => ⟨S50000x96, .f32⟩
  | 15 => ⟨S50000x96, .f32⟩
  | 16 => ⟨S50000x96, .f32⟩
  | 17 => ⟨S_, .f32⟩
  | 18 => ⟨S50000x96, .f32⟩
  | 19 => ⟨S50000x96, .f32⟩
  | 20 => ⟨S1x96, .f32⟩
  | 21 => ⟨S96, .f32⟩
  | 22 => ⟨S96, .f32⟩
  | 23 => ⟨S1x96, .f32⟩
  | 24 => ⟨S96, .f32⟩
  | 25 => ⟨S1x96, .f32⟩
  | 26 => ⟨S50000x96, .f32⟩
  | 27 => ⟨S50000x96, .f32⟩
  | 28 => ⟨S1x96, .f32⟩
  | 29 => ⟨S50000x96, .f32⟩
  | 30 => ⟨S50000x96, .f32⟩
  | 31 => ⟨S50000x96, .f32⟩
  | 32 => ⟨S50000x96, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x96, .f32⟩
  | 42 => ⟨S_, .f32⟩
  | 43 => ⟨S50000x96, .f32⟩
  | 44 => ⟨S800000x1, .i32⟩
  | 45 => ⟨S50000x96, .f32⟩
  | 46 => ⟨S50000x96, .f32⟩
  | 47 => ⟨S50000x96, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x96, .f32⟩
  | 57 => ⟨S_, .f32⟩
  | 58 => ⟨S50000x96, .f32⟩
  | 59 => ⟨S800000x1, .i32⟩
  | 60 => ⟨S50000x96, .f32⟩
  | 61 => ⟨S50000x96, .f32⟩
  | 62 => ⟨S50000x96, .f32⟩
  | 63 => ⟨S_, .f32⟩
  | 64 => ⟨S50000x96, .f32⟩
  | 65 => ⟨S50000x96, .f32⟩
  | 66 => ⟨S1x96, .f32⟩
  | 67 => ⟨S96, .f32⟩
  | 68 => ⟨S1x96, .f32⟩
  | 69 => ⟨S96, .f32⟩
  | 70 => ⟨S1x96, .f32⟩
  | 71 => ⟨S50000x96, .f32⟩
  | 72 => ⟨S50000x96, .f32⟩
  | 73 => ⟨S1x96, .f32⟩
  | 74 => ⟨S50000x96, .f32⟩
  | 75 => ⟨S50000x96, .f32⟩
  | 76 => ⟨S50000x96, .f32⟩
  | 77 => ⟨S50000x96, .f32⟩
  | 78 => ⟨S_, .f32⟩
  | 79 => ⟨S50000x96, .f32⟩
  | 80 => ⟨S50000x96, .f32⟩
  | 81 => ⟨S1x96, .f32⟩
  | 82 => ⟨S96, .f32⟩
  | 83 => ⟨S96, .f32⟩
  | 84 => ⟨S1x96, .f32⟩
  | 85 => ⟨S96, .f32⟩
  | 86 => ⟨S1x96, .f32⟩
  | 87 => ⟨S50000x96, .f32⟩
  | 88 => ⟨S50000x96, .f32⟩
  | 89 => ⟨S1x96, .f32⟩
  | 90 => ⟨S50000x96, .f32⟩
  | 91 => ⟨S50000x96, .f32⟩
  | 92 => ⟨S50000x96, .f32⟩
  | 93 => ⟨S50000x96, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x96, .f32⟩
  | 103 => ⟨S_, .f32⟩
  | 104 => ⟨S50000x96, .f32⟩
  | 105 => ⟨S800000x1, .i32⟩
  | 106 => ⟨S50000x96, .f32⟩
  | 107 => ⟨S50000x96, .f32⟩
  | 108 => ⟨S50000x96, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x96, .f32⟩
  | 118 => ⟨S_, .f32⟩
  | 119 => ⟨S50000x96, .f32⟩
  | 120 => ⟨S800000x1, .i32⟩
  | 121 => ⟨S50000x96, .f32⟩
  | 122 => ⟨S50000x96, .f32⟩
  | 123 => ⟨S50000x96, .f32⟩
  | 124 => ⟨S_, .f32⟩
  | 125 => ⟨S50000x96, .f32⟩
  | 126 => ⟨S50000x96, .f32⟩
  | 127 => ⟨S1x96, .f32⟩
  | _ => ⟨S50000x128, .f32⟩

abbrev hbmTy0_2 (i : Nat) : BufTy := match i % 128 with
  | 0 => ⟨S96, .f32⟩
  | 1 => ⟨S1x96, .f32⟩
  | 2 => ⟨S96, .f32⟩
  | 3 => ⟨S1x96, .f32⟩
  | 4 => ⟨S50000x96, .f32⟩
  | 5 => ⟨S50000x96, .f32⟩
  | 6 => ⟨S1x96, .f32⟩
  | 7 => ⟨S50000x96, .f32⟩
  | 8 => ⟨S50000x96, .f32⟩
  | 9 => ⟨S50000x96, .f32⟩
  | 10 => ⟨S50000x96, .f32⟩
  | 11 => ⟨S_, .f32⟩
  | 12 => ⟨S50000x96, .f32⟩
  | 13 => ⟨S50000x96, .f32⟩
  | 14 => ⟨S1x96, .f32⟩
  | 15 => ⟨S96, .f32⟩
  | 16 => ⟨S96, .f32⟩
  | 17 => ⟨S1x96, .f32⟩
  | 18 => ⟨S96, .f32⟩
  | 19 => ⟨S1x96, .f32⟩
  | 20 => ⟨S50000x96, .f32⟩
  | 21 => ⟨S50000x96, .f32⟩
  | 22 => ⟨S1x96, .f32⟩
  | 23 => ⟨S50000x96, .f32⟩
  | 24 => ⟨S50000x96, .f32⟩
  | 25 => ⟨S50000x96, .f32⟩
  | 26 => ⟨S50000x96, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x96, .f32⟩
  | 36 => ⟨S_, .f32⟩
  | 37 => ⟨S50000x96, .f32⟩
  | 38 => ⟨S800000x1, .i32⟩
  | 39 => ⟨S50000x96, .f32⟩
  | 40 => ⟨S50000x96, .f32⟩
  | 41 => ⟨S50000x96, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x96, .f32⟩
  | 51 => ⟨S_, .f32⟩
  | 52 => ⟨S50000x96, .f32⟩
  | 53 => ⟨S800000x1, .i32⟩
  | 54 => ⟨S50000x96, .f32⟩
  | 55 => ⟨S50000x96, .f32⟩
  | 56 => ⟨S50000x96, .f32⟩
  | 57 => ⟨S_, .f32⟩
  | 58 => ⟨S50000x96, .f32⟩
  | 59 => ⟨S50000x96, .f32⟩
  | 60 => ⟨S1x96, .f32⟩
  | 61 => ⟨S96, .f32⟩
  | 62 => ⟨S1x96, .f32⟩
  | 63 => ⟨S96, .f32⟩
  | 64 => ⟨S1x96, .f32⟩
  | 65 => ⟨S50000x96, .f32⟩
  | 66 => ⟨S50000x96, .f32⟩
  | 67 => ⟨S1x96, .f32⟩
  | 68 => ⟨S50000x96, .f32⟩
  | 69 => ⟨S50000x96, .f32⟩
  | 70 => ⟨S50000x96, .f32⟩
  | 71 => ⟨S50000x96, .f32⟩
  | 72 => ⟨S_, .f32⟩
  | 73 => ⟨S50000x96, .f32⟩
  | 74 => ⟨S50000x96, .f32⟩
  | 75 => ⟨S1x96, .f32⟩
  | 76 => ⟨S96, .f32⟩
  | 77 => ⟨S96, .f32⟩
  | 78 => ⟨S1x96, .f32⟩
  | 79 => ⟨S96, .f32⟩
  | 80 => ⟨S1x96, .f32⟩
  | 81 => ⟨S50000x96, .f32⟩
  | 82 => ⟨S50000x96, .f32⟩
  | 83 => ⟨S1x96, .f32⟩
  | 84 => ⟨S50000x96, .f32⟩
  | 85 => ⟨S50000x96, .f32⟩
  | 86 => ⟨S50000x96, .f32⟩
  | 87 => ⟨S50000x96, .f32⟩
  | 88 => ⟨S50000x192, .f32⟩
  | 89 => ⟨S50000x40, .f32⟩
  | 90 => ⟨S1x40, .f32⟩
  | 91 => ⟨S50000x40, .f32⟩
  | 92 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_v76 : Ref sig .tc := ⟨.hbm, 101, rfl⟩
abbrev main_v77 : Ref sig .tc := ⟨.hbm, 102, rfl⟩
abbrev main_c_11 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_13 : Ref sig .tc := ⟨.hbm, 115, rfl⟩
abbrev main_v88 : Ref sig .tc := ⟨.hbm, 116, rfl⟩
abbrev main_v89 : Ref sig .tc := ⟨.hbm, 117, rfl⟩
abbrev main_c_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_15 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_16 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_17 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_c_18 : Ref sig .tc := ⟨.hbm, 161, rfl⟩
abbrev main_v129 : Ref sig .tc := ⟨.hbm, 162, rfl⟩
abbrev main_v130 : Ref sig .tc := ⟨.hbm, 163, rfl⟩
abbrev main_c_19 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_20 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_c_21 : Ref sig .tc := ⟨.hbm, 176, rfl⟩
abbrev main_v141 : Ref sig .tc := ⟨.hbm, 177, rfl⟩
abbrev main_v142 : Ref sig .tc := ⟨.hbm, 178, rfl⟩
abbrev main_c_22 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_23 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_24 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_25 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_c_26 : Ref sig .tc := ⟨.hbm, 222, rfl⟩
abbrev main_v182 : Ref sig .tc := ⟨.hbm, 223, rfl⟩
abbrev main_v183 : Ref sig .tc := ⟨.hbm, 224, rfl⟩
abbrev main_c_27 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_cst_28 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_c_29 : Ref sig .tc := ⟨.hbm, 237, rfl⟩
abbrev main_v194 : Ref sig .tc := ⟨.hbm, 238, rfl⟩
abbrev main_v195 : Ref sig .tc := ⟨.hbm, 239, rfl⟩
abbrev main_c_30 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_cst_31 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_cst_32 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_cst_33 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_c_34 : Ref sig .tc := ⟨.hbm, 283, rfl⟩
abbrev main_v235 : Ref sig .tc := ⟨.hbm, 284, rfl⟩
abbrev main_v236 : Ref sig .tc := ⟨.hbm, 285, rfl⟩
abbrev main_c_35 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_cst_36 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_c_37 : Ref sig .tc := ⟨.hbm, 298, rfl⟩
abbrev main_v247 : Ref sig .tc := ⟨.hbm, 299, rfl⟩
abbrev main_v248 : Ref sig .tc := ⟨.hbm, 300, rfl⟩
abbrev main_c_38 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_cst_39 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_cst_40 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_cst_41 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  slices_S5x96_S1x96_0_0 : S5x96.Slices ![0, 0] S1x96
  shapeCasts_S1x96_S96 : S1x96.ShapeCasts S96
  slices_S5x96_S1x96_1_0 : S5x96.Slices ![1, 0] S1x96
  slices_S5x96_S1x96_2_0 : S5x96.Slices ![2, 0] S1x96
  slices_S5x96_S1x96_3_0 : S5x96.Slices ![3, 0] S1x96
  slices_S5x96_S1x96_4_0 : S5x96.Slices ![4, 0] S1x96
  concatenates_S50000x96_S50000x96_S50000x192_d1 : Shape.Concatenates [S50000x96, S50000x96] S50000x192 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x192_S192x40_S50000x40_1_0_0_1_n_n_wf : DotDims.WF S50000x192 S192x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x40_S50000x40_1_0_0_1_n_n : DotDims S50000x192 S192x40 S50000x40 where
  lhsContracting := [1]
  rhsContracting := [0]
  lhsNonContracting := [0]
  rhsNonContracting := [1]
  lhsBatch := []
  rhsBatch := []
  wf := dot_S50000x192_S192x40_S50000x40_1_0_0_1_n_n_wf

class Facts : Prop extends Facts₀ where

variable [Facts]
-- ==== Proof.KRun.lean ====
/-
  The run of the kernel's program with its result named.

  The program is six grid regions among stretches of host operations. Its run ends with every buffer that outlives a
  region at the contents the last boundary of the fold gives it (the fold: a stretch applies its operations to the
  contents before it; a region replaces its arrays by what its write-backs leave). The frame reads the twelve
  arguments off that final state; here the result array is read off it as well, at the fold's last contents.
-/
import proofs.«101018_j498216206705_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array holding the last
    boundary's contents and the arguments unchanged. -/
theorem run : θ_run defs (onTc (τ := τ) (main (F := F))) ⟨m, fun _ => 0, ρ⟩ (fun r => ∀ c : Dev nD,
      r.2.mem ((c.tc : Thread nD τ).loc main_v108) = W12 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v108 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.KRun

end
-- ==== Proof.KHost.lean ====
/-
  The host stretches of the kernel's program, one at a time and from ANY contents `W` before the stretch: which
  buffers a stretch writes (every other buffer keeps its contents through it), and the contents it leaves in the
  buffers a later grid region reads, as the stretch's operations applied to the contents before it.

  The chains are named. `srcOf` / `dstOf`: the source and destination node of every edge, the two rows of the edge
  list. `dinvOf`: the reciprocal of a node's in-degree (the count of edges ending in it, at least one).
  `aggCat`: both species side by side (192 columns), each row gathered at the edges' sources and added up at the
  edges' destinations; `aggL` and `aggR` are its left and right 96 columns.
-/
import proofs.«101018_j498216206705_2_alg».proof.Proof.Gen.KernelIdeal.Launch
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- The edges' source nodes: row 0 of the edge list. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
/-- The edges' destination nodes: row 1 of the edge list. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000
/-- One over the in-degree (at least one) of every node, as a column. -/
def dinvOf (d : (⟨S800000, .i32⟩ : BufTy).Contents (Elt F)) : (⟨S50000x1, .f32⟩ : BufTy).Contents (Elt F) :=
  broadcastInDim S50000x1 ![0] bcast_S50000_S50000x1_0 (Host.divf (broadcastInDim S50000 ![] bcast_S_S50000 (constant S_ .f32 0x3F800000#32)) (maximumf (Host.scatterAdd scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))) (broadcastInDim S50000 ![] bcast_S_S50000 (constant S_ .f32 0x3F800000#32))))
/-- The rows to gather: a negative source node counted from the end. -/
def srcN (s : (⟨S800000, .i32⟩ : BufTy).Contents (Elt F)) : (⟨S800000x1, .i32⟩ : BufTy).Contents (Elt F) :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)
/-- The rows to add into. -/
def dstN (d : (⟨S800000, .i32⟩ : BufTy).Contents (Elt F)) : (⟨S800000x1, .i32⟩ : BufTy).Contents (Elt F) :=
  broadcastInDim S800000x1 ![0] bcast_S800000_S800000x1_0 d
/-- Both species side by side, summed over every node's in-neighbours. -/
def aggCat (X Y : (⟨S50000x96, .f32⟩ : BufTy).Contents (Elt F)) (d s : (⟨S800000, .i32⟩ : BufTy).Contents (Elt F)) : (⟨S50000x192, .f32⟩ : BufTy).Contents (Elt F) :=
  Host.scatterAdd scatter_S50000x192_S800000x1_S800000x192_1_0_0_1 (broadcastInDim S50000x192 ![] bcast_S_S50000x192 (constant S_ .f32 0x00000000#32)) (dstN d) (Host.gather gather_S50000x192_S800000x1_S800000x192_1_0_n_n_0_1_1192 (concatenate S50000x192 1 [⟨S50000x96, X⟩, ⟨S50000x96, Y⟩] concatenates_S50000x96_S50000x96_S50000x192_d1) (srcN s))
/-- Its left 96 columns: the first species' neighbour sums. -/
def aggL (X Y : (⟨S50000x96, .f32⟩ : BufTy).Contents (Elt F)) (d s : (⟨S800000, .i32⟩ : BufTy).Contents (Elt F)) : (⟨S50000x96, .f32⟩ : BufTy).Contents (Elt F) :=
  extractStridedSlice S50000x96 ![0, 0] (aggCat X Y d s) slices_S50000x192_S50000x96_0_0
/-- Its right 96 columns: the second species' neighbour sums. -/
def aggR (X Y : (⟨S50000x96, .f32⟩ : BufTy).Contents (Elt F)) (d s : (⟨S800000, .i32⟩ : BufTy).Contents (Elt F)) : (⟨S50000x96, .f32⟩ : BufTy).Contents (Elt F) :=
  extractStridedSlice S50000x96 ![0, 96] (aggCat X Y d s) slices_S50000x192_S50000x96_0_96

/-! ## Stretch 0 -/

/-- The buffers stretch 0 writes. -/
abbrev hostOps0_W : List (Ref sig .tc) := [main_v0, main_v1, main_v2, main_v3, main_cst, main_v4, main_cst_0, main_v5, main_v6, main_v7, main_cst_1, main_v8, main_v9, main_cst_2, main_v10, main_v11, main_v12, main_v13, main_v14]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))
/-- A buffer stretch 0 does not write keeps its contents through it. -/
theorem keep0 (W : Valuation τ sig (Elt F)) (r : Ref sig .tc) (h : r ∉ hostOps0_W) :
    after hostOps0 W (Proc.devRef .tc r) = W (Proc.devRef .tc r) :=
  after_of_writes_sub hostOps0 W hostOps0_writes h
theorem h0_v1 (W : Valuation τ sig (Elt F)) :
    after hostOps0 W (Proc.devRef .tc main_v1) = srcOf (W (Proc.devRef .tc main_arg1)) := by
  simp only [hostOps0]
  after_results_simp <;> rfl
theorem h0_v3 (W : Valuation τ sig (Elt F)) :
    after hostOps0 W (Proc.devRef .tc main_v3) = dstOf (W (Proc.devRef .tc main_arg1)) := by
  simp only [hostOps0]
  after_results_simp <;> rfl
theorem h0_v12 (W : Valuation τ sig (Elt F)) :
    after hostOps0 W (Proc.devRef .tc main_v12) = dinvOf (dstOf (W (Proc.devRef .tc main_arg1))) := by
  simp only [hostOps0]
  after_results_simp <;> rfl
theorem h0_v13 (W : Valuation τ sig (Elt F)) :
    after hostOps0 W (Proc.devRef .tc main_v13) = shapeCast _ (W (Proc.devRef .tc main_arg3)) shapeCasts_S96_S1x96 := by
  simp only [hostOps0]
  after_results_simp <;> rfl
theorem h0_v14 (W : Valuation τ sig (Elt F)) :
    after hostOps0 W (Proc.devRef .tc main_v14) = shapeCast _ (W (Proc.devRef .tc main_arg5)) shapeCasts_S96_S1x96 := by
  simp only [hostOps0]
  after_results_simp <;> rfl

/-! ## Stretch 1 -/

/-- The buffers stretch 1 writes. -/
abbrev hostOps1_W : List (Ref sig .tc) := [main_v16, main_v17, main_v18, main_c, main_v19, main_v20, main_c_3, main_v21, main_v22, main_v23, main_v24, main_v25, main_cst_4, main_v26, main_v27, main_v28, main_v29, main_v30, main_v31, main_v32, main_v33, main_v34]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))
/-- A buffer stretch 1 does not write keeps its contents through it. -/
theorem keep1 (W : Valuation τ sig (Elt F)) (r : Ref sig .tc) (h : r ∉ hostOps1_W) :
    after hostOps1 W (Proc.devRef .tc r) = W (Proc.devRef .tc r) :=
  after_of_writes_sub hostOps1 W hostOps1_writes h
theorem h1_v16 (W : Valuation τ sig (Elt F)) :
    after hostOps1 W (Proc.devRef .tc main_v16) = extractStridedSlice S96x40 ![0, 0] (W (Proc.devRef .tc main_arg10)) slices_S192x40_S96x40_0_0 := by
  simp only [hostOps1]
  after_results_simp <;> rfl
theorem h1_v17 (W : Valuation τ sig (Elt F)) :
    after hostOps1 W (Proc.devRef .tc main_v17) = extractStridedSlice S96x40 ![96, 0] (W (Proc.devRef .tc main_arg10)) slices_S192x40_S96x40_96_0 := by
  simp only [hostOps1]
  after_results_simp <;> rfl
theorem h1_v29 (W : Valuation τ sig (Elt F)) :
    after hostOps1 W (Proc.devRef .tc main_v29) = aggL (W (Proc.devRef .tc main_v15_0)) (W (Proc.devRef .tc main_v15_1)) (W (Proc.devRef .tc main_v3)) (W (Proc.devRef .tc main_v1)) := by
  simp only [hostOps1]
  after_results_simp <;> rfl
theorem h1_v30 (W : Valuation τ sig (Elt F)) :
    after hostOps1 W (Proc.devRef .tc main_v30) = aggR (W (Proc.devRef .tc main_v15_0)) (W (Proc.devRef .tc main_v15_1)) (W (Proc.devRef .tc main_v3)) (W (Proc.devRef .tc main_v1)) := by
  simp only [hostOps1]
  after_results_simp <;> rfl
theorem h1_v31 (W : Valuation τ sig (Elt F)) :
    after hostOps1 W (Proc.devRef .tc main_v31) = extractStridedSlice S1x96 ![0, 0] (W (Proc.devRef .tc main_arg6)) slices_S5x96_S1x96_0_0 := by
  simp only [hostOps1]
  after_results_simp <;> rfl
theorem h1_v32 (W : Valuation τ sig (Elt F)) :
    after hostOps1 W (Proc.devRef .tc main_v32) = extractStridedSlice S1x96 ![0, 0] (W (Proc.devRef .tc main_arg7)) slices_S5x96_S1x96_0_0 := by
  simp only [hostOps1]
  after_results_simp <;> rfl
theorem h1_v33 (W : Valuation τ sig (Elt F)) :
    after hostOps1 W (Proc.devRef .tc main_v33) = extractStridedSlice S1x96 ![0, 0] (W (Proc.devRef .tc main_arg8)) slices_S5x96_S1x96_0_0 := by
  simp only [hostOps1]
  after_results_simp <;> rfl
theorem h1_v34 (W : Valuation τ sig (Elt F)) :
    after hostOps1 W (Proc.devRef .tc main_v34) = extractStridedSlice S1x96 ![0, 0] (W (Proc.devRef .tc main_arg9)) slices_S5x96_S1x96_0_0 := by
  simp only [hostOps1]
  after_results_simp <;> rfl

/-! ## Stretch 2 -/

/-- The buffers stretch 2 writes. -/
abbrev hostOps2_W : List (Ref sig .tc) := [main_v36, main_c_5, main_v37, main_v38, main_c_6, main_v39, main_v40, main_v41, main_v42, main_v43, main_cst_7, main_v44, main_v45, main_v46, main_v47, main_v48, main_v49, main_v50, main_v51, main_v52]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))
/-- A buffer stretch 2 does not write keeps its contents through it. -/
theorem keep2 (W : Valuation τ sig (Elt F)) (r : Ref sig .tc) (h : r ∉ hostOps2_W) :
    after hostOps2 W (Proc.devRef .tc r) = W (Proc.devRef .tc r) :=
  after_of_writes_sub hostOps2 W hostOps2_writes h
theorem h2_v47 (W : Valuation τ sig (Elt F)) :
    after hostOps2 W (Proc.devRef .tc main_v47) = aggL (W (Proc.devRef .tc main_v35_0)) (W (Proc.devRef .tc main_v35_1)) (W (Proc.devRef .tc main_v3)) (W (Proc.devRef .tc main_v1)) := by
  simp only [hostOps2]
  after_results_simp <;> rfl
theorem h2_v48 (W : Valuation τ sig (Elt F)) :
    after hostOps2 W (Proc.devRef .tc main_v48) = aggR (W (Proc.devRef .tc main_v35_0)) (W (Proc.devRef .tc main_v35_1)) (W (Proc.devRef .tc main_v3)) (W (Proc.devRef .tc main_v1)) := by
  simp only [hostOps2]
  after_results_simp <;> rfl
theorem h2_v49 (W : Valuation τ sig (Elt F)) :
    after hostOps2 W (Proc.devRef .tc main_v49) = extractStridedSlice S1x96 ![1, 0] (W (Proc.devRef .tc main_arg6)) slices_S5x96_S1x96_1_0 := by
  simp only [hostOps2]
  after_results_simp <;> rfl
theorem h2_v50 (W : Valuation τ sig (Elt F)) :
    after hostOps2 W (Proc.devRef .tc main_v50) = extractStridedSlice S1x96 ![1, 0] (W (Proc.devRef .tc main_arg7)) slices_S5x96_S1x96_1_0 := by
  simp only [hostOps2]
  after_results_simp <;> rfl
theorem h2_v51 (W : Valuation τ sig (Elt F)) :
    after hostOps2 W (Proc.devRef .tc main_v51) = extractStridedSlice S1x96 ![1, 0] (W (Proc.devRef .tc main_arg8)) slices_S5x96_S1x96_1_0 := by
  simp only [hostOps2]
  after_results_simp <;> rfl
theorem h2_v52 (W : Valuation τ sig (Elt F)) :
    after hostOps2 W (Proc.devRef .tc main_v52) = extractStridedSlice S1x96 ![1, 0] (W (Proc.devRef .tc main_arg9)) slices_S5x96_S1x96_1_0 := by
  simp only [hostOps2]
  after_results_simp <;> rfl

/-! ## Stretch 3 -/

/-- The buffers stretch 3 writes. -/
abbrev hostOps3_W : List (Ref sig .tc) := [main_v54, main_c_8, main_v55, main_v56, main_c_9, main_v57, main_v58, main_v59, main_v60, main_v61, main_cst_10, main_v62, main_v63, main_v64, main_v65, main_v66, main_v67, main_v68, main_v69, main_v70]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))
/-- A buffer stretch 3 does not write keeps its contents through it. -/
theorem keep3 (W : Valuation τ sig (Elt F)) (r : Ref sig .tc) (h : r ∉ hostOps3_W) :
    after hostOps3 W (Proc.devRef .tc r) = W (Proc.devRef .tc r) :=
  after_of_writes_sub hostOps3 W hostOps3_writes h
theorem h3_v65 (W : Valuation τ sig (Elt F)) :
    after hostOps3 W (Proc.devRef .tc main_v65) = aggL (W (Proc.devRef .tc main_v53_0)) (W (Proc.devRef .tc main_v53_1)) (W (Proc.devRef .tc main_v3)) (W (Proc.devRef .tc main_v1)) := by
  simp only [hostOps3]
  after_results_simp <;> rfl
theorem h3_v66 (W : Valuation τ sig (Elt F)) :
    after hostOps3 W (Proc.devRef .tc main_v66) = aggR (W (Proc.devRef .tc main_v53_0)) (W (Proc.devRef .tc main_v53_1)) (W (Proc.devRef .tc main_v3)) (W (Proc.devRef .tc main_v1)) := by
  simp only [hostOps3]
  after_results_simp <;> rfl
theorem h3_v67 (W : Valuation τ sig (Elt F)) :
    after hostOps3 W (Proc.devRef .tc main_v67) = extractStridedSlice S1x96 ![2, 0] (W (Proc.devRef .tc main_arg6)) slices_S5x96_S1x96_2_0 := by
  simp only [hostOps3]
  after_results_simp <;> rfl
theorem h3_v68 (W : Valuation τ sig (Elt F)) :
    after hostOps3 W (Proc.devRef .tc main_v68) = extractStridedSlice S1x96 ![2, 0] (W (Proc.devRef .tc main_arg7)) slices_S5x96_S1x96_2_0 := by
  simp only [hostOps3]
  after_results_simp <;> rfl
theorem h3_v69 (W : Valuation τ sig (Elt F)) :
    after hostOps3 W (Proc.devRef .tc main_v69) = extractStridedSlice S1x96 ![2, 0] (W (Proc.devRef .tc main_arg8)) slices_S5x96_S1x96_2_0 := by
  simp only [hostOps3]
  after_results_simp <;> rfl
theorem h3_v70 (W : Valuation τ sig (Elt F)) :
    after hostOps3 W (Proc.devRef .tc main_v70) = extractStridedSlice S1x96 ![2, 0] (W (Proc.devRef .tc main_arg9)) slices_S5x96_S1x96_2_0 := by
  simp only [hostOps3]
  after_results_simp <;> rfl

/-! ## Stretch 4 -/

/-- The buffers stretch 4 writes. -/
abbrev hostOps4_W : List (Ref sig .tc) := [main_v72, main_c_11, main_v73, main_v74, main_c_12, main_v75, main_v76, main_v77, main_v78, main_v79, main_cst_13, main_v80, main_v81, main_v82, main_v83, main_v84, main_v85, main_v86, main_v87, main_v88]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))
/-- A buffer stretch 4 does not write keeps its contents through it. -/
theorem keep4 (W : Valuation τ sig (Elt F)) (r : Ref sig .tc) (h : r ∉ hostOps4_W) :
    after hostOps4 W (Proc.devRef .tc r) = W (Proc.devRef .tc r) :=
  after_of_writes_sub hostOps4 W hostOps4_writes h
theorem h4_v83 (W : Valuation τ sig (Elt F)) :
    after hostOps4 W (Proc.devRef .tc main_v83) = aggL (W (Proc.devRef .tc main_v71_0)) (W (Proc.devRef .tc main_v71_1)) (W (Proc.devRef .tc main_v3)) (W (Proc.devRef .tc main_v1)) := by
  simp only [hostOps4]
  after_results_simp <;> rfl
theorem h4_v84 (W : Valuation τ sig (Elt F)) :
    after hostOps4 W (Proc.devRef .tc main_v84) = aggR (W (Proc.devRef .tc main_v71_0)) (W (Proc.devRef .tc main_v71_1)) (W (Proc.devRef .tc main_v3)) (W (Proc.devRef .tc main_v1)) := by
  simp only [hostOps4]
  after_results_simp <;> rfl
theorem h4_v85 (W : Valuation τ sig (Elt F)) :
    after hostOps4 W (Proc.devRef .tc main_v85) = extractStridedSlice S1x96 ![3, 0] (W (Proc.devRef .tc main_arg6)) slices_S5x96_S1x96_3_0 := by
  simp only [hostOps4]
  after_results_simp <;> rfl
theorem h4_v86 (W : Valuation τ sig (Elt F)) :
    after hostOps4 W (Proc.devRef .tc main_v86) = extractStridedSlice S1x96 ![3, 0] (W (Proc.devRef .tc main_arg7)) slices_S5x96_S1x96_3_0 := by
  simp only [hostOps4]
  after_results_simp <;> rfl
theorem h4_v87 (W : Valuation τ sig (Elt F)) :
    after hostOps4 W (Proc.devRef .tc main_v87) = extractStridedSlice S1x96 ![3, 0] (W (Proc.devRef .tc main_arg8)) slices_S5x96_S1x96_3_0 := by
  simp only [hostOps4]
  after_results_simp <;> rfl
theorem h4_v88 (W : Valuation τ sig (Elt F)) :
    after hostOps4 W (Proc.devRef .tc main_v88) = extractStridedSlice S1x96 ![3, 0] (W (Proc.devRef .tc main_arg9)) slices_S5x96_S1x96_3_0 := by
  simp only [hostOps4]
  after_results_simp <;> rfl

/-! ## Stretch 5 -/

/-- The buffers stretch 5 writes. -/
abbrev hostOps5_W : List (Ref sig .tc) := [main_v90, main_c_14, main_v91, main_v92, main_c_15, main_v93, main_v94, main_v95, main_v96, main_v97, main_cst_16, main_v98, main_v99, main_v100, main_v101, main_v102, main_v103, main_v104, main_v105, main_v106, main_v107]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))
/-- A buffer stretch 5 does not write keeps its contents through it. -/
theorem keep5 (W : Valuation τ sig (Elt F)) (r : Ref sig .tc) (h : r ∉ hostOps5_W) :
    after hostOps5 W (Proc.devRef .tc r) = W (Proc.devRef .tc r) :=
  after_of_writes_sub hostOps5 W hostOps5_writes h
theorem h5_v101 (W : Valuation τ sig (Elt F)) :
    after hostOps5 W (Proc.devRef .tc main_v101) = aggL (W (Proc.devRef .tc main_v89_0)) (W (Proc.devRef .tc main_v89_1)) (W (Proc.devRef .tc main_v3)) (W (Proc.devRef .tc main_v1)) := by
  simp only [hostOps5]
  after_results_simp <;> rfl
theorem h5_v102 (W : Valuation τ sig (Elt F)) :
    after hostOps5 W (Proc.devRef .tc main_v102) = aggR (W (Proc.devRef .tc main_v89_0)) (W (Proc.devRef .tc main_v89_1)) (W (Proc.devRef .tc main_v3)) (W (Proc.devRef .tc main_v1)) := by
  simp only [hostOps5]
  after_results_simp <;> rfl
theorem h5_v103 (W : Valuation τ sig (Elt F)) :
    after hostOps5 W (Proc.devRef .tc main_v103) = extractStridedSlice S1x96 ![4, 0] (W (Proc.devRef .tc main_arg6)) slices_S5x96_S1x96_4_0 := by
  simp only [hostOps5]
  after_results_simp <;> rfl
theorem h5_v104 (W : Valuation τ sig (Elt F)) :
    after hostOps5 W (Proc.devRef .tc main_v104) = extractStridedSlice S1x96 ![4, 0] (W (Proc.devRef .tc main_arg7)) slices_S5x96_S1x96_4_0 := by
  simp only [hostOps5]
  after_results_simp <;> rfl
theorem h5_v105 (W : Valuation τ sig (Elt F)) :
    after hostOps5 W (Proc.devRef .tc main_v105) = extractStridedSlice S1x96 ![4, 0] (W (Proc.devRef .tc main_arg8)) slices_S5x96_S1x96_4_0 := by
  simp only [hostOps5]
  after_results_simp <;> rfl
theorem h5_v106 (W : Valuation τ sig (Elt F)) :
    after hostOps5 W (Proc.devRef .tc main_v106) = extractStridedSlice S1x96 ![4, 0] (W (Proc.devRef .tc main_arg9)) slices_S5x96_S1x96_4_0 := by
  simp only [hostOps5]
  after_results_simp <;> rfl
theorem h5_v107 (W : Valuation τ sig (Elt F)) :
    after hostOps5 W (Proc.devRef .tc main_v107) = shapeCast _ (W (Proc.devRef .tc main_arg11)) shapeCasts_S40_S1x40 := by
  simp only [hostOps5]
  after_results_simp <;> rfl

end Cert.KernelIdeal.KHost

end
-- ==== Proof.KCarry.lean ====
/-
  The kernel's program as a fold over its boundaries: the buffers a later stretch or region reads, at every boundary
  on the way, in terms of the memory the program was launched from.

  A buffer that a stretch does not write keeps its contents through the stretch; a buffer that is not an array of a
  region keeps its contents through the region; an input array of a region is handed back as the region found it.
  So the edge lists, the reciprocal degrees, the coefficient arrays and the readout's weights reach the place they
  are used unchanged, and every step's coefficient rows, starting species and neighbour sums are the named chains of
  the host-stretch module applied to them.
-/
import proofs.«101018_j498216206705_2_alg».proof.Proof.Gen.KernelIdeal.Frame
import proofs.«101018_j498216206705_2_alg».proof.Proof.KHost

set_option maxRecDepth 16384

noncomputable section

namespace Cert.KernelIdeal.KCarry

open Cert.KernelIdeal Cert.KernelIdeal.Gen Cert.KernelIdeal.KHost
open Idealize.ShloMosaic Idealize.ShloMosaic.TcCoe Idealize.SL.Sem Idealize.ShloMosaic.StableHlo
open Idealize.ShloMosaic.Pipeline (Dat Cfg Window)

variable {F : FTy → Type} [FloatOps F]

variable (m : (ℓ : Loc nD τ sig) → Buf (Elt F) ℓ) (ρ : Dev nD → PrngReg) (c : Dev nD)

/-! ## The arguments a later stretch reads, and the edge lists: never written again, no region's array -/

theorem arg6_1 : W1 m ρ c (Proc.devRef .tc main_arg6) = m ((c : Thread nD τ).loc main_arg6) :=
  keep0 (W0 m ρ c) main_arg6 (by decide)
theorem arg6_2 : W2 m ρ c (Proc.devRef .tc main_arg6) = m ((c : Thread nD τ).loc main_arg6) :=
  (W2_of_ne m ρ c main_arg6 (by decide)).trans (arg6_1 m ρ c)
theorem arg6_3 : W3 m ρ c (Proc.devRef .tc main_arg6) = m ((c : Thread nD τ).loc main_arg6) :=
  (keep1 (W2 m ρ c) main_arg6 (by decide)).trans (arg6_2 m ρ c)
theorem arg6_4 : W4 m ρ c (Proc.devRef .tc main_arg6) = m ((c : Thread nD τ).loc main_arg6) :=
  (W4_of_ne m ρ c main_arg6 (by decide)).trans (arg6_3 m ρ c)
theorem arg6_5 : W5 m ρ c (Proc.devRef .tc main_arg6) = m ((c : Thread nD τ).loc main_arg6) :=
  (keep2 (W4 m ρ c) main_arg6 (by decide)).trans (arg6_4 m ρ c)
theorem arg6_6 : W6 m ρ c (Proc.devRef .tc main_arg6) = m ((c : Thread nD τ).loc main_arg6) :=
  (W6_of_ne m ρ c main_arg6 (by decide)).trans (arg6_5 m ρ c)
theorem arg6_7 : W7 m ρ c (Proc.devRef .tc main_arg6) = m ((c : Thread nD τ).loc main_arg6) :=
  (keep3 (W6 m ρ c) main_arg6 (by decide)).trans (arg6_6 m ρ c)
theorem arg6_8 : W8 m ρ c (Proc.devRef .tc main_arg6) = m ((c : Thread nD τ).loc main_arg6) :=
  (W8_of_ne m ρ c main_arg6 (by decide)).trans (arg6_7 m ρ c)
theorem arg6_9 : W9 m ρ c (Proc.devRef .tc main_arg6) = m ((c : Thread nD τ).loc main_arg6) :=
  (keep4 (W8 m ρ c) main_arg6 (by decide)).trans (arg6_8 m ρ c)
theorem arg6_10 : W10 m ρ c (Proc.devRef .tc main_arg6) = m ((c : Thread nD τ).loc main_arg6) :=
  (W10_of_ne m ρ c main_arg6 (by decide)).trans (arg6_9 m ρ c)
theorem arg7_1 : W1 m ρ c (Proc.devRef .tc main_arg7) = m ((c : Thread nD τ).loc main_arg7) :=
  keep0 (W0 m ρ c) main_arg7 (by decide)
theorem arg7_2 : W2 m ρ c (Proc.devRef .tc main_arg7) = m ((c : Thread nD τ).loc main_arg7) :=
  (W2_of_ne m ρ c main_arg7 (by decide)).trans (arg7_1 m ρ c)
theorem arg7_3 : W3 m ρ c (Proc.devRef .tc main_arg7) = m ((c : Thread nD τ).loc main_arg7) :=
  (keep1 (W2 m ρ c) main_arg7 (by decide)).trans (arg7_2 m ρ c)
theorem arg7_4 : W4 m ρ c (Proc.devRef .tc main_arg7) = m ((c : Thread nD τ).loc main_arg7) :=
  (W4_of_ne m ρ c main_arg7 (by decide)).trans (arg7_3 m ρ c)
theorem arg7_5 : W5 m ρ c (Proc.devRef .tc main_arg7) = m ((c : Thread nD τ).loc main_arg7) :=
  (keep2 (W4 m ρ c) main_arg7 (by decide)).trans (arg7_4 m ρ c)
theorem arg7_6 : W6 m ρ c (Proc.devRef .tc main_arg7) = m ((c : Thread nD τ).loc main_arg7) :=
  (W6_of_ne m ρ c main_arg7 (by decide)).trans (arg7_5 m ρ c)
theorem arg7_7 : W7 m ρ c (Proc.devRef .tc main_arg7) = m ((c : Thread nD τ).loc main_arg7) :=
  (keep3 (W6 m ρ c) main_arg7 (by decide)).trans (arg7_6 m ρ c)
theorem arg7_8 : W8 m ρ c (Proc.devRef .tc main_arg7) = m ((c : Thread nD τ).loc main_arg7) :=
  (W8_of_ne m ρ c main_arg7 (by decide)).trans (arg7_7 m ρ c)
theorem arg7_9 : W9 m ρ c (Proc.devRef .tc main_arg7) = m ((c : Thread nD τ).loc main_arg7) :=
  (keep4 (W8 m ρ c) main_arg7 (by decide)).trans (arg7_8 m ρ c)
theorem arg7_10 : W10 m ρ c (Proc.devRef .tc main_arg7) = m ((c : Thread nD τ).loc main_arg7) :=
  (W10_of_ne m ρ c main_arg7 (by decide)).trans (arg7_9 m ρ c)
theorem arg8_1 : W1 m ρ c (Proc.devRef .tc main_arg8) = m ((c : Thread nD τ).loc main_arg8) :=
  keep0 (W0 m ρ c) main_arg8 (by decide)
theorem arg8_2 : W2 m ρ c (Proc.devRef .tc main_arg8) = m ((c : Thread nD τ).loc main_arg8) :=
  (W2_of_ne m ρ c main_arg8 (by decide)).trans (arg8_1 m ρ c)
theorem arg8_3 : W3 m ρ c (Proc.devRef .tc main_arg8) = m ((c : Thread nD τ).loc main_arg8) :=
  (keep1 (W2 m ρ c) main_arg8 (by decide)).trans (arg8_2 m ρ c)
theorem arg8_4 : W4 m ρ c (Proc.devRef .tc main_arg8) = m ((c : Thread nD τ).loc main_arg8) :=
  (W4_of_ne m ρ c main_arg8 (by decide)).trans (arg8_3 m ρ c)
theorem arg8_5 : W5 m ρ c (Proc.devRef .tc main_arg8) = m ((c : Thread nD τ).loc main_arg8) :=
  (keep2 (W4 m ρ c) main_arg8 (by decide)).trans (arg8_4 m ρ c)
theorem arg8_6 : W6 m ρ c (Proc.devRef .tc main_arg8) = m ((c : Thread nD τ).loc main_arg8) :=
  (W6_of_ne m ρ c main_arg8 (by decide)).trans (arg8_5 m ρ c)
theorem arg8_7 : W7 m ρ c (Proc.devRef .tc main_arg8) = m ((c : Thread nD τ).loc main_arg8) :=
  (keep3 (W6 m ρ c) main_arg8 (by decide)).trans (arg8_6 m ρ c)
theorem arg8_8 : W8 m ρ c (Proc.devRef .tc main_arg8) = m ((c : Thread nD τ).loc main_arg8) :=
  (W8_of_ne m ρ c main_arg8 (by decide)).trans (arg8_7 m ρ c)
theorem arg8_9 : W9 m ρ c (Proc.devRef .tc main_arg8) = m ((c : Thread nD τ).loc main_arg8) :=
  (keep4 (W8 m ρ c) main_arg8 (by decide)).trans (arg8_8 m ρ c)
theorem arg8_10 : W10 m ρ c (Proc.devRef .tc main_arg8) = m ((c : Thread nD τ).loc main_arg8) :=
  (W10_of_ne m ρ c main_arg8 (by decide)).trans (arg8_9 m ρ c)
theorem arg9_1 : W1 m ρ c (Proc.devRef .tc main_arg9) = m ((c : Thread nD τ).loc main_arg9) :=
  keep0 (W0 m ρ c) main_arg9 (by decide)
theorem arg9_2 : W2 m ρ c (Proc.devRef .tc main_arg9) = m ((c : Thread nD τ).loc main_arg9) :=
  (W2_of_ne m ρ c main_arg9 (by decide)).trans (arg9_1 m ρ c)
theorem arg9_3 : W3 m ρ c (Proc.devRef .tc main_arg9) = m ((c : Thread nD τ).loc main_arg9) :=
  (keep1 (W2 m ρ c) main_arg9 (by decide)).trans (arg9_2 m ρ c)
theorem arg9_4 : W4 m ρ c (Proc.devRef .tc main_arg9) = m ((c : Thread nD τ).loc main_arg9) :=
  (W4_of_ne m ρ c main_arg9 (by decide)).trans (arg9_3 m ρ c)
theorem arg9_5 : W5 m ρ c (Proc.devRef .tc main_arg9) = m ((c : Thread nD τ).loc main_arg9) :=
  (keep2 (W4 m ρ c) main_arg9 (by decide)).trans (arg9_4 m ρ c)
theorem arg9_6 : W6 m ρ c (Proc.devRef .tc main_arg9) = m ((c : Thread nD τ).loc main_arg9) :=
  (W6_of_ne m ρ c main_arg9 (by decide)).trans (arg9_5 m ρ c)
theorem arg9_7 : W7 m ρ c (Proc.devRef .tc main_arg9) = m ((c : Thread nD τ).loc main_arg9) :=
  (keep3 (W6 m ρ c) main_arg9 (by decide)).trans (arg9_6 m ρ c)
theorem arg9_8 : W8 m ρ c (Proc.devRef .tc main_arg9) = m ((c : Thread nD τ).loc main_arg9) :=
  (W8_of_ne m ρ c main_arg9 (by decide)).trans (arg9_7 m ρ c)
theorem arg9_9 : W9 m ρ c (Proc.devRef .tc main_arg9) = m ((c : Thread nD τ).loc main_arg9) :=
  (keep4 (W8 m ρ c) main_arg9 (by decide)).trans (arg9_8 m ρ c)
theorem arg9_10 : W10 m ρ c (Proc.devRef .tc main_arg9) = m ((c : Thread nD τ).loc main_arg9) :=
  (W10_of_ne m ρ c main_arg9 (by decide)).trans (arg9_9 m ρ c)
theorem arg10_1 : W1 m ρ c (Proc.devRef .tc main_arg10) = m ((c : Thread nD τ).loc main_arg10) :=
  keep0 (W0 m ρ c) main_arg10 (by decide)
theorem arg10_2 : W2 m ρ c (Proc.devRef .tc main_arg10) = m ((c : Thread nD τ).loc main_arg10) :=
  (W2_of_ne m ρ c main_arg10 (by decide)).trans (arg10_1 m ρ c)
theorem arg10_3 : W3 m ρ c (Proc.devRef .tc main_arg10) = m ((c : Thread nD τ).loc main_arg10) :=
  (keep1 (W2 m ρ c) main_arg10 (by decide)).trans (arg10_2 m ρ c)
theorem arg10_4 : W4 m ρ c (Proc.devRef .tc main_arg10) = m ((c : Thread nD τ).loc main_arg10) :=
  (W4_of_ne m ρ c main_arg10 (by decide)).trans (arg10_3 m ρ c)
theorem arg10_5 : W5 m ρ c (Proc.devRef .tc main_arg10) = m ((c : Thread nD τ).loc main_arg10) :=
  (keep2 (W4 m ρ c) main_arg10 (by decide)).trans (arg10_4 m ρ c)
theorem arg10_6 : W6 m ρ c (Proc.devRef .tc main_arg10) = m ((c : Thread nD τ).loc main_arg10) :=
  (W6_of_ne m ρ c main_arg10 (by decide)).trans (arg10_5 m ρ c)
theorem arg10_7 : W7 m ρ c (Proc.devRef .tc main_arg10) = m ((c : Thread nD τ).loc main_arg10) :=
  (keep3 (W6 m ρ c) main_arg10 (by decide)).trans (arg10_6 m ρ c)
theorem arg10_8 : W8 m ρ c (Proc.devRef .tc main_arg10) = m ((c : Thread nD τ).loc main_arg10) :=
  (W8_of_ne m ρ c main_arg10 (by decide)).trans (arg10_7 m ρ c)
theorem arg10_9 : W9 m ρ c (Proc.devRef .tc main_arg10) = m ((c : Thread nD τ).loc main_arg10) :=
  (keep4 (W8 m ρ c) main_arg10 (by decide)).trans (arg10_8 m ρ c)
theorem arg10_10 : W10 m ρ c (Proc.devRef .tc main_arg10) = m ((c : Thread nD τ).loc main_arg10) :=
  (W10_of_ne m ρ c main_arg10 (by decide)).trans (arg10_9 m ρ c)
theorem arg11_1 : W1 m ρ c (Proc.devRef .tc main_arg11) = m ((c : Thread nD τ).loc main_arg11) :=
  keep0 (W0 m ρ c) main_arg11 (by decide)
theorem arg11_2 : W2 m ρ c (Proc.devRef .tc main_arg11) = m ((c : Thread nD τ).loc main_arg11) :=
  (W2_of_ne m ρ c main_arg11 (by decide)).trans (arg11_1 m ρ c)
theorem arg11_3 : W3 m ρ c (Proc.devRef .tc main_arg11) = m ((c : Thread nD τ).loc main_arg11) :=
  (keep1 (W2 m ρ c) main_arg11 (by decide)).trans (arg11_2 m ρ c)
theorem arg11_4 : W4 m ρ c (Proc.devRef .tc main_arg11) = m ((c : Thread nD τ).loc main_arg11) :=
  (W4_of_ne m ρ c main_arg11 (by decide)).trans (arg11_3 m ρ c)
theorem arg11_5 : W5 m ρ c (Proc.devRef .tc main_arg11) = m ((c : Thread nD τ).loc main_arg11) :=
  (keep2 (W4 m ρ c) main_arg11 (by decide)).trans (arg11_4 m ρ c)
theorem arg11_6 : W6 m ρ c (Proc.devRef .tc main_arg11) = m ((c : Thread nD τ).loc main_arg11) :=
  (W6_of_ne m ρ c main_arg11 (by decide)).trans (arg11_5 m ρ c)
theorem arg11_7 : W7 m ρ c (Proc.devRef .tc main_arg11) = m ((c : Thread nD τ).loc main_arg11) :=
  (keep3 (W6 m ρ c) main_arg11 (by decide)).trans (arg11_6 m ρ c)
theorem arg11_8 : W8 m ρ c (Proc.devRef .tc main_arg11) = m ((c : Thread nD τ).loc main_arg11) :=
  (W8_of_ne m ρ c main_arg11 (by decide)).trans (arg11_7 m ρ c)
theorem arg11_9 : W9 m ρ c (Proc.devRef .tc main_arg11) = m ((c : Thread nD τ).loc main_arg11) :=
  (keep4 (W8 m ρ c) main_arg11 (by decide)).trans (arg11_8 m ρ c)
theorem arg11_10 : W10 m ρ c (Proc.devRef .tc main_arg11) = m ((c : Thread nD τ).loc main_arg11) :=
  (W10_of_ne m ρ c main_arg11 (by decide)).trans (arg11_9 m ρ c)
theorem v1_1 : W1 m ρ c (Proc.devRef .tc main_v1) = srcOf (m ((c : Thread nD τ).loc main_arg1)) :=
  h0_v1 (W0 m ρ c)
theorem v1_2 : W2 m ρ c (Proc.devRef .tc main_v1) = srcOf (m ((c : Thread nD τ).loc main_arg1)) :=
  (W2_of_ne m ρ c main_v1 (by decide)).trans (v1_1 m ρ c)
theorem v1_3 : W3 m ρ c (Proc.devRef .tc main_v1) = srcOf (m ((c : Thread nD τ).loc main_arg1)) :=
  (keep1 (W2 m ρ c) main_v1 (by decide)).trans (v1_2 m ρ c)
theorem v1_4 : W4 m ρ c (Proc.devRef .tc main_v1) = srcOf (m ((c : Thread nD τ).loc main_arg1)) :=
  (W4_of_ne m ρ c main_v1 (by decide)).trans (v1_3 m ρ c)
theorem v1_5 : W5 m ρ c (Proc.devRef .tc main_v1) = srcOf (m ((c : Thread nD τ).loc main_arg1)) :=
  (keep2 (W4 m ρ c) main_v1 (by decide)).trans (v1_4 m ρ c)
theorem v1_6 : W6 m ρ c (Proc.devRef .tc main_v1) = srcOf (m ((c : Thread nD τ).loc main_arg1)) :=
  (W6_of_ne m ρ c main_v1 (by decide)).trans (v1_5 m ρ c)
theorem v1_7 : W7 m ρ c (Proc.devRef .tc main_v1) = srcOf (m ((c : Thread nD τ).loc main_arg1)) :=
  (keep3 (W6 m ρ c) main_v1 (by decide)).trans (v1_6 m ρ c)
theorem v1_8 : W8 m ρ c (Proc.devRef .tc main_v1) = srcOf (m ((c : Thread nD τ).loc main_arg1)) :=
  (W8_of_ne m ρ c main_v1 (by decide)).trans (v1_7 m ρ c)
theorem v1_9 : W9 m ρ c (Proc.devRef .tc main_v1) = srcOf (m ((c : Thread nD τ).loc main_arg1)) :=
  (keep4 (W8 m ρ c) main_v1 (by decide)).trans (v1_8 m ρ c)
theorem v1_10 : W10 m ρ c (Proc.devRef .tc main_v1) = srcOf (m ((c : Thread nD τ).loc main_arg1)) :=
  (W10_of_ne m ρ c main_v1 (by decide)).trans (v1_9 m ρ c)
theorem v3_1 : W1 m ρ c (Proc.devRef .tc main_v3) = dstOf (m ((c : Thread nD τ).loc main_arg1)) :=
  h0_v3 (W0 m ρ c)
theorem v3_2 : W2 m ρ c (Proc.devRef .tc main_v3) = dstOf (m ((c : Thread nD τ).loc main_arg1)) :=
  (W2_of_ne m ρ c main_v3 (by decide)).trans (v3_1 m ρ c)
theorem v3_3 : W3 m ρ c (Proc.devRef .tc main_v3) = dstOf (m ((c : Thread nD τ).loc main_arg1)) :=
  (keep1 (W2 m ρ c) main_v3 (by decide)).trans (v3_2 m ρ c)
theorem v3_4 : W4 m ρ c (Proc.devRef .tc main_v3) = dstOf (m ((c : Thread nD τ).loc main_arg1)) :=
  (W4_of_ne m ρ c main_v3 (by decide)).trans (v3_3 m ρ c)
theorem v3_5 : W5 m ρ c (Proc.devRef .tc main_v3) = dstOf (m ((c : Thread nD τ).loc main_arg1)) :=
  (keep2 (W4 m ρ c) main_v3 (by decide)).trans (v3_4 m ρ c)
theorem v3_6 : W6 m ρ c (Proc.devRef .tc main_v3) = dstOf (m ((c : Thread nD τ).loc main_arg1)) :=
  (W6_of_ne m ρ c main_v3 (by decide)).trans (v3_5 m ρ c)
theorem v3_7 : W7 m ρ c (Proc.devRef .tc main_v3) = dstOf (m ((c : Thread nD τ).loc main_arg1)) :=
  (keep3 (W6 m ρ c) main_v3 (by decide)).trans (v3_6 m ρ c)
theorem v3_8 : W8 m ρ c (Proc.devRef .tc main_v3) = dstOf (m ((c : Thread nD τ).loc main_arg1)) :=
  (W8_of_ne m ρ c main_v3 (by decide)).trans (v3_7 m ρ c)
theorem v3_9 : W9 m ρ c (Proc.devRef .tc main_v3) = dstOf (m ((c : Thread nD τ).loc main_arg1)) :=
  (keep4 (W8 m ρ c) main_v3 (by decide)).trans (v3_8 m ρ c)
theorem v3_10 : W10 m ρ c (Proc.devRef .tc main_v3) = dstOf (m ((c : Thread nD τ).loc main_arg1)) :=
  (W10_of_ne m ρ c main_v3 (by decide)).trans (v3_9 m ρ c)

/-! ## The reciprocal degrees: written by the first stretch, then an input array of regions 1 to 5 -/

theorem v12_1 : W1 m ρ c (Proc.devRef .tc main_v12) = dinvOf (dstOf (m ((c : Thread nD τ).loc main_arg1))) :=
  h0_v12 (W0 m ρ c)
theorem v12_2 : W2 m ρ c (Proc.devRef .tc main_v12) = dinvOf (dstOf (m ((c : Thread nD τ).loc main_arg1))) :=
  (W2_of_ne m ρ c main_v12 (by decide)).trans (v12_1 m ρ c)
theorem v12_3 : W3 m ρ c (Proc.devRef .tc main_v12) = dinvOf (dstOf (m ((c : Thread nD τ).loc main_arg1))) :=
  (keep1 (W2 m ρ c) main_v12 (by decide)).trans (v12_2 m ρ c)
theorem v12_4 : W4 m ρ c (Proc.devRef .tc main_v12) = dinvOf (dstOf (m ((c : Thread nD τ).loc main_arg1))) :=
  ((W4_arr m ρ c 4).trans (((dat1 (V3 m ρ) c).arrAt_in 4 rfl _).trans (A_eq1 (V3 m ρ) c 4))).trans (v12_3 m ρ c)
theorem v12_5 : W5 m ρ c (Proc.devRef .tc main_v12) = dinvOf (dstOf (m ((c : Thread nD τ).loc main_arg1))) :=
  (keep2 (W4 m ρ c) main_v12 (by decide)).trans (v12_4 m ρ c)
theorem v12_6 : W6 m ρ c (Proc.devRef .tc main_v12) = dinvOf (dstOf (m ((c : Thread nD τ).loc main_arg1))) :=
  ((W6_arr m ρ c 4).trans (((dat2 (V5 m ρ) c).arrAt_in 4 rfl _).trans (A_eq2 (V5 m ρ) c 4))).trans (v12_5 m ρ c)
theorem v12_7 : W7 m ρ c (Proc.devRef .tc main_v12) = dinvOf (dstOf (m ((c : Thread nD τ).loc main_arg1))) :=
  (keep3 (W6 m ρ c) main_v12 (by decide)).trans (v12_6 m ρ c)
theorem v12_8 : W8 m ρ c (Proc.devRef .tc main_v12) = dinvOf (dstOf (m ((c : Thread nD τ).loc main_arg1))) :=
  ((W8_arr m ρ c 4).trans (((dat3 (V7 m ρ) c).arrAt_in 4 rfl _).trans (A_eq3 (V7 m ρ) c 4))).trans (v12_7 m ρ c)
theorem v12_9 : W9 m ρ c (Proc.devRef .tc main_v12) = dinvOf (dstOf (m ((c : Thread nD τ).loc main_arg1))) :=
  (keep4 (W8 m ρ c) main_v12 (by decide)).trans (v12_8 m ρ c)
theorem v12_10 : W10 m ρ c (Proc.devRef .tc main_v12) = dinvOf (dstOf (m ((c : Thread nD τ).loc main_arg1))) :=
  ((W10_arr m ρ c 4).trans (((dat4 (V9 m ρ) c).arrAt_in 4 rfl _).trans (A_eq4 (V9 m ρ) c 4))).trans (v12_9 m ρ c)
theorem v12_11 : W11 m ρ c (Proc.devRef .tc main_v12) = dinvOf (dstOf (m ((c : Thread nD τ).loc main_arg1))) :=
  (keep5 (W10 m ρ c) main_v12 (by decide)).trans (v12_10 m ρ c)

/-! ## The first region's inputs -/

theorem arg0_1 : W1 m ρ c (Proc.devRef .tc main_arg0) = m ((c : Thread nD τ).loc main_arg0) :=
  keep0 (W0 m ρ c) main_arg0 (by decide)
theorem arg2_1 : W1 m ρ c (Proc.devRef .tc main_arg2) = m ((c : Thread nD τ).loc main_arg2) :=
  keep0 (W0 m ρ c) main_arg2 (by decide)
theorem arg4_1 : W1 m ρ c (Proc.devRef .tc main_arg4) = m ((c : Thread nD τ).loc main_arg4) :=
  keep0 (W0 m ρ c) main_arg4 (by decide)
theorem v13_1 : W1 m ρ c (Proc.devRef .tc main_v13) = shapeCast _ (m ((c : Thread nD τ).loc main_arg3)) shapeCasts_S96_S1x96 :=
  h0_v13 (W0 m ρ c)
theorem v14_1 : W1 m ρ c (Proc.devRef .tc main_v14) = shapeCast _ (m ((c : Thread nD τ).loc main_arg5)) shapeCasts_S96_S1x96 :=
  h0_v14 (W0 m ρ c)

/-! ## The readout's weight halves (cut by the second stretch, read by the last region) and bias -/

theorem v16_3 : W3 m ρ c (Proc.devRef .tc main_v16) = extractStridedSlice S96x40 ![0, 0] (m ((c : Thread nD τ).loc main_arg10)) slices_S192x40_S96x40_0_0 :=
  (h1_v16 (W2 m ρ c)).trans (by rw [arg10_2 m ρ c])
theorem v16_4 : W4 m ρ c (Proc.devRef .tc main_v16) = extractStridedSlice S96x40 ![0, 0] (m ((c : Thread nD τ).loc main_arg10)) slices_S192x40_S96x40_0_0 :=
  (W4_of_ne m ρ c main_v16 (by decide)).trans (v16_3 m ρ c)
theorem v16_5 : W5 m ρ c (Proc.devRef .tc main_v16) = extractStridedSlice S96x40 ![0, 0] (m ((c : Thread nD τ).loc main_arg10)) slices_S192x40_S96x40_0_0 :=
  (keep2 (W4 m ρ c) main_v16 (by decide)).trans (v16_4 m ρ c)
theorem v16_6 : W6 m ρ c (Proc.devRef .tc main_v16) = extractStridedSlice S96x40 ![0, 0] (m ((c : Thread nD τ).loc main_arg10)) slices_S192x40_S96x40_0_0 :=
  (W6_of_ne m ρ c main_v16 (by decide)).trans (v16_5 m ρ c)
theorem v16_7 : W7 m ρ c (Proc.devRef .tc main_v16) = extractStridedSlice S96x40 ![0, 0] (m ((c : Thread nD τ).loc main_arg10)) slices_S192x40_S96x40_0_0 :=
  (keep3 (W6 m ρ c) main_v16 (by decide)).trans (v16_6 m ρ c)
theorem v16_8 : W8 m ρ c (Proc.devRef .tc main_v16) = extractStridedSlice S96x40 ![0, 0] (m ((c : Thread nD τ).loc main_arg10)) slices_S192x40_S96x40_0_0 :=
  (W8_of_ne m ρ c main_v16 (by decide)).trans (v16_7 m ρ c)
theorem v16_9 : W9 m ρ c (Proc.devRef .tc main_v16) = extractStridedSlice S96x40 ![0, 0] (m ((c : Thread nD τ).loc main_arg10)) slices_S192x40_S96x40_0_0 :=
  (keep4 (W8 m ρ c) main_v16 (by decide)).trans (v16_8 m ρ c)
theorem v16_10 : W10 m ρ c (Proc.devRef .tc main_v16) = extractStridedSlice S96x40 ![0, 0] (m ((c : Thread nD τ).loc main_arg10)) slices_S192x40_S96x40_0_0 :=
  (W10_of_ne m ρ c main_v16 (by decide)).trans (v16_9 m ρ c)
theorem v16_11 : W11 m ρ c (Proc.devRef .tc main_v16) = extractStridedSlice S96x40 ![0, 0] (m ((c : Thread nD τ).loc main_arg10)) slices_S192x40_S96x40_0_0 :=
  (keep5 (W10 m ρ c) main_v16 (by decide)).trans (v16_10 m ρ c)
theorem v17_3 : W3 m ρ c (Proc.devRef .tc main_v17) = extractStridedSlice S96x40 ![96, 0] (m ((c : Thread nD τ).loc main_arg10)) slices_S192x40_S96x40_96_0 :=
  (h1_v17 (W2 m ρ c)).trans (by rw [arg10_2 m ρ c])
theorem v17_4 : W4 m ρ c (Proc.devRef .tc main_v17) = extractStridedSlice S96x40 ![96, 0] (m ((c : Thread nD τ).loc main_arg10)) slices_S192x40_S96x40_96_0 :=
  (W4_of_ne m ρ c main_v17 (by decide)).trans (v17_3 m ρ c)
theorem v17_5 : W5 m ρ c (Proc.devRef .tc main_v17) = extractStridedSlice S96x40 ![96, 0] (m ((c : Thread nD τ).loc main_arg10)) slices_S192x40_S96x40_96_0 :=
  (keep2 (W4 m ρ c) main_v17 (by decide)).trans (v17_4 m ρ c)
theorem v17_6 : W6 m ρ c (Proc.devRef .tc main_v17) = extractStridedSlice S96x40 ![96, 0] (m ((c : Thread nD τ).loc main_arg10)) slices_S192x40_S96x40_96_0 :=
  (W6_of_ne m ρ c main_v17 (by decide)).trans (v17_5 m ρ c)
theorem v17_7 : W7 m ρ c (Proc.devRef .tc main_v17) = extractStridedSlice S96x40 ![96, 0] (m ((c : Thread nD τ).loc main_arg10)) slices_S192x40_S96x40_96_0 :=
  (keep3 (W6 m ρ c) main_v17 (by decide)).trans (v17_6 m ρ c)
theorem v17_8 : W8 m ρ c (Proc.devRef .tc main_v17) = extractStridedSlice S96x40 ![96, 0] (m ((c : Thread nD τ).loc main_arg10)) slices_S192x40_S96x40_96_0 :=
  (W8_of_ne m ρ c main_v17 (by decide)).trans (v17_7 m ρ c)
theorem v17_9 : W9 m ρ c (Proc.devRef .tc main_v17) = extractStridedSlice S96x40 ![96, 0] (m ((c : Thread nD τ).loc main_arg10)) slices_S192x40_S96x40_96_0 :=
  (keep4 (W8 m ρ c) main_v17 (by decide)).trans (v17_8 m ρ c)
theorem v17_10 : W10 m ρ c (Proc.devRef .tc main_v17) = extractStridedSlice S96x40 ![96, 0] (m ((c : Thread nD τ).loc main_arg10)) slices_S192x40_S96x40_96_0 :=
  (W10_of_ne m ρ c main_v17 (by decide)).trans (v17_9 m ρ c)
theorem v17_11 : W11 m ρ c (Proc.devRef .tc main_v17) = extractStridedSlice S96x40 ![96, 0] (m ((c : Thread nD τ).loc main_arg10)) slices_S192x40_S96x40_96_0 :=
  (keep5 (W10 m ρ c) main_v17 (by decide)).trans (v17_10 m ρ c)
theorem v107_11 : W11 m ρ c (Proc.devRef .tc main_v107) = shapeCast _ (m ((c : Thread nD τ).loc main_arg11)) shapeCasts_S40_S1x40 :=
  (h5_v107 (W10 m ρ c)).trans (by rw [arg11_10 m ρ c])

/-! ## Per step: the coefficient rows, the species the step starts from, and their neighbour sums, at the region's entry -/

theorem coef1_0 : W3 m ρ c (Proc.devRef .tc main_v31) = extractStridedSlice S1x96 ![0, 0] (m ((c : Thread nD τ).loc main_arg6)) slices_S5x96_S1x96_0_0 :=
  (h1_v31 (W2 m ρ c)).trans (by rw [arg6_2 m ρ c])
theorem coef1_1 : W3 m ρ c (Proc.devRef .tc main_v32) = extractStridedSlice S1x96 ![0, 0] (m ((c : Thread nD τ).loc main_arg7)) slices_S5x96_S1x96_0_0 :=
  (h1_v32 (W2 m ρ c)).trans (by rw [arg7_2 m ρ c])
theorem coef1_2 : W3 m ρ c (Proc.devRef .tc main_v33) = extractStridedSlice S1x96 ![0, 0] (m ((c : Thread nD τ).loc main_arg8)) slices_S5x96_S1x96_0_0 :=
  (h1_v33 (W2 m ρ c)).trans (by rw [arg8_2 m ρ c])
theorem coef1_3 : W3 m ρ c (Proc.devRef .tc main_v34) = extractStridedSlice S1x96 ![0, 0] (m ((c : Thread nD τ).loc main_arg9)) slices_S5x96_S1x96_0_0 :=
  (h1_v34 (W2 m ρ c)).trans (by rw [arg9_2 m ρ c])
theorem in1_0 : W3 m ρ c (Proc.devRef .tc main_v15_0) = W2 m ρ c (Proc.devRef .tc main_v15_0) :=
  keep1 (W2 m ρ c) main_v15_0 (by decide)
theorem in1_1 : W3 m ρ c (Proc.devRef .tc main_v15_1) = W2 m ρ c (Proc.devRef .tc main_v15_1) :=
  keep1 (W2 m ρ c) main_v15_1 (by decide)
theorem agg1_0 : W3 m ρ c (Proc.devRef .tc main_v29) = aggL (W2 m ρ c (Proc.devRef .tc main_v15_0)) (W2 m ρ c (Proc.devRef .tc main_v15_1)) (dstOf (m ((c : Thread nD τ).loc main_arg1))) (srcOf (m ((c : Thread nD τ).loc main_arg1))) :=
  (h1_v29 (W2 m ρ c)).trans (by rw [v3_2 m ρ c, v1_2 m ρ c])
theorem agg1_1 : W3 m ρ c (Proc.devRef .tc main_v30) = aggR (W2 m ρ c (Proc.devRef .tc main_v15_0)) (W2 m ρ c (Proc.devRef .tc main_v15_1)) (dstOf (m ((c : Thread nD τ).loc main_arg1))) (srcOf (m ((c : Thread nD τ).loc main_arg1))) :=
  (h1_v30 (W2 m ρ c)).trans (by rw [v3_2 m ρ c, v1_2 m ρ c])
theorem coef2_0 : W5 m ρ c (Proc.devRef .tc main_v49) = extractStridedSlice S1x96 ![1, 0] (m ((c : Thread nD τ).loc main_arg6)) slices_S5x96_S1x96_1_0 :=
  (h2_v49 (W4 m ρ c)).trans (by rw [arg6_4 m ρ c])
theorem coef2_1 : W5 m ρ c (Proc.devRef .tc main_v50) = extractStridedSlice S1x96 ![1, 0] (m ((c : Thread nD τ).loc main_arg7)) slices_S5x96_S1x96_1_0 :=
  (h2_v50 (W4 m ρ c)).trans (by rw [arg7_4 m ρ c])
theorem coef2_2 : W5 m ρ c (Proc.devRef .tc main_v51) = extractStridedSlice S1x96 ![1, 0] (m ((c : Thread nD τ).loc main_arg8)) slices_S5x96_S1x96_1_0 :=
  (h2_v51 (W4 m ρ c)).trans (by rw [arg8_4 m ρ c])
theorem coef2_3 : W5 m ρ c (Proc.devRef .tc main_v52) = extractStridedSlice S1x96 ![1, 0] (m ((c : Thread nD τ).loc main_arg9)) slices_S5x96_S1x96_1_0 :=
  (h2_v52 (W4 m ρ c)).trans (by rw [arg9_4 m ρ c])
theorem in2_0 : W5 m ρ c (Proc.devRef .tc main_v35_0) = W4 m ρ c (Proc.devRef .tc main_v35_0) :=
  keep2 (W4 m ρ c) main_v35_0 (by decide)
theorem in2_1 : W5 m ρ c (Proc.devRef .tc main_v35_1) = W4 m ρ c (Proc.devRef .tc main_v35_1) :=
  keep2 (W4 m ρ c) main_v35_1 (by decide)
theorem agg2_0 : W5 m ρ c (Proc.devRef .tc main_v47) = aggL (W4 m ρ c (Proc.devRef .tc main_v35_0)) (W4 m ρ c (Proc.devRef .tc main_v35_1)) (dstOf (m ((c : Thread nD τ).loc main_arg1))) (srcOf (m ((c : Thread nD τ).loc main_arg1))) :=
  (h2_v47 (W4 m ρ c)).trans (by rw [v3_4 m ρ c, v1_4 m ρ c])
theorem agg2_1 : W5 m ρ c (Proc.devRef .tc main_v48) = aggR (W4 m ρ c (Proc.devRef .tc main_v35_0)) (W4 m ρ c (Proc.devRef .tc main_v35_1)) (dstOf (m ((c : Thread nD τ).loc main_arg1))) (srcOf (m ((c : Thread nD τ).loc main_arg1))) :=
  (h2_v48 (W4 m ρ c)).trans (by rw [v3_4 m ρ c, v1_4 m ρ c])
theorem coef3_0 : W7 m ρ c (Proc.devRef .tc main_v67) = extractStridedSlice S1x96 ![2, 0] (m ((c : Thread nD τ).loc main_arg6)) slices_S5x96_S1x96_2_0 :=
  (h3_v67 (W6 m ρ c)).trans (by rw [arg6_6 m ρ c])
theorem coef3_1 : W7 m ρ c (Proc.devRef .tc main_v68) = extractStridedSlice S1x96 ![2, 0] (m ((c : Thread nD τ).loc main_arg7)) slices_S5x96_S1x96_2_0 :=
  (h3_v68 (W6 m ρ c)).trans (by rw [arg7_6 m ρ c])
theorem coef3_2 : W7 m ρ c (Proc.devRef .tc main_v69) = extractStridedSlice S1x96 ![2, 0] (m ((c : Thread nD τ).loc main_arg8)) slices_S5x96_S1x96_2_0 :=
  (h3_v69 (W6 m ρ c)).trans (by rw [arg8_6 m ρ c])
theorem coef3_3 : W7 m ρ c (Proc.devRef .tc main_v70) = extractStridedSlice S1x96 ![2, 0] (m ((c : Thread nD τ).loc main_arg9)) slices_S5x96_S1x96_2_0 :=
  (h3_v70 (W6 m ρ c)).trans (by rw [arg9_6 m ρ c])
theorem in3_0 : W7 m ρ c (Proc.devRef .tc main_v53_0) = W6 m ρ c (Proc.devRef .tc main_v53_0) :=
  keep3 (W6 m ρ c) main_v53_0 (by decide)
theorem in3_1 : W7 m ρ c (Proc.devRef .tc main_v53_1) = W6 m ρ c (Proc.devRef .tc main_v53_1) :=
  keep3 (W6 m ρ c) main_v53_1 (by decide)
theorem agg3_0 : W7 m ρ c (Proc.devRef .tc main_v65) = aggL (W6 m ρ c (Proc.devRef .tc main_v53_0)) (W6 m ρ c (Proc.devRef .tc main_v53_1)) (dstOf (m ((c : Thread nD τ).loc main_arg1))) (srcOf (m ((c : Thread nD τ).loc main_arg1))) :=
  (h3_v65 (W6 m ρ c)).trans (by rw [v3_6 m ρ c, v1_6 m ρ c])
theorem agg3_1 : W7 m ρ c (Proc.devRef .tc main_v66) = aggR (W6 m ρ c (Proc.devRef .tc main_v53_0)) (W6 m ρ c (Proc.devRef .tc main_v53_1)) (dstOf (m ((c : Thread nD τ).loc main_arg1))) (srcOf (m ((c : Thread nD τ).loc main_arg1))) :=
  (h3_v66 (W6 m ρ c)).trans (by rw [v3_6 m ρ c, v1_6 m ρ c])
theorem coef4_0 : W9 m ρ c (Proc.devRef .tc main_v85) = extractStridedSlice S1x96 ![3, 0] (m ((c : Thread nD τ).loc main_arg6)) slices_S5x96_S1x96_3_0 :=
  (h4_v85 (W8 m ρ c)).trans (by rw [arg6_8 m ρ c])
theorem coef4_1 : W9 m ρ c (Proc.devRef .tc main_v86) = extractStridedSlice S1x96 ![3, 0] (m ((c : Thread nD τ).loc main_arg7)) slices_S5x96_S1x96_3_0 :=
  (h4_v86 (W8 m ρ c)).trans (by rw [arg7_8 m ρ c])
theorem coef4_2 : W9 m ρ c (Proc.devRef .tc main_v87) = extractStridedSlice S1x96 ![3, 0] (m ((c : Thread nD τ).loc main_arg8)) slices_S5x96_S1x96_3_0 :=
  (h4_v87 (W8 m ρ c)).trans (by rw [arg8_8 m ρ c])
theorem coef4_3 : W9 m ρ c (Proc.devRef .tc main_v88) = extractStridedSlice S1x96 ![3, 0] (m ((c : Thread nD τ).loc main_arg9)) slices_S5x96_S1x96_3_0 :=
  (h4_v88 (W8 m ρ c)).trans (by rw [arg9_8 m ρ c])
theorem in4_0 : W9 m ρ c (Proc.devRef .tc main_v71_0) = W8 m ρ c (Proc.devRef .tc main_v71_0) :=
  keep4 (W8 m ρ c) main_v71_0 (by decide)
theorem in4_1 : W9 m ρ c (Proc.devRef .tc main_v71_1) = W8 m ρ c (Proc.devRef .tc main_v71_1) :=
  keep4 (W8 m ρ c) main_v71_1 (by decide)
theorem agg4_0 : W9 m ρ c (Proc.devRef .tc main_v83) = aggL (W8 m ρ c (Proc.devRef .tc main_v71_0)) (W8 m ρ c (Proc.devRef .tc main_v71_1)) (dstOf (m ((c : Thread nD τ).loc main_arg1))) (srcOf (m ((c : Thread nD τ).loc main_arg1))) :=
  (h4_v83 (W8 m ρ c)).trans (by rw [v3_8 m ρ c, v1_8 m ρ c])
theorem agg4_1 : W9 m ρ c (Proc.devRef .tc main_v84) = aggR (W8 m ρ c (Proc.devRef .tc main_v71_0)) (W8 m ρ c (Proc.devRef .tc main_v71_1)) (dstOf (m ((c : Thread nD τ).loc main_arg1))) (srcOf (m ((c : Thread nD τ).loc main_arg1))) :=
  (h4_v84 (W8 m ρ c)).trans (by rw [v3_8 m ρ c, v1_8 m ρ c])
theorem coef5_0 : W11 m ρ c (Proc.devRef .tc main_v103) = extractStridedSlice S1x96 ![4, 0] (m ((c : Thread nD τ).loc main_arg6)) slices_S5x96_S1x96_4_0 :=
  (h5_v103 (W10 m ρ c)).trans (by rw [arg6_10 m ρ c])
theorem coef5_1 : W11 m ρ c (Proc.devRef .tc main_v104) = extractStridedSlice S1x96 ![4, 0] (m ((c : Thread nD τ).loc main_arg7)) slices_S5x96_S1x96_4_0 :=
  (h5_v104 (W10 m ρ c)).trans (by rw [arg7_10 m ρ c])
theorem coef5_2 : W11 m ρ c (Proc.devRef .tc main_v105) = extractStridedSlice S1x96 ![4, 0] (m ((c : Thread nD τ).loc main_arg8)) slices_S5x96_S1x96_4_0 :=
  (h5_v105 (W10 m ρ c)).trans (by rw [arg8_10 m ρ c])
theorem coef5_3 : W11 m ρ c (Proc.devRef .tc main_v106) = extractStridedSlice S1x96 ![4, 0] (m ((c : Thread nD τ).loc main_arg9)) slices_S5x96_S1x96_4_0 :=
  (h5_v106 (W10 m ρ c)).trans (by rw [arg9_10 m ρ c])
theorem in5_0 : W11 m ρ c (Proc.devRef .tc main_v89_0) = W10 m ρ c (Proc.devRef .tc main_v89_0) :=
  keep5 (W10 m ρ c) main_v89_0 (by decide)
theorem in5_1 : W11 m ρ c (Proc.devRef .tc main_v89_1) = W10 m ρ c (Proc.devRef .tc main_v89_1) :=
  keep5 (W10 m ρ c) main_v89_1 (by decide)
theorem agg5_0 : W11 m ρ c (Proc.devRef .tc main_v101) = aggL (W10 m ρ c (Proc.devRef .tc main_v89_0)) (W10 m ρ c (Proc.devRef .tc main_v89_1)) (dstOf (m ((c : Thread nD τ).loc main_arg1))) (srcOf (m ((c : Thread nD τ).loc main_arg1))) :=
  (h5_v101 (W10 m ρ c)).trans (by rw [v3_10 m ρ c, v1_10 m ρ c])
theorem agg5_1 : W11 m ρ c (Proc.devRef .tc main_v102) = aggR (W10 m ρ c (Proc.devRef .tc main_v89_0)) (W10 m ρ c (Proc.devRef .tc main_v89_1)) (dstOf (m ((c : Thread nD τ).loc main_arg1))) (srcOf (m ((c : Thread nD τ).loc main_arg1))) :=
  (h5_v102 (W10 m ρ c)).trans (by rw [v3_10 m ρ c, v1_10 m ρ c])

end Cert.KernelIdeal.KCarry

end
-- ==== Proof.Spec.lean ====
/-
  The graph Lotka–Volterra network, index by index on the extended reals.

  A node array has one row per node (50000 rows); a species has 96 channels. The network lifts the 128 input
  features of every node to the two species by an affine map followed by tanh, then takes five explicit Euler
  steps of size `dt`. One step, at node `r` and channel `c`:

    prey      X' = X + (dt · X) · (a c − b c · (aggY · dinv r))
    predator  Y' = Y + (dt · Y) · (−(g c) + d c · (aggX · dinv r))

  where `aggX`, `aggY` are the sums of the species over a node's in-neighbours (given here as arrays: how they are
  summed is not this file's business), `dinv r` is the reciprocal in-degree of the node and `a b g d` are the
  step's per-channel coefficients. The readout is a linear map of the 192 = 96 + 96 channels of both species to 40
  classes plus a bias, written as the sum of the two species' halves.
-/
import Idealize.ShloMosaic.PureOps.Ideal
import Idealize.ShloMosaic.Lib.ValueIdx

noncomputable section

namespace Cert.LV

open Idealize.ShloMosaic Idealize.ShloMosaic.ValueIdx

/-- A rank-2 array of extended reals. -/
abbrev Arr (a b : Nat) : Type := (⟨2, ![a, b]⟩ : Shape).Idx → EReal

/-- The Euler step's size: the single-precision word both programs carry (about 0.05). -/
def dt : EReal := Ideal.ofBits .f32 0x3D4CCCCD#32

/-- The lift of the input features to one species: tanh of the row's product with the weights plus the bias. -/
def lift (x : Arr 50000 128) (W : Arr 128 96) (b : Fin 96 → EReal) : Arr 50000 96 :=
  fun i => Ideal.tanh ((∑ k : Fin 128, x (ix2 (i 0) k) * W (ix2 k (i 1))) + b (i 1))

/-- One Euler step of the prey species. -/
def prey (X aggY : Arr 50000 96) (dinv : Fin 50000 → EReal) (a b : Fin 96 → EReal) : Arr 50000 96 :=
  fun i => X i + (dt * X i) * (a (i 1) - b (i 1) * (aggY i * dinv (i 0)))

/-- One Euler step of the predator species. -/
def pred (Y aggX : Arr 50000 96) (dinv : Fin 50000 → EReal) (g d : Fin 96 → EReal) : Arr 50000 96 :=
  fun i => Y i + (dt * Y i) * (-(g (i 1)) + d (i 1) * (aggX i * dinv (i 0)))

/-- The readout: the two species' halves of the linear map, summed, plus the bias. -/
def readout (X Y : Arr 50000 96) (Wx Wy : Fin 96 → Fin 40 → EReal) (b : Fin 40 → EReal) : Arr 50000 40 :=
  fun i => ((∑ k : Fin 96, X (ix2 (i 0) k) * Wx k (i 1)) + ∑ k : Fin 96, Y (ix2 (i 0) k) * Wy k (i 1)) + b (i 1)

end Cert.LV

end
-- ==== Proof.Net.lean ====
/-
  The whole network as one function of its ingredients.

  The ingredients are: the neighbour-sum operator `agg` (an array of node rows to the array of the sums over each
  node's in-neighbours), the reciprocal in-degrees `dinv`, the per-step, per-channel coefficients `a b g d`, the two
  lifted species `X0 Y0`, and the readout's two weight halves and bias. Five Euler steps are taken; each step's prey
  update reads the neighbour sums of the predators and the other way round. The last step feeds the readout.
-/
import proofs.«101018_j498216206705_2_alg».proof.Proof.Spec

noncomputable section

namespace Cert.LV

open Idealize.ShloMosaic Idealize.ShloMosaic.ValueIdx

/-- What the five steps are made of. -/
structure Ing where
  agg : Arr 50000 96 → Arr 50000 96
  dinv : Fin 50000 → EReal
  a : Fin 5 → Fin 96 → EReal
  b : Fin 5 → Fin 96 → EReal
  g : Fin 5 → Fin 96 → EReal
  d : Fin 5 → Fin 96 → EReal
  X0 : Arr 50000 96
  Y0 : Arr 50000 96

/-- The species after step 1, 2, 3, 4. -/
def X1 (I : Ing) : Arr 50000 96 := prey I.X0 (I.agg I.Y0) I.dinv (I.a 0) (I.b 0)
def Y1 (I : Ing) : Arr 50000 96 := pred I.Y0 (I.agg I.X0) I.dinv (I.g 0) (I.d 0)
def X2 (I : Ing) : Arr 50000 96 := prey (X1 I) (I.agg (Y1 I)) I.dinv (I.a 1) (I.b 1)
def Y2 (I : Ing) : Arr 50000 96 := pred (Y1 I) (I.agg (X1 I)) I.dinv (I.g 1) (I.d 1)
def X3 (I : Ing) : Arr 50000 96 := prey (X2 I) (I.agg (Y2 I)) I.dinv (I.a 2) (I.b 2)
def Y3 (I : Ing) : Arr 50000 96 := pred (Y2 I) (I.agg (X2 I)) I.dinv (I.g 2) (I.d 2)
def X4 (I : Ing) : Arr 50000 96 := prey (X3 I) (I.agg (Y3 I)) I.dinv (I.a 3) (I.b 3)
def Y4 (I : Ing) : Arr 50000 96 := pred (Y3 I) (I.agg (X3 I)) I.dinv (I.g 3) (I.d 3)

/-- The class scores: the fifth step's species through the readout. -/
def out (I : Ing) (Wx Wy : Fin 96 → Fin 40 → EReal) (bias : Fin 40 → EReal) : Arr 50000 40 :=
  readout (prey (X4 I) (I.agg (Y4 I)) I.dinv (I.a 4) (I.b 4)) (pred (Y4 I) (I.agg (X4 I)) I.dinv (I.g 4) (I.d 4)) Wx Wy bias

end Cert.LV

end
-- ==== Proof.KIngr.lean ====
/-
  The network's ingredients as functions of the program's twelve argument arrays: the neighbour sum of one species
  from the edge list, the reciprocal in-degrees, the per-step coefficient rows, the two lifts, and the readout's two
  weight halves (the first and the last 96 rows of its 192-row matrix) and bias.
-/
import proofs.«101018_j498216206705_2_alg».proof.Proof.Gen.KernelIdeal
import proofs.«101018_j498216206705_2_alg».proof.Proof.Gen.ReferenceIdeal
import proofs.«101018_j498216206705_2_alg».proof.Proof.KHost
import proofs.«101018_j498216206705_2_alg».proof.Proof.Net
import Idealize.ShloMosaic.Lib.ValueLayout

noncomputable section

namespace Cert.KernelIdeal.KValue

open Cert.KernelIdeal Cert.KernelIdeal.Gen Cert.KernelIdeal.KHost
open Idealize.ShloMosaic Idealize.ShloMosaic.TcCoe Idealize.SL.Sem Idealize.ShloMosaic.ValueIdx
open Cert.LV

/-- The neighbour sum of ONE species (96 columns): its rows gathered at the edges' sources, added up at the edges'
    destinations. -/
def ragg (d s : (⟨S800000, .i32⟩ : BufTy).Contents (Elt Ideal)) (X : Arr 50000 96) : Arr 50000 96 :=
  Host.scatterAdd (F := Ideal) Cert.ReferenceIdeal.scatter_S50000x96_S800000x1_S800000x96_1_0_0_1
    (broadcastInDim Cert.ReferenceIdeal.S50000x96 ![] Cert.ReferenceIdeal.Gen.bcast_S_S50000x96 (constant (F := Ideal) Cert.ReferenceIdeal.S_ .f32 0x00000000#32))
    (dstN d) (Host.gather Cert.ReferenceIdeal.gather_S50000x96_S800000x1_S800000x96_1_0_n_n_0_1_196 X (srcN s))

/-- Row `l` of a 5-row coefficient array cut out as a 1-row array, read at a column. -/
theorem row_apply (A : Arr 5 96) (l : Nat) (hl : l < 5) (h : (⟨2, ![5, 96]⟩ : Shape).Slices ![l, 0] ⟨2, ![1, 96]⟩) (j : Fin 96) :
    extractStridedSlice ⟨2, ![1, 96]⟩ ![l, 0] A h (ix2 (0 : Fin 1) j) = A (ix2 (⟨l, hl⟩ : Fin 5) j) :=
  slice2_axis0_apply l A h 0 j ⟨l, hl⟩ rfl

/-- One prey step with its ingredients replaced by equals. -/
theorem prey_congr {X X' G G' : Arr 50000 96} {dv dv' : Fin 50000 → EReal} {a a' b b' : Fin 96 → EReal}
    (hX : X = X') (hG : G = G') (hd : dv = dv') (ha : a = a') (hb : b = b') : prey X G dv a b = prey X' G' dv' a' b' := by
  subst hX hG hd ha hb; rfl
/-- One predator step with its ingredients replaced by equals. -/
theorem pred_congr {Y Y' G G' : Arr 50000 96} {dv dv' : Fin 50000 → EReal} {g g' d d' : Fin 96 → EReal}
    (hY : Y = Y') (hG : G = G') (hd : dv = dv') (hg : g = g') (hdd : d = d') : pred Y G dv g d = pred Y' G' dv' g' d' := by
  subst hY hG hd hg hdd; rfl

/-- The network's ingredients from the argument arrays: the edge list `e`, the four coefficient arrays, the input
    features and the two lifts' weights and biases. -/
def ingOf (e : (⟨S2x800000, .i32⟩ : BufTy).Contents (Elt Ideal)) (x : Arr 50000 128) (Wx : Arr 128 96) (bx : (⟨1, ![96]⟩ : Shape).Idx → EReal)
    (Wy : Arr 128 96) (byy : (⟨1, ![96]⟩ : Shape).Idx → EReal) (A B G D : Arr 5 96) : Ing where
  agg := ragg (dstOf e) (srcOf e)
  dinv := fun r => (dinvOf (F := Ideal) (dstOf e) : Arr 50000 1) (ix2 r 0)
  a := fun l j => A (ix2 l j)
  b := fun l j => B (ix2 l j)
  g := fun l j => G (ix2 l j)
  d := fun l j => D (ix2 l j)
  X0 := lift x Wx (fun j => bx (ix1 j))
  Y0 := lift x Wy (fun j => byy (ix1 j))

/-- The readout's weight halves and bias from the argument arrays. -/
def wxOf (Wr : Arr 192 40) : Fin 96 → Fin 40 → EReal := fun k j => Wr (ix2 ⟨k.val, by omega⟩ j)
def wyOf (Wr : Arr 192 40) : Fin 96 → Fin 40 → EReal := fun k j => Wr (ix2 ⟨96 + k.val, by omega⟩ j)
def biasOf (br : (⟨1, ![40]⟩ : Shape).Idx → EReal) : Fin 40 → EReal := fun j => br (ix1 j)

end Cert.KernelIdeal.KValue

end
-- ==== Proof.SegSum.lean ====
/-
  The neighbour sum of a concatenation, column-sliced, is the neighbour sum of the half.

  A neighbour sum takes a node array (one row per node), an array of source nodes and an array of destination
  nodes, one of each per edge; it gathers the rows at the edges' source nodes and adds each gathered row into
  the row of the edge's destination node, starting from zero. One program forms it ONCE for the 192-column
  array [X | Y] and then cuts columns 0..95 and 96..191 out of the result; the other forms it for X and for Y
  (96 columns each) separately. On the extended reals the two agree, whatever the two index arrays hold:

    * a scatter index is read signed and is NOT clamped: edge `e` lands on row `n` exactly when its destination
      word, read as an integer, is `n`; an edge whose destination is outside [0, N) is dropped. That condition
      mentions no column, so it is the same for 192 columns and for 96;
    * a start index of the gather is read signed and clamped to [0, N − 1]; the row so read (`srcRow`) again does
      not depend on the number of columns, the slice being one whole row either way;
    * the window of both operations is a whole row, so column `c` of an update goes to column `c` of the result.

  Hence element (n, c) of either scatter is  zero + ∑ over edges e with destination n of  A (srcRow e, c),  with
  A = [X | Y] and c or c + 96 on one side, A = X or Y and c on the other; column c of [X | Y] is X's column c and
  column c + 96 is Y's column c. The sums are over the same edges with equal terms: no rearrangement is needed.

  The index lemmas are stated for any numbers N of nodes, E of edges and K of columns, over dimension numbers
  spelt as literals (`scat`, `gath`); the two programs' records are these at (50000, 800000, 192) and
  (50000, 800000, 96).
-/
import proofs.«101018_j498216206705_2_alg».proof.KernelIdeal
import proofs.«101018_j498216206705_2_alg».proof.ReferenceIdeal
import Idealize.ShloMosaic.PureOps.Ideal
import Idealize.ShloMosaic.Lib.ValueIdx
import Idealize.ShloMosaic.Lib.Pipeline.Value

noncomputable section

open scoped BigOperators

namespace Cert.Seg

open Idealize.ShloMosaic Idealize.ShloMosaic.ValueIdx

section Scatter
variable {N E K w : Nat}

/-- The scatter's dimension numbers for an operand [N, K], scatter indices [E, 1] and updates [E, K]: the update's
    axis 1 is the window (a whole row), the operand's axis 0 is the one the scatter index names. -/
abbrev scat (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- On the row axis the window of update (e, col) starts at edge `e`'s scatter index, read signed. -/
theorem scat_start0 (wf : ScatterDims.WF ⟨2, ![N, K]⟩ ⟨2, ![E, 1]⟩ ⟨2, ![E, K]⟩ [1] [0] [0] 1)
    (idx : IVec ⟨2, ![E, 1]⟩ w) (e : Fin E) (col : Fin K) :
    (scat N E K wf).start (ix2 e col) idx 0 = (idx (ix2 e 0)).toInt := by
  unfold ScatterDims.start
  rw [dif_pos (show (0 : Fin 2) ∈ (scat N E K wf).scatterDimsToOperandDims from List.mem_singleton.mpr rfl)]
  have hsi : (scat N E K wf).siIdx (ix2 e col) ⟨List.idxOf (0 : Fin 2) (scat N E K wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis every window starts at 0. -/
theorem scat_start1 (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) :
    (scat N E K wf).start j idx 1 = 0 := by
  unfold ScatterDims.start
  rw [dif_neg (show ¬ (1 : Fin 2) ∈ (scat N E K wf).scatterDimsToOperandDims from (by decide : ¬ (1 : Fin 2) ∈ ([0] : List (Fin 2))))]

/-- The row axis is not a window axis: the window coordinate there is 0. -/
theorem scat_window0 (wf : ScatterDims.WF ⟨2, ![N, K]⟩ ⟨2, ![E, 1]⟩ ⟨2, ![E, K]⟩ [1] [0] [0] 1)
    (j : (⟨2, ![E, K]⟩ : Shape).Idx) :
    (scat N E K wf).window j 0 = 0 := by
  unfold ScatterDims.window
  rw [dif_neg (show ¬ (0 : Fin 2) ∈ (scat N E K wf).sKept from (by decide : ¬ (0 : Fin 2) ∈ (List.finRange 2).filter (fun a => a ∉ ([0] : List (Fin 2)))))]

/-- On the column axis the window coordinate of update (e, col) is `col`. -/
theorem scat_window1 (wf : ScatterDims.WF ⟨2, ![N, K]⟩ ⟨2, ![E, 1]⟩ ⟨2, ![E, K]⟩ [1] [0] [0] 1)
    (e : Fin E) (col : Fin K) :
    (scat N E K wf).window (ix2 e col) 1 = col.val := by
  unfold ScatterDims.window
  rw [dif_pos (show (1 : Fin 2) ∈ (scat N E K wf).sKept from (by decide : (1 : Fin 2) ∈ (List.finRange 2).filter (fun a => a ∉ ([0] : List (Fin 2)))))]
  rfl

/-- Two rank-2 indices agree exactly when their coordinates do. -/
theorem ix2_inj {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- Update (e, col) lands inside the operand exactly when edge `e`'s scatter index is a row of it. -/
theorem scat_cond (wf : ScatterDims.WF ⟨2, ![N, K]⟩ ⟨2, ![E, 1]⟩ ⟨2, ![E, K]⟩ [1] [0] [0] 1)
    (idx : IVec ⟨2, ![E, 1]⟩ w) (e : Fin E) (col : Fin K) :
    (∀ a, 0 ≤ (scat N E K wf).start (ix2 e col) idx a + (scat N E K wf).window (ix2 e col) a ∧
        (scat N E K wf).start (ix2 e col) idx a + (scat N E K wf).window (ix2 e col) a < (⟨2, ![N, K]⟩ : Shape).size a) ↔
      (0 ≤ (idx (ix2 e 0)).toInt ∧ (idx (ix2 e 0)).toInt < (N : Int)) := by
  rw [Fin.forall_fin_two, scat_start0, scat_start1, scat_window0, scat_window1]
  have hc : (col.val : Int) < (K : Int) := by exact_mod_cast col.isLt
  constructor
  · rintro ⟨⟨h1, h2⟩, _⟩
    have h2' : (idx (ix2 e 0)).toInt + ((0 : Nat) : Int) < (N : Int) := h2
    omega
  · rintro ⟨h1, h2⟩
    refine ⟨⟨by omega, ?_⟩, ⟨by omega, ?_⟩⟩
    · show (idx (ix2 e 0)).toInt + ((0 : Nat) : Int) < (N : Int); omega
    · show (0 : Int) + (col.val : Int) < (K : Int); omega

/-- Where update (e, col) lands: row = the scatter index, column `col`; nowhere when the index is not a row. -/
theorem scat_result (wf : ScatterDims.WF ⟨2, ![N, K]⟩ ⟨2, ![E, 1]⟩ ⟨2, ![E, K]⟩ [1] [0] [0] 1)
    (idx : IVec ⟨2, ![E, 1]⟩ w) (e : Fin E) (col : Fin K) :
    (scat N E K wf).resultIdx? (ix2 e col) idx =
      if h : 0 ≤ (idx (ix2 e 0)).toInt ∧ (idx (ix2 e 0)).toInt < (N : Int) then
        some (ix2 ⟨(idx (ix2 e 0)).toInt.toNat, by omega⟩ col)
      else none := by
  unfold ScatterDims.resultIdx?
  by_cases h : 0 ≤ (idx (ix2 e 0)).toInt ∧ (idx (ix2 e 0)).toInt < (N : Int)
  · rw [dif_pos h, dif_pos ((scat_cond wf idx e col).mpr h)]
    congr 1
    funext a
    refine Fin.ext ?_
    match a with
    | ⟨0, _⟩ =>
      show ((scat N E K wf).start (ix2 e col) idx 0 + ((scat N E K wf).window (ix2 e col) 0 : Nat)).toNat = (idx (ix2 e 0)).toInt.toNat
      rw [scat_start0, scat_window0]; simp
    | ⟨1, _⟩ =>
      show ((scat N E K wf).start (ix2 e col) idx 1 + ((scat N E K wf).window (ix2 e col) 1 : Nat)).toNat = col.val
      rw [scat_start1, scat_window1]; simp
  · rw [dif_neg h, dif_neg (mt (scat_cond wf idx e col).mp h)]

/-- Update (e, col) lands on (n, c) exactly when edge `e`'s scatter index is `n` and `col = c`. -/
theorem scat_result_iff (wf : ScatterDims.WF ⟨2, ![N, K]⟩ ⟨2, ![E, 1]⟩ ⟨2, ![E, K]⟩ [1] [0] [0] 1)
    (idx : IVec ⟨2, ![E, 1]⟩ w) (e : Fin E) (col c : Fin K) (n : Fin N) :
    (scat N E K wf).resultIdx? (ix2 e col) idx = some (ix2 n c) ↔
      ((idx (ix2 e 0)).toInt = (n.val : Int) ∧ col = c) := by
  rw [scat_result]
  have hn : (n.val : Int) < (N : Int) := by exact_mod_cast n.isLt
  split
  · next h =>
    rw [Option.some.injEq, ix2_inj, Fin.ext_iff]
    show ((idx (ix2 e 0)).toInt.toNat = n.val ∧ col = c) ↔ _
    constructor
    · rintro ⟨h1, h2⟩; exact ⟨by omega, h2⟩
    · rintro ⟨h1, h2⟩; exact ⟨by omega, h2⟩
  · next h =>
    constructor
    · intro h'; exact absurd h' (by simp)
    · rintro ⟨h1, _⟩; exact absurd ⟨by omega, by omega⟩ h

/-- The accumulating scatter read at row `n`, column `c`: the operand's element plus, over the updates' rows whose
    scatter index (read signed) is `n`, the updates' elements of column `c`. -/
theorem scatterAdd_apply (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (n : Fin N) (c : Fin K) :
    Ideal.hostScatterAdd (scat N E K wf) x idx upd (ix2 n c) =
      x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [scat_result_iff]
  by_cases h : (idx (ix2 e 0)).toInt = (n.val : Int)
  · simp only [h, true_and, if_true]
    rw [Finset.sum_ite_eq' Finset.univ c (fun col => upd (ix2 e col))]
    simp
  · simp only [h, false_and, if_false, Finset.sum_const_zero]

end Scatter

section Gather
variable {N E K w : Nat} {α : Type}

/-- The gather's dimension numbers for an operand [N, K], start indices [E, 1] and a result [E, K]: slices of one
    whole row (sizes [1, K]), the row axis collapsed, the start index naming the row. -/
abbrev gath (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The row a gather reads for edge `e`: the start index read signed and clamped into `[0, N − 1]`. It does not
    depend on the number of columns. -/
def srcRow (hN : 0 < N) (src : IVec ⟨2, ![E, 1]⟩ w) (e : Fin E) : Fin N :=
  ⟨min (src (ix2 e 0)).toInt.toNat (N - 1), by omega⟩

/-- The gather read at (e, col): the operand at row `srcRow e`, column `col`. -/
theorem gath_apply (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (src : IVec ⟨2, ![E, 1]⟩ w) (e : Fin E) (col : Fin K) :
    Host.gather (gath N E K wf) x src (ix2 e col) = x (ix2 (srcRow hN src e) col) := by
  unfold Host.gather
  congr 1
  funext a
  refine Fin.ext ?_
  match a with
  | ⟨0, _⟩ =>
    show (gath N E K wf).start (ix2 e col) src 0 + (gath N E K wf).batchCoord (ix2 e col) 0
        + (gath N E K wf).offCoord (ix2 e col) 0 = min (src (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath N E K wf).startIndexMap from List.mem_singleton.mpr rfl)]
    have hsi : (gath N E K wf).siIdx (ix2 e col) ⟨List.idxOf (0 : Fin 2) (gath N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gath N E K wf).start (ix2 e col) src 1 + (gath N E K wf).batchCoord (ix2 e col) 1
        + (gath N E K wf).offCoord (ix2 e col) 1 = col.val
    rw [GatherDims.batchCoord_eq_zero _ _ _ List.not_mem_nil]
    unfold GatherDims.start
    rw [dif_neg (show ¬ (1 : Fin 2) ∈ (gath N E K wf).startIndexMap from
      (by decide : ¬ (1 : Fin 2) ∈ ([0] : List (Fin 2))))]
    unfold GatherDims.offCoord
    rw [dif_pos (show (1 : Fin 2) ∈ (gath N E K wf).sKept from
      (by decide : (1 : Fin 2) ∈ (List.finRange 2).filter (fun a => a ∉ (([0] : List (Fin 2)) ++ []))))]
    simp only [Nat.add_zero, Nat.zero_add]
    rfl

end Gather

section Main

/-- At the ideal instance the host's accumulating scatter is the exact sum. -/
theorem hostScatterAdd_eq {s si u : Shape} {w : Nat} (d : ScatterDims s si u) (x : FVec Ideal s .f32)
    (idx : IVec si w) (upd : FVec Ideal u .f32) :
    Host.scatterAdd (F := Ideal) d x idx upd = Ideal.hostScatterAdd d x idx upd := rfl

/-- A broadcast scalar constant reads the same extended real at every index. -/
theorem zero_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b := rfl

variable [Cert.KernelIdeal.Facts₀] [Cert.ReferenceIdeal.Facts₀]

/-- The two programs' scatter and gather records are `scat` and `gath` at their sizes. -/
theorem kScat_eq : Cert.KernelIdeal.scatter_S50000x192_S800000x1_S800000x192_1_0_0_1
    = scat 50000 800000 192 Cert.KernelIdeal.Facts₀.scatter_S50000x192_S800000x1_S800000x192_1_0_0_1_wf := rfl
theorem rScat_eq : Cert.ReferenceIdeal.scatter_S50000x96_S800000x1_S800000x96_1_0_0_1
    = scat 50000 800000 96 Cert.ReferenceIdeal.Facts₀.scatter_S50000x96_S800000x1_S800000x96_1_0_0_1_wf := rfl
theorem kGath_eq : Cert.KernelIdeal.gather_S50000x192_S800000x1_S800000x192_1_0_n_n_0_1_1192
    = gath 50000 800000 192 Cert.KernelIdeal.Facts₀.gather_S50000x192_S800000x1_S800000x192_1_0_n_n_0_1_1192_wf := rfl
theorem rGath_eq : Cert.ReferenceIdeal.gather_S50000x96_S800000x1_S800000x96_1_0_n_n_0_1_196
    = gath 50000 800000 96 Cert.ReferenceIdeal.Facts₀.gather_S50000x96_S800000x1_S800000x96_1_0_n_n_0_1_196_wf := rfl

/-- Columns 0..95 of the neighbour sum of [X | Y] are the neighbour sum of X. -/
theorem agg_left (X Y : FVec Ideal Cert.KernelIdeal.S50000x96 .f32) (dst src : IVec Cert.KernelIdeal.S800000x1 32) :
    extractStridedSlice Cert.KernelIdeal.S50000x96 ![0, 0]
        (Host.scatterAdd (F := Ideal) Cert.KernelIdeal.scatter_S50000x192_S800000x1_S800000x192_1_0_0_1
          (broadcastInDim Cert.KernelIdeal.S50000x192 ![] Cert.KernelIdeal.Facts₀.bcast_S_S50000x192 (constant (F := Ideal) Cert.KernelIdeal.S_ .f32 0x00000000#32))
          dst
          (Host.gather Cert.KernelIdeal.gather_S50000x192_S800000x1_S800000x192_1_0_n_n_0_1_1192
            (concatenate Cert.KernelIdeal.S50000x192 1 [⟨Cert.KernelIdeal.S50000x96, X⟩, ⟨Cert.KernelIdeal.S50000x96, Y⟩] Cert.KernelIdeal.Facts₀.concatenates_S50000x96_S50000x96_S50000x192_d1)
            src))
        Cert.KernelIdeal.Facts₀.slices_S50000x192_S50000x96_0_0
    = Host.scatterAdd (F := Ideal) Cert.ReferenceIdeal.scatter_S50000x96_S800000x1_S800000x96_1_0_0_1
        (broadcastInDim Cert.ReferenceIdeal.S50000x96 ![] Cert.ReferenceIdeal.Facts₀.bcast_S_S50000x96 (constant (F := Ideal) Cert.ReferenceIdeal.S_ .f32 0x00000000#32))
        dst
        (Host.gather Cert.ReferenceIdeal.gather_S50000x96_S800000x1_S800000x96_1_0_n_n_0_1_196 X src) := by
  funext i
  obtain ⟨n, c, rfl⟩ : ∃ (n : Fin 50000) (c : Fin 96), i = ix2 n c := ⟨i 0, i 1, eq_ix2 i⟩
  have hc : c.val < 192 := by have := c.isLt; omega
  have hN : 0 < 50000 := by omega
  refine (extractStridedSlice_apply _ _ _ (ix2 n c) (ix2 n (⟨c.val, hc⟩ : Fin 192)) ?_).trans ?_
  · intro a
    match a with
    | ⟨0, _⟩ => show n.val = 0 + n.val; omega
    | ⟨1, _⟩ => show c.val = 0 + c.val; omega
  rw [hostScatterAdd_eq, hostScatterAdd_eq, kScat_eq, rScat_eq, scatterAdd_apply, scatterAdd_apply,
    zero_apply, zero_apply, kGath_eq, rGath_eq]
  refine congrArg₂ (· + ·) rfl (Finset.sum_congr rfl fun e _ => ?_)
  rw [gath_apply hN, gath_apply hN]
  rw [concatenate_pair_apply_left (t := Cert.KernelIdeal.S50000x192) (s₁ := Cert.KernelIdeal.S50000x96)
    (s₂ := Cert.KernelIdeal.S50000x96) 1 X Y Cert.KernelIdeal.Facts₀.concatenates_S50000x96_S50000x96_S50000x192_d1
    (ix2 (srcRow hN src e) (⟨c.val, hc⟩ : Fin 192)) rfl (ix2 (srcRow hN src e) c) (fun b => by
      match b with
      | ⟨0, _⟩ => rfl
      | ⟨1, _⟩ => rfl)]

/-- Columns 96..191 of the neighbour sum of [X | Y] are the neighbour sum of Y. -/
theorem agg_right (X Y : FVec Ideal Cert.KernelIdeal.S50000x96 .f32) (dst src : IVec Cert.KernelIdeal.S800000x1 32) :
    extractStridedSlice Cert.KernelIdeal.S50000x96 ![0, 96]
        (Host.scatterAdd (F := Ideal) Cert.KernelIdeal.scatter_S50000x192_S800000x1_S800000x192_1_0_0_1
          (broadcastInDim Cert.KernelIdeal.S50000x192 ![] Cert.KernelIdeal.Facts₀.bcast_S_S50000x192 (constant (F := Ideal) Cert.KernelIdeal.S_ .f32 0x00000000#32))
          dst
          (Host.gather Cert.KernelIdeal.gather_S50000x192_S800000x1_S800000x192_1_0_n_n_0_1_1192
            (concatenate Cert.KernelIdeal.S50000x192 1 [⟨Cert.KernelIdeal.S50000x96, X⟩, ⟨Cert.KernelIdeal.S50000x96, Y⟩] Cert.KernelIdeal.Facts₀.concatenates_S50000x96_S50000x96_S50000x192_d1)
            src))
        Cert.KernelIdeal.Facts₀.slices_S50000x192_S50000x96_0_96
    = Host.scatterAdd (F := Ideal) Cert.ReferenceIdeal.scatter_S50000x96_S800000x1_S800000x96_1_0_0_1
        (broadcastInDim Cert.ReferenceIdeal.S50000x96 ![] Cert.ReferenceIdeal.Facts₀.bcast_S_S50000x96 (constant (F := Ideal) Cert.ReferenceIdeal.S_ .f32 0x00000000#32))
        dst
        (Host.gather Cert.ReferenceIdeal.gather_S50000x96_S800000x1_S800000x96_1_0_n_n_0_1_196 Y src) := by
  funext i
  obtain ⟨n, c, rfl⟩ : ∃ (n : Fin 50000) (c : Fin 96), i = ix2 n c := ⟨i 0, i 1, eq_ix2 i⟩
  have hc : c.val + 96 < 192 := by have := c.isLt; omega
  have hN : 0 < 50000 := by omega
  refine (extractStridedSlice_apply _ _ _ (ix2 n c) (ix2 n (⟨c.val + 96, hc⟩ : Fin 192)) ?_).trans ?_
  · intro a
    match a with
    | ⟨0, _⟩ => show n.val = 0 + n.val; omega
    | ⟨1, _⟩ => show c.val + 96 = 96 + c.val; omega
  rw [hostScatterAdd_eq, hostScatterAdd_eq, kScat_eq, rScat_eq, scatterAdd_apply, scatterAdd_apply,
    zero_apply, zero_apply, kGath_eq, rGath_eq]
  refine congrArg₂ (· + ·) rfl (Finset.sum_congr rfl fun e _ => ?_)
  rw [gath_apply hN, gath_apply hN]
  rw [concatenate_pair_apply_right (t := Cert.KernelIdeal.S50000x192) (s₁ := Cert.KernelIdeal.S50000x96)
    (s₂ := Cert.KernelIdeal.S50000x96) 1 X Y Cert.KernelIdeal.Facts₀.concatenates_S50000x96_S50000x96_S50000x192_d1
    (ix2 (srcRow hN src e) (⟨c.val + 96, hc⟩ : Fin 192)) rfl rfl (ix2 (srcRow hN src e) c)
    (fun b hb => by
      match b with
      | ⟨0, _⟩ => rfl
      | ⟨1, _⟩ => exact absurd rfl hb)
    rfl]

end Main

end Cert.Seg

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LiftValue.lean ====
/-
  What the lift region leaves in its two result arrays, as whole-array functions of the arrays it finds.

  The region runs over 25 points; point `t` reads rows `2000 t … 2000 t + 1999` of the 50000×128 feature array and the
  whole of two 128×96 weight arrays and two 1×96 bias rows, and writes the same rows of two 50000×96 result arrays:
  tanh of the row's product with a weight array plus the bias row (the casts of the operands to a narrower format are
  the identity on the extended reals). Each result is read at an index of its block, each input block is read as rows
  of its array, so what a point writes back is a block of one whole-array function, `Cert.LV.lift`; the 25 blocks
  cover the array (row `r` lies in the block of point `r / 2000`), so the array after the region is that function.
-/
import proofs.«101018_j498216206705_2_alg».proof.Proof.Gen.KernelIdeal.Frame
import proofs.«101018_j498216206705_2_alg».proof.Proof.Spec
import proofs.«101018_j498216206705_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LiftValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's two results at an index -/

/-- The first species' block at row `p`, channel `q`: tanh of the row's product with the weights plus the bias row. -/
theorem pay2_apply (x : Vec Ideal S2000x128 .f32) (w : Vec Ideal S128x96 .f32) (b : Vec Ideal S1x96 .f32)
    (p : Fin 2000) (q : Fin 96) :
    k0_pay2 x w b (ix2 p q) = Ideal.tanh ((∑ k : Fin 128, x (ix2 p k) * w (ix2 k q)) + b (ix2 (0 : Fin 1) q)) := by
  unfold k0_pay2 k0_pay1
  show Ideal.tanh (_ + _) = _
  refine congrArg Ideal.tanh (congrArg₂ (· + ·) ?_ ?_)
  · exact Cert.PlainDot.matmul_zero_apply 2000 128 96 none _ _ (ix2 p q)
  · exact (broadcastTo_1b_ab_apply _ _ p q).trans (congrFun (shapeCast_self b _) _)

/-- The same at an index of the block. -/
theorem pay2_at (x : Vec Ideal S2000x128 .f32) (w : Vec Ideal S128x96 .f32) (b : Vec Ideal S1x96 .f32) (y : S2000x96.Idx) :
    k0_pay2 x w b y = Ideal.tanh ((∑ k : Fin 128, x (ix2 (y 0) k) * w (ix2 k (y 1))) + b (ix2 (0 : Fin 1) (y 1))) := by
  obtain ⟨p, q, rfl⟩ : ∃ (p : Fin 2000) (q : Fin 96), y = ix2 p q := ⟨y 0, y 1, eq_ix2 y⟩
  exact pay2_apply x w b p q

/-- The second species' block at row `p`, channel `q`: the same with the second weights and bias row. -/
theorem pay3_apply (x : Vec Ideal S2000x128 .f32) (w : Vec Ideal S128x96 .f32) (b : Vec Ideal S1x96 .f32)
    (p : Fin 2000) (q : Fin 96) :
    k0_pay3 x w b (ix2 p q) = Ideal.tanh ((∑ k : Fin 128, x (ix2 p k) * w (ix2 k q)) + b (ix2 (0 : Fin 1) q)) := by
  unfold k0_pay3 k0_pay1
  show Ideal.tanh (_ + _) = _
  refine congrArg Ideal.tanh (congrArg₂ (· + ·) ?_ ?_)
  · exact Cert.PlainDot.matmul_zero_apply 2000 128 96 none _ _ (ix2 p q)
  · exact (broadcastTo_1b_ab_apply _ _ p q).trans (congrFun (shapeCast_self b _) _)

/-- The same at an index of the block. -/
theorem pay3_at (x : Vec Ideal S2000x128 .f32) (w : Vec Ideal S128x96 .f32) (b : Vec Ideal S1x96 .f32) (y : S2000x96.Idx) :
    k0_pay3 x w b y = Ideal.tanh ((∑ k : Fin 128, x (ix2 (y 0) k) * w (ix2 k (y 1))) + b (ix2 (0 : Fin 1) (y 1))) := by
  obtain ⟨p, q, rfl⟩ : ∃ (p : Fin 2000) (q : Fin 96), y = ix2 p q := ⟨y 0, y 1, eq_ix2 y⟩
  exact pay3_apply x w b p q

/-! ## The index maps over the grid -/

/-- Point `t` reads row block `t` of the features and writes row block `t` of both results; the weights and the
    bias rows are whole at every point. Decided over the 25 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem hz : (![0, 0] : Fin 2 → Nat) = fun _ => 0 := funext fun a => by fin_cases a <;> rfl

section Blocks

variable (V : (c : Dev nD) → (b : Ref sig .tc) → Buf (Elt Ideal) ((c : Thread nD τ).loc b))

/-! ## The input blocks as rows of their arrays -/

/-- The features' block at point `t` is rows `2000 t … 2000 t + 1999` of the feature array. -/
theorem blk0_apply (c : Dev nD) (t : Fin cfg0.N) (p : Fin 2000) (k : Fin 128) (r : Fin 50000)
    (hr : r.val = t.val * 2000 + p.val) :
    (iblk0 V c 0 t : Vec Ideal S2000x128 .f32) (ix2 p k) = (V c main_arg0 : S50000x128.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- The first weights' block at every point is the whole weight array. -/
theorem blk1_apply (c : Dev nD) (t : Fin cfg0.N) (k : Fin 128) (q : Fin 96) :
    (iblk0 V c 1 t : Vec Ideal S128x96 .f32) (ix2 k q) = (V c main_arg2 : S128x96.Idx → EReal) (ix2 k q) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 96 + 1 * q.val = q.val; omega

/-- The first bias block at every point is the whole bias row. -/
theorem blk2_apply (c : Dev nD) (t : Fin cfg0.N) (q : Fin 96) :
    (iblk0 V c 2 t : Vec Ideal S1x96 .f32) (ix2 (0 : Fin 1) q) = (V c main_v13 : S1x96.Idx → EReal) (ix2 (0 : Fin 1) q) := by
  obtain ⟨-, -, -, -, e0, e1, -⟩ := idx_facts t
  unfold iblk0
  rw [View.read_apply]
  show V c main_v13 _ = V c main_v13 _
  congr 1
  funext a
  apply Fin.ext
  match a with
  | ⟨0, _⟩ => show win0_2.index t (0 : Fin 2) * 1 + 1 * 0 = 0; omega
  | ⟨1, _⟩ => show win0_2.index t (1 : Fin 2) * 96 + 1 * q.val = q.val; omega

/-- The second weights' block at every point is the whole weight array. -/
theorem blk3_apply (c : Dev nD) (t : Fin cfg0.N) (k : Fin 128) (q : Fin 96) :
    (iblk0 V c 3 t : Vec Ideal S128x96 .f32) (ix2 k q) = (V c main_arg4 : S128x96.Idx → EReal) (ix2 k q) := by
  obtain ⟨-, -, -, -, -, -, e0, e1, -⟩ := idx_facts t
  unfold iblk0
  rw [View.read_apply]
  show V c main_arg4 _ = V c main_arg4 _
  congr 1
  funext a
  apply Fin.ext
  match a with
  | ⟨0, _⟩ => show win0_3.index t (0 : Fin 2) * 128 + 1 * k.val = k.val; omega
  | ⟨1, _⟩ => show win0_3.index t (1 : Fin 2) * 96 + 1 * q.val = q.val; omega

/-- The second bias block at every point is the whole bias row. -/
theorem blk4_apply (c : Dev nD) (t : Fin cfg0.N) (q : Fin 96) :
    (iblk0 V c 4 t : Vec Ideal S1x96 .f32) (ix2 (0 : Fin 1) q) = (V c main_v14 : S1x96.Idx → EReal) (ix2 (0 : Fin 1) q) := by
  obtain ⟨-, -, -, -, -, -, -, -, e0, e1, -⟩ := idx_facts t
  unfold iblk0
  rw [View.read_apply]
  show V c main_v14 _ = V c main_v14 _
  congr 1
  funext a
  apply Fin.ext
  match a with
  | ⟨0, _⟩ => show win0_4.index t (0 : Fin 2) * 1 + 1 * 0 = 0; omega
  | ⟨1, _⟩ => show win0_4.index t (1 : Fin 2) * 96 + 1 * q.val = q.val; omega

/-! ## What a point writes back, and the array after the run -/

/-- Point `t` writes block `t` of the lift of the feature array by the first weights and bias. -/
theorem flushed5_eq (c : Dev nD) (t : Fin cfg0.N) :
    (dat0 V c).flushed 5 t = ((cfg0.win 5).blk t).view.read (Elt Ideal)
      (Cert.LV.lift (V c main_arg0) (V c main_arg2) (fun j => V c main_v13 (ix2 (0 : Fin 1) j))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x96) hz, View.ld_unit_zero (S := S1x96) hz]
  funext y
  obtain ⟨-, -, -, -, -, -, -, -, -, -, i0, i1, -⟩ := idx_facts t
  have e0 : (((cfg0.win 5).blk t).view.emb y 0).val = t.val * 2000 + (y 0).val := by
    show win0_5.index t (0 : Fin 2) * 2000 + 1 * (y 0).val = _
    omega
  have e1 : (((cfg0.win 5).blk t).view.emb y 1).val = (y 1).val := by
    show win0_5.index t (1 : Fin 2) * 96 + 1 * (y 1).val = _
    omega
  show k0_pay2 (iblk0 V c 0 t) (iblk0 V c 1 t) (iblk0 V c 2 t) y = _
  refine (pay2_at _ _ _ y).trans ?_
  show _ = Cert.LV.lift (V c main_arg0) (V c main_arg2) (fun j => V c main_v13 (ix2 (0 : Fin 1) j)) (((cfg0.win 5).blk t).view.emb y)
  unfold Cert.LV.lift
  have q1 : (((cfg0.win 5).blk t).view.emb y 1 : Fin 96) = y 1 := Fin.ext e1
  rw [q1]
  refine congrArg Ideal.tanh (congrArg₂ (· + ·) (Finset.sum_congr rfl fun k _ => congrArg₂ (· * ·) ?_ ?_) ?_)
  · exact blk0_apply V c t (y 0) k _ e0
  · exact blk1_apply V c t k (y 1)
  · exact blk2_apply V c t (y 1)

/-- An index of the result array is in point `t`'s block iff each coordinate is in the block's range on its axis. -/
theorem mem_blk5 (t : Fin cfg0.N) (i : S50000x96.Idx) :
    i ∈ ((cfg0.win 5).blk t).view.set ↔ ∀ a : Fin 2, win0_5.index t a * S2000x96.size a ≤ (i a).val ∧ (i a).val < win0_5.index t a * S2000x96.size a + S2000x96.size a := by
  show i ∈ ((View.whole main_v15_0).slice (win0_5.rect t)).set ↔ _
  rw [View.set_slice_whole, Rect.mem_set_unit]
  exact Iff.rfl

/-- Row `r` of the result array is in the block of point `r / 2000`, which writes it back. -/
theorem cover5 (i : S50000x96.Idx) :
    ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, i0, i1, -⟩ := idx_facts t
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 96 ≤ (i 1).val ∧ (i 1).val < win0_5.index t (1 : Fin 2) * 96 + 96; omega

/-- The first result array after the region: the lift of the features by the first weights and bias. -/
theorem final5 (c : Dev nD) :
    ((dat0 V c).arrAt 5 cfg0.N : S50000x96.Idx → EReal)
      = Cert.LV.lift (V c main_arg0) (V c main_arg2) (fun j => V c main_v13 (ix2 (0 : Fin 1) j)) :=
  (dat0 V c).arrAt_eq_of_cover 5 _ (fun t _ => flushed5_eq V c t) cover5

/-- Point `t` writes block `t` of the lift of the feature array by the second weights and bias. -/
theorem flushed6_eq (c : Dev nD) (t : Fin cfg0.N) :
    (dat0 V c).flushed 6 t = ((cfg0.win 6).blk t).view.read (Elt Ideal)
      (Cert.LV.lift (V c main_arg0) (V c main_arg4) (fun j => V c main_v14 (ix2 (0 : Fin 1) j))) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x96) hz, View.ld_unit_zero (S := S1x96) hz]
  funext y
  obtain ⟨-, -, -, -, -, -, -, -, -, -, -, -, i0, i1⟩ := idx_facts t
  have e0 : (((cfg0.win 6).blk t).view.emb y 0).val = t.val * 2000 + (y 0).val := by
    show win0_6.index t (0 : Fin 2) * 2000 + 1 * (y 0).val = _
    omega
  have e1 : (((cfg0.win 6).blk t).view.emb y 1).val = (y 1).val := by
    show win0_6.index t (1 : Fin 2) * 96 + 1 * (y 1).val = _
    omega
  show k0_pay3 (iblk0 V c 0 t) (iblk0 V c 3 t) (iblk0 V c 4 t) y = _
  refine (pay3_at _ _ _ y).trans ?_
  show _ = Cert.LV.lift (V c main_arg0) (V c main_arg4) (fun j => V c main_v14 (ix2 (0 : Fin 1) j)) (((cfg0.win 6).blk t).view.emb y)
  unfold Cert.LV.lift
  have q1 : (((cfg0.win 6).blk t).view.emb y 1 : Fin 96) = y 1 := Fin.ext e1
  rw [q1]
  refine congrArg Ideal.tanh (congrArg₂ (· + ·) (Finset.sum_congr rfl fun k _ => congrArg₂ (· * ·) ?_ ?_) ?_)
  · exact blk0_apply V c t (y 0) k _ e0
  · exact blk3_apply V c t k (y 1)
  · exact blk4_apply V c t (y 1)

/-- An index of the second result array is in point `t`'s block iff each coordinate is in the block's range on its axis. -/
theorem mem_blk6 (t : Fin cfg0.N) (i : S50000x96.Idx) :
    i ∈ ((cfg0.win 6).blk t).view.set ↔ ∀ a : Fin 2, win0_6.index t a * S2000x96.size a ≤ (i a).val ∧ (i a).val < win0_6.index t a * S2000x96.size a + S2000x96.size a := by
  show i ∈ ((View.whole main_v15_1).slice (win0_6.rect t)).set ↔ _
  rw [View.set_slice_whole, Rect.mem_set_unit]
  exact Iff.rfl

/-- Row `r` of the second result array is in the block of point `r / 2000`, which writes it back. -/
theorem cover6 (i : S50000x96.Idx) :
    ∃ t : Fin cfg0.N, (cfg0.win 6).flush t = true ∧ i ∈ ((cfg0.win 6).blk t).view.set := by
  have hi0 : (i 0).val < 50000 := (i 0).isLt
  have hi1 : (i 1).val < 96 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, i0, i1⟩ := idx_facts t
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 96 ≤ (i 1).val ∧ (i 1).val < win0_6.index t (1 : Fin 2) * 96 + 96; omega

/-- The second result array after the region: the lift of the features by the second weights and bias. -/
theorem final6 (c : Dev nD) :
    ((dat0 V c).arrAt 6 cfg0.N : S50000x96.Idx → EReal)
      = Cert.LV.lift (V c main_arg0) (V c main_arg4) (fun j => V c main_v14 (ix2 (0 : Fin 1) j)) :=
  (dat0 V c).arrAt_eq_of_cover 6 _ (fun t _ => flushed6_eq V c t) cover6

end Blocks

end Cert.KernelIdeal.LiftValue

end
-- ==== Proof.LvValue1.lean ====
/-
  Region 1 of the kernel's @main: one explicit Euler step of the two species, as whole arrays.

  The region runs one elementwise body over a grid of 25 points, point t holding rows 2000 t … 2000 t + 1999 of the
  node arrays and the whole of each coefficient row. At row p and channel q of a block the body computes

    prey      X + (dt · X) · (a q − b q · (aggY · dinv p))
    predator  Y + (dt · Y) · ((0 − g q) + d q · (aggX · dinv p))

  and on the extended reals 0 − x = −x. Each block of an output is therefore the block of ONE function of the
  region's entry arrays, the specification's `prey` / `pred`; the 25 blocks cover the 50000 rows, so the output
  arrays end holding those functions.
-/
import proofs.«101018_j498216206705_2_alg».proof.Proof.Gen.KernelIdeal.Frame
import proofs.«101018_j498216206705_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LvValue1

open Cert.KernelIdeal Cert.KernelIdeal.Gen Idealize.ShloMosaic Idealize.ShloMosaic.TcCoe Idealize.SL.Sem
open Idealize.ShloMosaic.ValueIdx
open Idealize.ShloMosaic.Pipeline (Dat)

/-! ## The body at one element of a block -/

theorem hz : (![0, 0] : Fin 2 → Nat) = fun _ => 0 := funext fun a => by fin_cases a <;> rfl

/-- A row [1, 96] broadcast over 2000 rows, read at (p, q), is the row at q. -/
theorem bcast_row (x : S1x96.Idx → EReal) (h : S1x96.Broadcasts S2000x96) (p : Fin 2000) (q : Fin 96) :
    broadcastTo S2000x96 x h (ix2 p q) = x (ix2 0 q) := by
  refine broadcastTo_apply x h (ix2 p q) (ix2 0 q) fun a => ?_
  match a with
  | ⟨0, _⟩ => rfl
  | ⟨1, _⟩ => rfl

/-- A column [2000, 1] broadcast over 96 channels, read at (p, q), is the column at p. -/
theorem bcast_col (x : S2000x1.Idx → EReal) (h : S2000x1.Broadcasts S2000x96) (p : Fin 2000) (q : Fin 96) :
    broadcastTo S2000x96 x h (ix2 p q) = x (ix2 p 0) := by
  refine broadcastTo_apply x h (ix2 p q) (ix2 p 0) fun a => ?_
  match a with
  | ⟨0, _⟩ => rfl
  | ⟨1, _⟩ => rfl

/-- The prey payload at row p, channel q of a block: one Euler step of the prey there. -/
theorem prey_at (x0 x3 : Vec Ideal S2000x96 .f32) (x4 : Vec Ideal S2000x1 .f32) (x5 x6 : Vec Ideal S1x96 .f32)
    (p : Fin 2000) (q : Fin 96) :
    k1_pay6 x0 x4 x3 x5 x6 (ix2 p q)
      = x0 (ix2 p q) + (Cert.LV.dt * x0 (ix2 p q)) * (x5 (ix2 0 q) - x6 (ix2 0 q) * (x3 (ix2 p q) * x4 (ix2 p 0))) := by
  unfold k1_pay6 k1_pay3
  simp only [shapeCast_self]
  rw [addf_apply, mulf_apply, mulf_apply, subf_apply, mulf_apply, mulf_apply, bcast_row, bcast_row, bcast_col,
    broadcast_apply]
  rfl

/-- The predator payload at row p, channel q of a block: one Euler step of the predator there (0 − g is −g). -/
theorem pred_at (x1 x2 : Vec Ideal S2000x96 .f32) (x4 : Vec Ideal S2000x1 .f32) (x7 x8 : Vec Ideal S1x96 .f32)
    (p : Fin 2000) (q : Fin 96) :
    k1_pay1 (k1_pay2 x1) (k1_pay4 x4 x2) (k1_pay5 x8) (k1_pay7 x1) (k1_pay8 x7) (ix2 p q)
      = x1 (ix2 p q) + (Cert.LV.dt * x1 (ix2 p q)) * (-(x7 (ix2 0 q)) + x8 (ix2 0 q) * (x2 (ix2 p q) * x4 (ix2 p 0))) := by
  unfold k1_pay1 k1_pay2 k1_pay4 k1_pay5 k1_pay7 k1_pay8 k1_pay3 k1_pay2
  simp only [shapeCast_self]
  rw [addf_apply, mulf_apply, mulf_apply, addf_apply, mulf_apply, mulf_apply, bcast_row, bcast_row, bcast_col,
    broadcast_apply, subf_apply, broadcast_apply]
  show _ + _ * ((Ideal.ofBits .f32 0x00000000#32 - _) + _) = _
  rw [Ideal.ofBits_zero_f32, zero_sub]
  rfl

/-- The prey payload at (p, q) from the values its five operands have there. -/
theorem prey_of (x0 x3 : Vec Ideal S2000x96 .f32) (x4 : Vec Ideal S2000x1 .f32) (x5 x6 : Vec Ideal S1x96 .f32)
    (p : Fin 2000) (q : Fin 96) (X A D a b : EReal) (h0 : x0 (ix2 p q) = X) (h3 : x3 (ix2 p q) = A)
    (h4 : x4 (ix2 p 0) = D) (h5 : x5 (ix2 0 q) = a) (h6 : x6 (ix2 0 q) = b) :
    k1_pay6 x0 x4 x3 x5 x6 (ix2 p q) = X + (Cert.LV.dt * X) * (a - b * (A * D)) := by
  rw [prey_at, h0, h3, h4, h5, h6]

/-- The predator payload at (p, q) from the values its five operands have there. -/
theorem pred_of (x1 x2 : Vec Ideal S2000x96 .f32) (x4 : Vec Ideal S2000x1 .f32) (x7 x8 : Vec Ideal S1x96 .f32)
    (p : Fin 2000) (q : Fin 96) (Y A D g d : EReal) (h1 : x1 (ix2 p q) = Y) (h2 : x2 (ix2 p q) = A)
    (h4 : x4 (ix2 p 0) = D) (h7 : x7 (ix2 0 q) = g) (h8 : x8 (ix2 0 q) = d) :
    k1_pay1 (k1_pay2 x1) (k1_pay4 x4 x2) (k1_pay5 x8) (k1_pay7 x1) (k1_pay8 x7) (ix2 p q)
      = Y + (Cert.LV.dt * Y) * (-g + d * (A * D)) := by
  rw [pred_at, h1, h2, h4, h7, h8]

/-! ## The windows' blocks as rows of their arrays -/

/-- The windows' block indices at grid point t: the seven row-blocked windows are at block (t, 0), the four
    coefficient rows at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

variable (V : (c : Dev nD) → (b : Ref sig .tc) → Buf (Elt Ideal) ((c : Thread nD τ).loc b))

/-- Window 0's block at point t, read at (p, q), is its array at row 2000 t + p, channel q. -/
theorem blk0_at (c : Dev nD) (t : Fin cfg1.N) (p : Fin 2000) (q : Fin 96) (k : S50000x96.Idx)
    (h0 : (k 0).val = t.val * 2000 + p.val) (h1 : (k 1).val = q.val) :
    (iblk1 V c 0 t : Vec Ideal S2000x96 .f32) (ix2 p q) = (V c main_v15_0 : S50000x96.Idx → EReal) k := by
  obtain ⟨⟨e0, e1⟩, -, -, -, -, -, -, -, -, -, -⟩ := idx_facts t
  show V c main_v15_0 (((cfg1.win 0).blk t).view.emb (ix2 p q)) = V c main_v15_0 k
  refine congrArg (V c main_v15_0) (funext fun a => Fin.ext ?_)
  match a with
  | ⟨0, _⟩ => show win1_0.index t (0 : Fin 2) * 2000 + 1 * p.val = (k 0).val; omega
  | ⟨1, _⟩ => show win1_0.index t (1 : Fin 2) * 96 + 1 * q.val = (k 1).val; omega

/-- Window 1's block at point t, read at (p, q), is its array at row 2000 t + p, channel q. -/
theorem blk1_at (c : Dev nD) (t : Fin cfg1.N) (p : Fin 2000) (q : Fin 96) (k : S50000x96.Idx)
    (h0 : (k 0).val = t.val * 2000 + p.val) (h1 : (k 1).val = q.val) :
    (iblk1 V c 1 t : Vec Ideal S2000x96 .f32) (ix2 p q) = (V c main_v15_1 : S50000x96.Idx → EReal) k := by
  obtain ⟨-, ⟨e0, e1⟩, -, -, -, -, -, -, -, -, -⟩ := idx_facts t
  show V c main_v15_1 (((cfg1.win 1).blk t).view.emb (ix2 p q)) = V c main_v15_1 k
  refine congrArg (V c main_v15_1) (funext fun a => Fin.ext ?_)
  match a with
  | ⟨0, _⟩ => show win1_1.index t (0 : Fin 2) * 2000 + 1 * p.val = (k 0).val; omega
  | ⟨1, _⟩ => show win1_1.index t (1 : Fin 2) * 96 + 1 * q.val = (k 1).val; omega

/-- Window 2's block at point t, read at (p, q), is its array at row 2000 t + p, channel q. -/
theorem blk2_at (c : Dev nD) (t : Fin cfg1.N) (p : Fin 2000) (q : Fin 96) (k : S50000x96.Idx)
    (h0 : (k 0).val = t.val * 2000 + p.val) (h1 : (k 1).val = q.val) :
    (iblk1 V c 2 t : Vec Ideal S2000x96 .f32) (ix2 p q) = (V c main_v29 : S50000x96.Idx → EReal) k := by
  obtain ⟨-, -, ⟨e0, e1⟩, -, -, -, -, -, -, -, -⟩ := idx_facts t
  show V c main_v29 (((cfg1.win 2).blk t).view.emb (ix2 p q)) = V c main_v29 k
  refine congrArg (V c main_v29) (funext fun a => Fin.ext ?_)
  match a with
  | ⟨0, _⟩ => show win1_2.index t (0 : Fin 2) * 2000 + 1 * p.val = (k 0).val; omega
  | ⟨1, _⟩ => show win1_2.index t (1 : Fin 2) * 96 + 1 * q.val = (k 1).val; omega

/-- Window 3's block at point t, read at (p, q), is its array at row 2000 t + p, channel q. -/
theorem blk3_at (c : Dev nD) (t : Fin cfg1.N) (p : Fin 2000) (q : Fin 96) (k : S50000x96.Idx)
    (h0 : (k 0).val = t.val * 2000 + p.val) (h1 : (k 1).val = q.val) :
    (iblk1 V c 3 t : Vec Ideal S2000x96 .f32) (ix2 p q) = (V c main_v30 : S50000x96.Idx → EReal) k := by
  obtain ⟨-, -, -, ⟨e0, e1⟩, -, -, -, -, -, -, -⟩ := idx_facts t
  show V c main_v30 (((cfg1.win 3).blk t).view.emb (ix2 p q)) = V c main_v30 k
  refine congrArg (V c main_v30) (funext fun a => Fin.ext ?_)
  match a with
  | ⟨0, _⟩ => show win1_3.index t (0 : Fin 2) * 2000 + 1 * p.val = (k 0).val; omega
  | ⟨1, _⟩ => show win1_3.index t (1 : Fin 2) * 96 + 1 * q.val = (k 1).val; omega

/-- Window 4's block (the reciprocal degrees) at point t, read at (p, 0), is its array at row 2000 t + p. -/
theorem blk4_at (c : Dev nD) (t : Fin cfg1.N) (p : Fin 2000) (k : S50000x1.Idx)
    (h0 : (k 0).val = t.val * 2000 + p.val) (h1 : (k 1).val = 0) :
    (iblk1 V c 4 t : Vec Ideal S2000x1 .f32) (ix2 p 0) = (V c main_v12 : S50000x1.Idx → EReal) k := by
  obtain ⟨-, -, -, -, ⟨e0, e1⟩, -, -, -, -, -, -⟩ := idx_facts t
  show V c main_v12 (((cfg1.win 4).blk t).view.emb (ix2 p 0)) = V c main_v12 k
  refine congrArg (V c main_v12) (funext fun a => Fin.ext ?_)
  match a with
  | ⟨0, _⟩ => show win1_4.index t (0 : Fin 2) * 2000 + 1 * p.val = (k 0).val; omega
  | ⟨1, _⟩ => show win1_4.index t (1 : Fin 2) * 1 + 1 * (0 : Fin 1).val = (k 1).val; rw [h1, e1]; rfl

/-- Window 5's block (a coefficient row) at any point is the whole row. -/
theorem blk5_at (c : Dev nD) (t : Fin cfg1.N) (q : Fin 96) (k : S1x96.Idx)
    (h0 : (k 0).val = 0) (h1 : (k 1).val = q.val) :
    (iblk1 V c 5 t : Vec Ideal S1x96 .f32) (ix2 0 q) = (V c main_v31 : S1x96.Idx → EReal) k := by
  obtain ⟨-, -, -, -, -, ⟨e0, e1⟩, -, -, -, -, -⟩ := idx_facts t
  show V c main_v31 (((cfg1.win 5).blk t).view.emb (ix2 0 q)) = V c main_v31 k
  refine congrArg (V c main_v31) (funext fun a => Fin.ext ?_)
  match a with
  | ⟨0, _⟩ => show win1_5.index t (0 : Fin 2) * 1 + 1 * (0 : Fin 1).val = (k 0).val; rw [h0, e0]; rfl
  | ⟨1, _⟩ => show win1_5.index t (1 : Fin 2) * 96 + 1 * q.val = (k 1).val; omega

/-- Window 6's block (a coefficient row) at any point is the whole row. -/
theorem blk6_at (c : Dev nD) (t : Fin cfg1.N) (q : Fin 96) (k : S1x96.Idx)
    (h0 : (k 0).val = 0) (h1 : (k 1).val = q.val) :
    (iblk1 V c 6 t : Vec Ideal S1x96 .f32) (ix2 0 q) = (V c main_v32 : S1x96.Idx → EReal) k := by
  obtain ⟨-, -, -, -, -, -, ⟨e0, e1⟩, -, -, -, -⟩ := idx_facts t
  show V c main_v32 (((cfg1.win 6).blk t).view.emb (ix2 0 q)) = V c main_v32 k
  refine congrArg (V c main_v32) (funext fun a => Fin.ext ?_)
  match a with
  | ⟨0, _⟩ => show win1_6.index t (0 : Fin 2) * 1 + 1 * (0 : Fin 1).val = (k 0).val; rw [h0, e0]; rfl
  | ⟨1, _⟩ => show win1_6.index t (1 : Fin 2) * 96 + 1 * q.val = (k 1).val; omega

/-- Window 7's block (a coefficient row) at any point is the whole row. -/
theorem blk7_at (c : Dev nD) (t : Fin cfg1.N) (q : Fin 96) (k : S1x96.Idx)
    (h0 : (k 0).val = 0) (h1 : (k 1).val = q.val) :
    (iblk1 V c 7 t : Vec Ideal S1x96 .f32) (ix2 0 q) = (V c main_v33 : S1x96.Idx → EReal) k := by
  obtain ⟨-, -, -, -, -, -, -, ⟨e0, e1⟩, -, -, -⟩ := idx_facts t
  show V c main_v33 (((cfg1.win 7).blk t).view.emb (ix2 0 q)) = V c main_v33 k
  refine congrArg (V c main_v33) (funext fun a => Fin.ext ?_)
  match a with
  | ⟨0, _⟩ => show win1_7.index t (0 : Fin 2) * 1 + 1 * (0 : Fin 1).val = (k 0).val; rw [h0, e0]; rfl
  | ⟨1, _⟩ => show win1_7.index t (1 : Fin 2) * 96 + 1 * q.val = (k 1).val; omega

/-- Window 8's block (a coefficient row) at any point is the whole row. -/
theorem blk8_at (c : Dev nD) (t : Fin cfg1.N) (q : Fin 96) (k : S1x96.Idx)
    (h0 : (k 0).val = 0) (h1 : (k 1).val = q.val) :
    (iblk1 V c 8 t : Vec Ideal S1x96 .f32) (ix2 0 q) = (V c main_v34 : S1x96.Idx → EReal) k := by
  obtain ⟨-, -, -, -, -, -, -, -, ⟨e0, e1⟩, -, -⟩ := idx_facts t
  show V c main_v34 (((cfg1.win 8).blk t).view.emb (ix2 0 q)) = V c main_v34 k
  refine congrArg (V c main_v34) (funext fun a => Fin.ext ?_)
  match a with
  | ⟨0, _⟩ => show win1_8.index t (0 : Fin 2) * 1 + 1 * (0 : Fin 1).val = (k 0).val; rw [h0, e0]; rfl
  | ⟨1, _⟩ => show win1_8.index t (1 : Fin 2) * 96 + 1 * q.val = (k 1).val; omega

/-! ## Output window 9: the prey -/

/-- The prey payload of point t's blocks at (p, q) is the specification's step of the entry arrays at the
    array index K of that element (row 2000 t + p, channel q). -/
theorem prey_blk (c : Dev nD) (t : Fin cfg1.N) (p : Fin 2000) (q : Fin 96) (K : S50000x96.Idx)
    (k0 : (K 0).val = t.val * 2000 + p.val) (k1 : (K 1).val = q.val) :
    k1_pay6 (iblk1 V c 0 t) (iblk1 V c 4 t) (iblk1 V c 3 t) (iblk1 V c 5 t) (iblk1 V c 6 t) (ix2 p q)
      = (Cert.LV.prey (V c main_v15_0) (V c main_v30) (fun r => V c main_v12 (ix2 r 0)) (fun j => V c main_v31 (ix2 0 j)) (fun j => V c main_v32 (ix2 0 j))) K :=
  prey_of (iblk1 V c 0 t) (iblk1 V c 3 t) (iblk1 V c 4 t) (iblk1 V c 5 t) (iblk1 V c 6 t) p q
    ((V c main_v15_0 : S50000x96.Idx → EReal) K) ((V c main_v30 : S50000x96.Idx → EReal) K)
    ((V c main_v12 : S50000x1.Idx → EReal) (ix2 (K 0) 0)) ((V c main_v31 : S1x96.Idx → EReal) (ix2 0 (K 1)))
    ((V c main_v32 : S1x96.Idx → EReal) (ix2 0 (K 1)))
    (blk0_at V c t p q K k0 k1) (blk3_at V c t p q K k0 k1) (blk4_at V c t p (ix2 (K 0) 0) k0 rfl)
    (blk5_at V c t q (ix2 0 (K 1)) rfl k1) (blk6_at V c t q (ix2 0 (K 1)) rfl k1)

/-- What point t writes back to window 9's array is block t of the specification's prey step of the entry arrays. -/
theorem flushed9_eq (c : Dev nD) (t : Fin cfg1.N) :
    (dat1 V c).flushed 9 t = ((cfg1.win 9).blk t).view.read (Elt Ideal)
      (Cert.LV.prey (V c main_v15_0) (V c main_v30) (fun r => V c main_v12 (ix2 r 0)) (fun j => V c main_v31 (ix2 0 j)) (fun j => V c main_v32 (ix2 0 j))) := by
  show (cfg1.win 9).cut (grid1.coords t) ((dat1 V c).after 9 t) = _
  rw [after1_9]
  unfold out1_9
  rw [View.canon_unit_zero hz]
  simp only [View.ld_unit_zero (S := S2000x96) hz, View.ld_unit_zero (S := S2000x1) hz, View.ld_unit_zero (S := S1x96) hz]
  obtain ⟨-, -, -, -, -, -, -, -, -, ⟨e0, e1⟩, -⟩ := idx_facts t
  funext j
  have hj0 : (j 0).val < 2000 := (j 0).isLt
  have hj1 : (j 1).val < 96 := (j 1).isLt
  have ej : ((cfg1.win 9).xinj (grid1.coords t) j : S2000x96.Idx)
      = ix2 (⟨(j 0).val, hj0⟩ : Fin 2000) (⟨(j 1).val, hj1⟩ : Fin 96) :=
    funext fun a => match a with | ⟨0, _⟩ => rfl | ⟨1, _⟩ => rfl
  show k1_pay6 (iblk1 V c 0 t) (iblk1 V c 4 t) (iblk1 V c 3 t) (iblk1 V c 5 t) (iblk1 V c 6 t) ((cfg1.win 9).xinj (grid1.coords t) j)
    = (Cert.LV.prey (V c main_v15_0) (V c main_v30) (fun r => V c main_v12 (ix2 r 0)) (fun j => V c main_v31 (ix2 0 j)) (fun j => V c main_v32 (ix2 0 j))) (((cfg1.win 9).blk t).view.emb j)
  refine (congrArg (k1_pay6 (iblk1 V c 0 t) (iblk1 V c 4 t) (iblk1 V c 3 t) (iblk1 V c 5 t) (iblk1 V c 6 t)) ej).trans ?_
  refine prey_blk V c t ⟨(j 0).val, hj0⟩ ⟨(j 1).val, hj1⟩ (((cfg1.win 9).blk t).view.emb j) ?_ ?_
  · show win1_9.index t (0 : Fin 2) * 2000 + 1 * (j 0).val = t.val * 2000 + (j 0).val; omega
  · show win1_9.index t (1 : Fin 2) * 96 + 1 * (j 1).val = (j 1).val; omega

/-- An index of the array is in point t's block of window 9 iff each coordinate is in the block's range. -/
theorem mem_blk9 (t : Fin cfg1.N) (i : S50000x96.Idx) :
    i ∈ ((cfg1.win 9).blk t).view.set ↔ ∀ a : Fin 2, win1_9.index t a * S2000x96.size a ≤ (i a).val
      ∧ (i a).val < win1_9.index t a * S2000x96.size a + S2000x96.size a := by
  show i ∈ ((View.whole main_v35_0).slice (win1_9.rect t)).set ↔ _
  rw [View.set_slice_whole, Rect.mem_set_unit]
  exact Iff.rfl

/-- Every index of the array is in the block of the point its row falls in (row r in block r / 2000). -/
theorem cover9 (i : S50000x96.Idx) :
    ∃ t : Fin cfg1.N, (cfg1.win 9).flush t = true ∧ i ∈ ((cfg1.win 9).blk t).view.set := by
  have hi0 : (i 0).val < 50000 := (i 0).isLt
  have hi1 : (i 1).val < 96 := (i 1).isLt
  have hN : cfg1.N = 25 := N_1
  refine ⟨⟨(i 0).val / 2000, by rw [hN]; omega⟩, flush1_9 _, ?_⟩
  rw [mem_blk9]
  obtain ⟨-, -, -, -, -, -, -, -, -, ⟨e0, e1⟩, -⟩ := idx_facts ⟨(i 0).val / 2000, by rw [hN]; omega⟩
  intro a
  match a with
  | ⟨0, _⟩ =>
    show win1_9.index _ (0 : Fin 2) * 2000 ≤ (i 0).val ∧ (i 0).val < win1_9.index _ (0 : Fin 2) * 2000 + 2000
    rw [e0]; show (i 0).val / 2000 * 2000 ≤ (i 0).val ∧ (i 0).val < (i 0).val / 2000 * 2000 + 2000; omega
  | ⟨1, _⟩ =>
    show win1_9.index _ (1 : Fin 2) * 96 ≤ (i 1).val ∧ (i 1).val < win1_9.index _ (1 : Fin 2) * 96 + 96
    rw [e1]; omega

/-- The array after the region: the prey step of the region's entry arrays. -/
theorem final9 (c : Dev nD) : ((dat1 V c).arrAt 9 cfg1.N : S50000x96.Idx → EReal)
    = Cert.LV.prey (V c main_v15_0) (V c main_v30) (fun r => V c main_v12 (ix2 r 0)) (fun j => V c main_v31 (ix2 0 j)) (fun j => V c main_v32 (ix2 0 j)) :=
  (dat1 V c).arrAt_eq_of_cover 9 _ (fun t _ => flushed9_eq V c t) (cover9)

/-! ## Output window 10: the predator -/

/-- The predator payload of point t's blocks at (p, q) is the specification's step of the entry arrays at the
    array index K of that element (row 2000 t + p, channel q). -/
theorem pred_blk (c : Dev nD) (t : Fin cfg1.N) (p : Fin 2000) (q : Fin 96) (K : S50000x96.Idx)
    (k0 : (K 0).val = t.val * 2000 + p.val) (k1 : (K 1).val = q.val) :
    k1_pay1 (k1_pay2 (iblk1 V c 1 t)) (k1_pay4 (iblk1 V c 4 t) (iblk1 V c 2 t)) (k1_pay5 (iblk1 V c 8 t)) (k1_pay7 (iblk1 V c 1 t)) (k1_pay8 (iblk1 V c 7 t)) (ix2 p q)
      = (Cert.LV.pred (V c main_v15_1) (V c main_v29) (fun r => V c main_v12 (ix2 r 0)) (fun j => V c main_v33 (ix2 0 j)) (fun j => V c main_v34 (ix2 0 j))) K :=
  pred_of (iblk1 V c 1 t) (iblk1 V c 2 t) (iblk1 V c 4 t) (iblk1 V c 7 t) (iblk1 V c 8 t) p q
    ((V c main_v15_1 : S50000x96.Idx → EReal) K) ((V c main_v29 : S50000x96.Idx → EReal) K)
    ((V c main_v12 : S50000x1.Idx → EReal) (ix2 (K 0) 0)) ((V c main_v33 : S1x96.Idx → EReal) (ix2 0 (K 1)))
    ((V c main_v34 : S1x96.Idx → EReal) (ix2 0 (K 1)))
    (blk1_at V c t p q K k0 k1) (blk2_at V c t p q K k0 k1) (blk4_at V c t p (ix2 (K 0) 0) k0 rfl)
    (blk7_at V c t q (ix2 0 (K 1)) rfl k1) (blk8_at V c t q (ix2 0 (K 1)) rfl k1)

/-- What point t writes back to window 10's array is block t of the specification's predator step of the entry arrays. -/
theorem flushed10_eq (c : Dev nD) (t : Fin cfg1.N) :
    (dat1 V c).flushed 10 t = ((cfg1.win 10).blk t).view.read (Elt Ideal)
      (Cert.LV.pred (V c main_v15_1) (V c main_v29) (fun r => V c main_v12 (ix2 r 0)) (fun j => V c main_v33 (ix2 0 j)) (fun j => V c main_v34 (ix2 0 j))) := by
  show (cfg1.win 10).cut (grid1.coords t) ((dat1 V c).after 10 t) = _
  rw [after1_10]
  unfold out1_10
  rw [View.canon_unit_zero hz]
  simp only [View.ld_unit_zero (S := S2000x96) hz, View.ld_unit_zero (S := S2000x1) hz, View.ld_unit_zero (S := S1x96) hz]
  obtain ⟨-, -, -, -, -, -, -, -, -, -, ⟨e0, e1⟩⟩ := idx_facts t
  funext j
  have hj0 : (j 0).val < 2000 := (j 0).isLt
  have hj1 : (j 1).val < 96 := (j 1).isLt
  have ej : ((cfg1.win 10).xinj (grid1.coords t) j : S2000x96.Idx)
      = ix2 (⟨(j 0).val, hj0⟩ : Fin 2000) (⟨(j 1).val, hj1⟩ : Fin 96) :=
    funext fun a => match a with | ⟨0, _⟩ => rfl | ⟨1, _⟩ => rfl
  show k1_pay1 (k1_pay2 (iblk1 V c 1 t)) (k1_pay4 (iblk1 V c 4 t) (iblk1 V c 2 t)) (k1_pay5 (iblk1 V c 8 t)) (k1_pay7 (iblk1 V c 1 t)) (k1_pay8 (iblk1 V c 7 t)) ((cfg1.win 10).xinj (grid1.coords t) j)
    = (Cert.LV.pred (V c main_v15_1) (V c main_v29) (fun r => V c main_v12 (ix2 r 0)) (fun j => V c main_v33 (ix2 0 j)) (fun j => V c main_v34 (ix2 0 j))) (((cfg1.win 10).blk t).view.emb j)
  refine (congrArg (k1_pay1 (k1_pay2 (iblk1 V c 1 t)) (k1_pay4 (iblk1 V c 4 t) (iblk1 V c 2 t)) (k1_pay5 (iblk1 V c 8 t)) (k1_pay7 (iblk1 V c 1 t)) (k1_pay8 (iblk1 V c 7 t))) ej).trans ?_
  refine pred_blk V c t ⟨(j 0).val, hj0⟩ ⟨(j 1).val, hj1⟩ (((cfg1.win 10).blk t).view.emb j) ?_ ?_
  · show win1_10.index t (0 : Fin 2) * 2000 + 1 * (j 0).val = t.val * 2000 + (j 0).val; omega
  · show win1_10.index t (1 : Fin 2) * 96 + 1 * (j 1).val = (j 1).val; omega

/-- An index of the array is in point t's block of window 10 iff each coordinate is in the block's range. -/
theorem mem_blk10 (t : Fin cfg1.N) (i : S50000x96.Idx) :
    i ∈ ((cfg1.win 10).blk t).view.set ↔ ∀ a : Fin 2, win1_10.index t a * S2000x96.size a ≤ (i a).val
      ∧ (i a).val < win1_10.index t a * S2000x96.size a + S2000x96.size a := by
  show i ∈ ((View.whole main_v35_1).slice (win1_10.rect t)).set ↔ _
  rw [View.set_slice_whole, Rect.mem_set_unit]
  exact Iff.rfl

/-- Every index of the array is in the block of the point its row falls in (row r in block r / 2000). -/
theorem cover10 (i : S50000x96.Idx) :
    ∃ t : Fin cfg1.N, (cfg1.win 10).flush t = true ∧ i ∈ ((cfg1.win 10).blk t).view.set := by
  have hi0 : (i 0).val < 50000 := (i 0).isLt
  have hi1 : (i 1).val < 96 := (i 1).isLt
  have hN : cfg1.N = 25 := N_1
  refine ⟨⟨(i 0).val / 2000, by rw [hN]; omega⟩, flush1_10 _, ?_⟩
  rw [mem_blk10]
  obtain ⟨-, -, -, -, -, -, -, -, -, -, ⟨e0, e1⟩⟩ := idx_facts ⟨(i 0).val / 2000, by rw [hN]; omega⟩
  intro a
  match a with
  | ⟨0, _⟩ =>
    show win1_10.index _ (0 : Fin 2) * 2000 ≤ (i 0).val ∧ (i 0).val < win1_10.index _ (0 : Fin 2) * 2000 + 2000
    rw [e0]; show (i 0).val / 2000 * 2000 ≤ (i 0).val ∧ (i 0).val < (i 0).val / 2000 * 2000 + 2000; omega
  | ⟨1, _⟩ =>
    show win1_10.index _ (1 : Fin 2) * 96 ≤ (i 1).val ∧ (i 1).val < win1_10.index _ (1 : Fin 2) * 96 + 96
    rw [e1]; omega

/-- The array after the region: the predator step of the region's entry arrays. -/
theorem final10 (c : Dev nD) : ((dat1 V c).arrAt 10 cfg1.N : S50000x96.Idx → EReal)
    = Cert.LV.pred (V c main_v15_1) (V c main_v29) (fun r => V c main_v12 (ix2 r 0)) (fun j => V c main_v33 (ix2 0 j)) (fun j => V c main_v34 (ix2 0 j)) :=
  (dat1 V c).arrAt_eq_of_cover 10 _ (fun t _ => flushed10_eq V c t) (cover10)

end Cert.KernelIdeal.LvValue1

end
-- ==== Proof.LvValue2.lean ====
/-
  Region 2 of the kernel's @main: one explicit Euler step of the two species, as whole arrays.

  The region runs one elementwise body over a grid of 25 points, point t holding rows 2000 t … 2000 t + 1999 of the
  node arrays and the whole of each coefficient row. At row p and channel q of a block the body computes

    prey      X + (dt · X) · (a q − b q · (aggY · dinv p))
    predator  Y + (dt · Y) · ((0 − g q) + d q · (aggX · dinv p))

  and on the extended reals 0 − x = −x. Each block of an output is therefore the block of ONE function of the
  region's entry arrays, the specification's `prey` / `pred`; the 25 blocks cover the 50000 rows, so the output
  arrays end holding those functions.
-/
import proofs.«101018_j498216206705_2_alg».proof.Proof.Gen.KernelIdeal.Frame
import proofs.«101018_j498216206705_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LvValue2

open Cert.KernelIdeal Cert.KernelIdeal.Gen Idealize.ShloMosaic Idealize.ShloMosaic.TcCoe Idealize.SL.Sem
open Idealize.ShloMosaic.ValueIdx
open Idealize.ShloMosaic.Pipeline (Dat)

/-! ## The body at one element of a block -/

theorem hz : (![0, 0] : Fin 2 → Nat) = fun _ => 0 := funext fun a => by fin_cases a <;> rfl

/-- A row [1, 96] broadcast over 2000 rows, read at (p, q), is the row at q. -/
theorem bcast_row (x : S1x96.Idx → EReal) (h : S1x96.Broadcasts S2000x96) (p : Fin 2000) (q : Fin 96) :
    broadcastTo S2000x96 x h (ix2 p q) = x (ix2 0 q) := by
  refine broadcastTo_apply x h (ix2 p q) (ix2 0 q) fun a => ?_
  match a with
  | ⟨0, _⟩ => rfl
  | ⟨1, _⟩ => rfl

/-- A column [2000, 1] broadcast over 96 channels, read at (p, q), is the column at p. -/
theorem bcast_col (x : S2000x1.Idx → EReal) (h : S2000x1.Broadcasts S2000x96) (p : Fin 2000) (q : Fin 96) :
    broadcastTo S2000x96 x h (ix2 p q) = x (ix2 p 0) := by
  refine broadcastTo_apply x h (ix2 p q) (ix2 p 0) fun a => ?_
  match a with
  | ⟨0, _⟩ => rfl
  | ⟨1, _⟩ => rfl

/-- The prey payload at row p, channel q of a block: one Euler step of the prey there. -/
theorem prey_at (x0 x3 : Vec Ideal S2000x96 .f32) (x4 : Vec Ideal S2000x1 .f32) (x5 x6 : Vec Ideal S1x96 .f32)
    (p : Fin 2000) (q : Fin 96) :
    k2_pay6 x0 x4 x3 x5 x6 (ix2 p q)
      = x0 (ix2 p q) + (Cert.LV.dt * x0 (ix2 p q)) * (x5 (ix2 0 q) - x6 (ix2 0 q) * (x3 (ix2 p q) * x4 (ix2 p 0))) := by
  unfold k2_pay6 k2_pay3
  simp only [shapeCast_self]
  rw [addf_apply, mulf_apply, mulf_apply, subf_apply, mulf_apply, mulf_apply, bcast_row, bcast_row, bcast_col,
    broadcast_apply]
  rfl

/-- The predator payload at row p, channel q of a block: one Euler step of the predator there (0 − g is −g). -/
theorem pred_at (x1 x2 : Vec Ideal S2000x96 .f32) (x4 : Vec Ideal S2000x1 .f32) (x7 x8 : Vec Ideal S1x96 .f32)
    (p : Fin 2000) (q : Fin 96) :
    k2_pay1 (k2_pay2 x1) (k2_pay4 x4 x2) (k2_pay5 x8) (k2_pay7 x1) (k2_pay8 x7) (ix2 p q)
      = x1 (ix2 p q) + (Cert.LV.dt * x1 (ix2 p q)) * (-(x7 (ix2 0 q)) + x8 (ix2 0 q) * (x2 (ix2 p q) * x4 (ix2 p 0))) := by
  unfold k2_pay1 k2_pay2 k2_pay4 k2_pay5 k2_pay7 k2_pay8 k2_pay3 k2_pay2
  simp only [shapeCast_self]
  rw [addf_apply, mulf_apply, mulf_apply, addf_apply, mulf_apply, mulf_apply, bcast_row, bcast_row, bcast_col,
    broadcast_apply, subf_apply, broadcast_apply]
  show _ + _ * ((Ideal.ofBits .f32 0x00000000#32 - _) + _) = _
  rw [Ideal.ofBits_zero_f32, zero_sub]
  rfl

/-- The prey payload at (p, q) from the values its five operands have there. -/
theorem prey_of (x0 x3 : Vec Ideal S2000x96 .f32) (x4 : Vec Ideal S2000x1 .f32) (x5 x6 : Vec Ideal S1x96 .f32)
    (p : Fin 2000) (q : Fin 96) (X A D a b : EReal) (h0 : x0 (ix2 p q) = X) (h3 : x3 (ix2 p q) = A)
    (h4 : x4 (ix2 p 0) = D) (h5 : x5 (ix2 0 q) = a) (h6 : x6 (ix2 0 q) = b) :
    k2_pay6 x0 x4 x3 x5 x6 (ix2 p q) = X + (Cert.LV.dt * X) * (a - b * (A * D)) := by
  rw [prey_at, h0, h3, h4, h5, h6]

/-- The predator payload at (p, q) from the values its five operands have there. -/
theorem pred_of (x1 x2 : Vec Ideal S2000x96 .f32) (x4 : Vec Ideal S2000x1 .f32) (x7 x8 : Vec Ideal S1x96 .f32)
    (p : Fin 2000) (q : Fin 96) (Y A D g d : EReal) (h1 : x1 (ix2 p q) = Y) (h2 : x2 (ix2 p q) = A)
    (h4 : x4 (ix2 p 0) = D) (h7 : x7 (ix2 0 q) = g) (h8 : x8 (ix2 0 q) = d) :
    k2_pay1 (k2_pay2 x1) (k2_pay4 x4 x2) (k2_pay5 x8) (k2_pay7 x1) (k2_pay8 x7) (ix2 p q)
      = Y + (Cert.LV.dt * Y) * (-g + d * (A * D)) := by
  rw [pred_at, h1, h2, h4, h7, h8]

/-! ## The windows' blocks as rows of their arrays -/

/-- The windows' block indices at grid point t: the seven row-blocked windows are at block (t, 0), the four
    coefficient rows at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0)
    ∧ (win2_10.index t (0 : Fin 2) = t.val ∧ win2_10.index t (1 : Fin 2) = 0) :=
  (by decide +kernel : ∀ t : Fin grid2.N, _)

variable (V : (c : Dev nD) → (b : Ref sig .tc) → Buf (Elt Ideal) ((c : Thread nD τ).loc b))

/-- Window 0's block at point t, read at (p, q), is its array at row 2000 t + p, channel q. -/
theorem blk0_at (c : Dev nD) (t : Fin cfg2.N) (p : Fin 2000) (q : Fin 96) (k : S50000x96.Idx)
    (h0 : (k 0).val = t.val * 2000 + p.val) (h1 : (k 1).val = q.val) :
    (iblk2 V c 0 t : Vec Ideal S2000x96 .f32) (ix2 p q) = (V c main_v35_0 : S50000x96.Idx → EReal) k := by
  obtain ⟨⟨e0, e1⟩, -, -, -, -, -, -, -, -, -, -⟩ := idx_facts t
  show V c main_v35_0 (((cfg2.win 0).blk t).view.emb (ix2 p q)) = V c main_v35_0 k
  refine congrArg (V c main_v35_0) (funext fun a => Fin.ext ?_)
  match a with
  | ⟨0, _⟩ => show win2_0.index t (0 : Fin 2) * 2000 + 1 * p.val = (k 0).val; omega
  | ⟨1, _⟩ => show win2_0.index t (1 : Fin 2) * 96 + 1 * q.val = (k 1).val; omega

/-- Window 1's block at point t, read at (p, q), is its array at row 2000 t + p, channel q. -/
theorem blk1_at (c : Dev nD) (t : Fin cfg2.N) (p : Fin 2000) (q : Fin 96) (k : S50000x96.Idx)
    (h0 : (k 0).val = t.val * 2000 + p.val) (h1 : (k 1).val = q.val) :
    (iblk2 V c 1 t : Vec Ideal S2000x96 .f32) (ix2 p q) = (V c main_v35_1 : S50000x96.Idx → EReal) k := by
  obtain ⟨-, ⟨e0, e1⟩, -, -, -, -, -, -, -, -, -⟩ := idx_facts t
  show V c main_v35_1 (((cfg2.win 1).blk t).view.emb (ix2 p q)) = V c main_v35_1 k
  refine congrArg (V c main_v35_1) (funext fun a => Fin.ext ?_)
  match a with
  | ⟨0, _⟩ => show win2_1.index t (0 : Fin 2) * 2000 + 1 * p.val = (k 0).val; omega
  | ⟨1, _⟩ => show win2_1.index t (1 : Fin 2) * 96 + 1 * q.val = (k 1).val; omega

/-- Window 2's block at point t, read at (p, q), is its array at row 2000 t + p, channel q. -/
theorem blk2_at (c : Dev nD) (t : Fin cfg2.N) (p : Fin 2000) (q : Fin 96) (k : S50000x96.Idx)
    (h0 : (k 0).val = t.val * 2000 + p.val) (h1 : (k 1).val = q.val) :
    (iblk2 V c 2 t : Vec Ideal S2000x96 .f32) (ix2 p q) = (V c main_v47 : S50000x96.Idx → EReal) k := by
  obtain ⟨-, -, ⟨e0, e1⟩, -, -, -, -, -, -, -, -⟩ := idx_facts t
  show V c main_v47 (((cfg2.win 2).blk t).view.emb (ix2 p q)) = V c main_v47 k
  refine congrArg (V c main_v47) (funext fun a => Fin.ext ?_)
  match a with
  | ⟨0, _⟩ => show win2_2.index t (0 : Fin 2) * 2000 + 1 * p.val = (k 0).val; omega
  | ⟨1, _⟩ => show win2_2.index t (1 : Fin 2) * 96 + 1 * q.val = (k 1).val; omega

/-- Window 3's block at point t, read at (p, q), is its array at row 2000 t + p, channel q. -/
theorem blk3_at (c : Dev nD) (t : Fin cfg2.N) (p : Fin 2000) (q : Fin 96) (k : S50000x96.Idx)
    (h0 : (k 0).val = t.val * 2000 + p.val) (h1 : (k 1).val = q.val) :
    (iblk2 V c 3 t : Vec Ideal S2000x96 .f32) (ix2 p q) = (V c main_v48 : S50000x96.Idx → EReal) k := by
  obtain ⟨-, -, -, ⟨e0, e1⟩, -, -, -, -, -, -, -⟩ := idx_facts t
  show V c main_v48 (((cfg2.win 3).blk t).view.emb (ix2 p q)) = V c main_v48 k
  refine congrArg (V c main_v48) (funext fun a => Fin.ext ?_)
  match a with
  | ⟨0, _⟩ => show win2_3.index t (0 : Fin 2) * 2000 + 1 * p.val = (k 0).val; omega
  | ⟨1, _⟩ => show win2_3.index t (1 : Fin 2) * 96 + 1 * q.val = (k 1).val; omega

/-- Window 4's block (the reciprocal degrees) at point t, read at (p, 0), is its array at row 2000 t + p. -/
theorem blk4_at (c : Dev nD) (t : Fin cfg2.N) (p : Fin 2000) (k : S50000x1.Idx)
    (h0 : (k 0).val = t.val * 2000 + p.val) (h1 : (k 1).val = 0) :
    (iblk2 V c 4 t : Vec Ideal S2000x1 .f32) (ix2 p 0) = (V c main_v12 : S50000x1.Idx → EReal) k := by
  obtain ⟨-, -, -, -, ⟨e0, e1⟩, -, -, -, -, -, -⟩ := idx_facts t
  show V c main_v12 (((cfg2.win 4).blk t).view.emb (ix2 p 0)) = V c main_v12 k
  refine congrArg (V c main_v12) (funext fun a => Fin.ext ?_)
  match a with
  | ⟨0, _⟩ => show win2_4.index t (0 : Fin 2) * 2000 + 1 * p.val = (k 0).val; omega
  | ⟨1, _⟩ => show win2_4.index t (1 : Fin 2) * 1 + 1 * (0 : Fin 1).val = (k 1).val; rw [h1, e1]; rfl

/-- Window 5's block (a coefficient row) at any point is the whole row. -/
theorem blk5_at (c : Dev nD) (t : Fin cfg2.N) (q : Fin 96) (k : S1x96.Idx)
    (h0 : (k 0).val = 0) (h1 : (k 1).val = q.val) :
    (iblk2 V c 5 t : Vec Ideal S1x96 .f32) (ix2 0 q) = (V c main_v49 : S1x96.Idx → EReal) k := by
  obtain ⟨-, -, -, -, -, ⟨e0, e1⟩, -, -, -, -, -⟩ := idx_facts t
  show V c main_v49 (((cfg2.win 5).blk t).view.emb (ix2 0 q)) = V c main_v49 k
  refine congrArg (V c main_v49) (funext fun a => Fin.ext ?_)
  match a with
  | ⟨0, _⟩ => show win2_5.index t (0 : Fin 2) * 1 + 1 * (0 : Fin 1).val = (k 0).val; rw [h0, e0]; rfl
  | ⟨1, _⟩ => show win2_5.index t (1 : Fin 2) * 96 + 1 * q.val = (k 1).val; omega

/-- Window 6's block (a coefficient row) at any point is the whole row. -/
theorem blk6_at (c : Dev nD) (t : Fin cfg2.N) (q : Fin 96) (k : S1x96.Idx)
    (h0 : (k 0).val = 0) (h1 : (k 1).val = q.val) :
    (iblk2 V c 6 t : Vec Ideal S1x96 .f32) (ix2 0 q) = (V c main_v50 : S1x96.Idx → EReal) k := by
  obtain ⟨-, -, -, -, -, -, ⟨e0, e1⟩, -, -, -, -⟩ := idx_facts t
  show V c main_v50 (((cfg2.win 6).blk t).view.emb (ix2 0 q)) = V c main_v50 k
  refine congrArg (V c main_v50) (funext fun a => Fin.ext ?_)
  match a with
  | ⟨0, _⟩ => show win2_6.index t (0 : Fin 2) * 1 + 1 * (0 : Fin 1).val = (k 0).val; rw [h0, e0]; rfl
  | ⟨1, _⟩ => show win2_6.index t (1 : Fin 2) * 96 + 1 * q.val = (k 1).val; omega

/-- Window 7's block (a coefficient row) at any point is the whole row. -/
theorem blk7_at (c : Dev nD) (t : Fin cfg2.N) (q : Fin 96) (k : S1x96.Idx)
    (h0 : (k 0).val = 0) (h1 : (k 1).val = q.val) :
    (iblk2 V c 7 t : Vec Ideal S1x96 .f32) (ix2 0 q) = (V c main_v51 : S1x96.Idx → EReal) k := by
  obtain ⟨-, -, -, -, -, -, -, ⟨e0, e1⟩, -, -, -⟩ := idx_facts t
  show V c main_v51 (((cfg2.win 7).blk t).view.emb (ix2 0 q)) = V c main_v51 k
  refine congrArg (V c main_v51) (funext fun a => Fin.ext ?_)
  match a with
  | ⟨0, _⟩ => show win2_7.index t (0 : Fin 2) * 1 + 1 * (0 : Fin 1).val = (k 0).val; rw [h0, e0]; rfl
  | ⟨1, _⟩ => show win2_7.index t (1 : Fin 2) * 96 + 1 * q.val = (k 1).val; omega

/-- Window 8's block (a coefficient row) at any point is the whole row. -/
theorem blk8_at (c : Dev nD) (t : Fin cfg2.N) (q : Fin 96) (k : S1x96.Idx)
    (h0 : (k 0).val = 0) (h1 : (k 1).val = q.val) :
    (iblk2 V c 8 t : Vec Ideal S1x96 .f32) (ix2 0 q) = (V c main_v52 : S1x96.Idx → EReal) k := by
  obtain ⟨-, -, -, -, -, -, -, -, ⟨e0, e1⟩, -, -⟩ := idx_facts t
  show V c main_v52 (((cfg2.win 8).blk t).view.emb (ix2 0 q)) = V c main_v52 k
  refine congrArg (V c main_v52) (funext fun a => Fin.ext ?_)
  match a with
  | ⟨0, _⟩ => show win2_8.index t (0 : Fin 2) * 1 + 1 * (0 : Fin 1).val = (k 0).val; rw [h0, e0]; rfl
  | ⟨1, _⟩ => show win2_8.index t (1 : Fin 2) * 96 + 1 * q.val = (k 1).val; omega

/-! ## Output window 9: the prey -/

/-- The prey payload of point t's blocks at (p, q) is the specification's step of the entry arrays at the
    array index K of that element (row 2000 t + p, channel q). -/
theorem prey_blk (c : Dev nD) (t : Fin cfg2.N) (p : Fin 2000) (q : Fin 96) (K : S50000x96.Idx)
    (k0 : (K 0).val = t.val * 2000 + p.val) (k1 : (K 1).val = q.val) :
    k2_pay6 (iblk2 V c 0 t) (iblk2 V c 4 t) (iblk2 V c 3 t) (iblk2 V c 5 t) (iblk2 V c 6 t) (ix2 p q)
      = (Cert.LV.prey (V c main_v35_0) (V c main_v48) (fun r => V c main_v12 (ix2 r 0)) (fun j => V c main_v49 (ix2 0 j)) (fun j => V c main_v50 (ix2 0 j))) K :=
  prey_of (iblk2 V c 0 t) (iblk2 V c 3 t) (iblk2 V c 4 t) (iblk2 V c 5 t) (iblk2 V c 6 t) p q
    ((V c main_v35_0 : S50000x96.Idx → EReal) K) ((V c main_v48 : S50000x96.Idx → EReal) K)
    ((V c main_v12 : S50000x1.Idx → EReal) (ix2 (K 0) 0)) ((V c main_v49 : S1x96.Idx → EReal) (ix2 0 (K 1)))
    ((V c main_v50 : S1x96.Idx → EReal) (ix2 0 (K 1)))
    (blk0_at V c t p q K k0 k1) (blk3_at V c t p q K k0 k1) (blk4_at V c t p (ix2 (K 0) 0) k0 rfl)
    (blk5_at V c t q (ix2 0 (K 1)) rfl k1) (blk6_at V c t q (ix2 0 (K 1)) rfl k1)

/-- What point t writes back to window 9's array is block t of the specification's prey step of the entry arrays. -/
theorem flushed9_eq (c : Dev nD) (t : Fin cfg2.N) :
    (dat2 V c).flushed 9 t = ((cfg2.win 9).blk t).view.read (Elt Ideal)
      (Cert.LV.prey (V c main_v35_0) (V c main_v48) (fun r => V c main_v12 (ix2 r 0)) (fun j => V c main_v49 (ix2 0 j)) (fun j => V c main_v50 (ix2 0 j))) := by
  show (cfg2.win 9).cut (grid2.coords t) ((dat2 V c).after 9 t) = _
  rw [after2_9]
  unfold out2_9
  rw [View.canon_unit_zero hz]
  simp only [View.ld_unit_zero (S := S2000x96) hz, View.ld_unit_zero (S := S2000x1) hz, View.ld_unit_zero (S := S1x96) hz]
  obtain ⟨-, -, -, -, -, -, -, -, -, ⟨e0, e1⟩, -⟩ := idx_facts t
  funext j
  have hj0 : (j 0).val < 2000 := (j 0).isLt
  have hj1 : (j 1).val < 96 := (j 1).isLt
  have ej : ((cfg2.win 9).xinj (grid2.coords t) j : S2000x96.Idx)
      = ix2 (⟨(j 0).val, hj0⟩ : Fin 2000) (⟨(j 1).val, hj1⟩ : Fin 96) :=
    funext fun a => match a with | ⟨0, _⟩ => rfl | ⟨1, _⟩ => rfl
  show k2_pay6 (iblk2 V c 0 t) (iblk2 V c 4 t) (iblk2 V c 3 t) (iblk2 V c 5 t) (iblk2 V c 6 t) ((cfg2.win 9).xinj (grid2.coords t) j)
    = (Cert.LV.prey (V c main_v35_0) (V c main_v48) (fun r => V c main_v12 (ix2 r 0)) (fun j => V c main_v49 (ix2 0 j)) (fun j => V c main_v50 (ix2 0 j))) (((cfg2.win 9).blk t).view.emb j)
  refine (congrArg (k2_pay6 (iblk2 V c 0 t) (iblk2 V c 4 t) (iblk2 V c 3 t) (iblk2 V c 5 t) (iblk2 V c 6 t)) ej).trans ?_
  refine prey_blk V c t ⟨(j 0).val, hj0⟩ ⟨(j 1).val, hj1⟩ (((cfg2.win 9).blk t).view.emb j) ?_ ?_
  · show win2_9.index t (0 : Fin 2) * 2000 + 1 * (j 0).val = t.val * 2000 + (j 0).val; omega
  · show win2_9.index t (1 : Fin 2) * 96 + 1 * (j 1).val = (j 1).val; omega

/-- An index of the array is in point t's block of window 9 iff each coordinate is in the block's range. -/
theorem mem_blk9 (t : Fin cfg2.N) (i : S50000x96.Idx) :
    i ∈ ((cfg2.win 9).blk t).view.set ↔ ∀ a : Fin 2, win2_9.index t a * S2000x96.size a ≤ (i a).val
      ∧ (i a).val < win2_9.index t a * S2000x96.size a + S2000x96.size a := by
  show i ∈ ((View.whole main_v53_0).slice (win2_9.rect t)).set ↔ _
  rw [View.set_slice_whole, Rect.mem_set_unit]
  exact Iff.rfl

/-- Every index of the array is in the block of the point its row falls in (row r in block r / 2000). -/
theorem cover9 (i : S50000x96.Idx) :
    ∃ t : Fin cfg2.N, (cfg2.win 9).flush t = true ∧ i ∈ ((cfg2.win 9).blk t).view.set := by
  have hi0 : (i 0).val < 50000 := (i 0).isLt
  have hi1 : (i 1).val < 96 := (i 1).isLt
  have hN : cfg2.N = 25 := N_2
  refine ⟨⟨(i 0).val / 2000, by rw [hN]; omega⟩, flush2_9 _, ?_⟩
  rw [mem_blk9]
  obtain ⟨-, -, -, -, -, -, -, -, -, ⟨e0, e1⟩, -⟩ := idx_facts ⟨(i 0).val / 2000, by rw [hN]; omega⟩
  intro a
  match a with
  | ⟨0, _⟩ =>
    show win2_9.index _ (0 : Fin 2) * 2000 ≤ (i 0).val ∧ (i 0).val < win2_9.index _ (0 : Fin 2) * 2000 + 2000
    rw [e0]; show (i 0).val / 2000 * 2000 ≤ (i 0).val ∧ (i 0).val < (i 0).val / 2000 * 2000 + 2000; omega
  | ⟨1, _⟩ =>
    show win2_9.index _ (1 : Fin 2) * 96 ≤ (i 1).val ∧ (i 1).val < win2_9.index _ (1 : Fin 2) * 96 + 96
    rw [e1]; omega

/-- The array after the region: the prey step of the region's entry arrays. -/
theorem final9 (c : Dev nD) : ((dat2 V c).arrAt 9 cfg2.N : S50000x96.Idx → EReal)
    = Cert.LV.prey (V c main_v35_0) (V c main_v48) (fun r => V c main_v12 (ix2 r 0)) (fun j => V c main_v49 (ix2 0 j)) (fun j => V c main_v50 (ix2 0 j)) :=
  (dat2 V c).arrAt_eq_of_cover 9 _ (fun t _ => flushed9_eq V c t) (cover9)

/-! ## Output window 10: the predator -/

/-- The predator payload of point t's blocks at (p, q) is the specification's step of the entry arrays at the
    array index K of that element (row 2000 t + p, channel q). -/
theorem pred_blk (c : Dev nD) (t : Fin cfg2.N) (p : Fin 2000) (q : Fin 96) (K : S50000x96.Idx)
    (k0 : (K 0).val = t.val * 2000 + p.val) (k1 : (K 1).val = q.val) :
    k2_pay1 (k2_pay2 (iblk2 V c 1 t)) (k2_pay4 (iblk2 V c 4 t) (iblk2 V c 2 t)) (k2_pay5 (iblk2 V c 8 t)) (k2_pay7 (iblk2 V c 1 t)) (k2_pay8 (iblk2 V c 7 t)) (ix2 p q)
      = (Cert.LV.pred (V c main_v35_1) (V c main_v47) (fun r => V c main_v12 (ix2 r 0)) (fun j => V c main_v51 (ix2 0 j)) (fun j => V c main_v52 (ix2 0 j))) K :=
  pred_of (iblk2 V c 1 t) (iblk2 V c 2 t) (iblk2 V c 4 t) (iblk2 V c 7 t) (iblk2 V c 8 t) p q
    ((V c main_v35_1 : S50000x96.Idx → EReal) K) ((V c main_v47 : S50000x96.Idx → EReal) K)
    ((V c main_v12 : S50000x1.Idx → EReal) (ix2 (K 0) 0)) ((V c main_v51 : S1x96.Idx → EReal) (ix2 0 (K 1)))
    ((V c main_v52 : S1x96.Idx → EReal) (ix2 0 (K 1)))
    (blk1_at V c t p q K k0 k1) (blk2_at V c t p q K k0 k1) (blk4_at V c t p (ix2 (K 0) 0) k0 rfl)
    (blk7_at V c t q (ix2 0 (K 1)) rfl k1) (blk8_at V c t q (ix2 0 (K 1)) rfl k1)

/-- What point t writes back to window 10's array is block t of the specification's predator step of the entry arrays. -/
theorem flushed10_eq (c : Dev nD) (t : Fin cfg2.N) :
    (dat2 V c).flushed 10 t = ((cfg2.win 10).blk t).view.read (Elt Ideal)
      (Cert.LV.pred (V c main_v35_1) (V c main_v47) (fun r => V c main_v12 (ix2 r 0)) (fun j => V c main_v51 (ix2 0 j)) (fun j => V c main_v52 (ix2 0 j))) := by
  show (cfg2.win 10).cut (grid2.coords t) ((dat2 V c).after 10 t) = _
  rw [after2_10]
  unfold out2_10
  rw [View.canon_unit_zero hz]
  simp only [View.ld_unit_zero (S := S2000x96) hz, View.ld_unit_zero (S := S2000x1) hz, View.ld_unit_zero (S := S1x96) hz]
  obtain ⟨-, -, -, -, -, -, -, -, -, -, ⟨e0, e1⟩⟩ := idx_facts t
  funext j
  have hj0 : (j 0).val < 2000 := (j 0).isLt
  have hj1 : (j 1).val < 96 := (j 1).isLt
  have ej : ((cfg2.win 10).xinj (grid2.coords t) j : S2000x96.Idx)
      = ix2 (⟨(j 0).val, hj0⟩ : Fin 2000) (⟨(j 1).val, hj1⟩ : Fin 96) :=
    funext fun a => match a with | ⟨0, _⟩ => rfl | ⟨1, _⟩ => rfl
  show k2_pay1 (k2_pay2 (iblk2 V c 1 t)) (k2_pay4 (iblk2 V c 4 t) (iblk2 V c 2 t)) (k2_pay5 (iblk2 V c 8 t)) (k2_pay7 (iblk2 V c 1 t)) (k2_pay8 (iblk2 V c 7 t)) ((cfg2.win 10).xinj (grid2.coords t) j)
    = (Cert.LV.pred (V c main_v35_1) (V c main_v47) (fun r => V c main_v12 (ix2 r 0)) (fun j => V c main_v51 (ix2 0 j)) (fun j => V c main_v52 (ix2 0 j))) (((cfg2.win 10).blk t).view.emb j)
  refine (congrArg (k2_pay1 (k2_pay2 (iblk2 V c 1 t)) (k2_pay4 (iblk2 V c 4 t) (iblk2 V c 2 t)) (k2_pay5 (iblk2 V c 8 t)) (k2_pay7 (iblk2 V c 1 t)) (k2_pay8 (iblk2 V c 7 t))) ej).trans ?_
  refine pred_blk V c t ⟨(j 0).val, hj0⟩ ⟨(j 1).val, hj1⟩ (((cfg2.win 10).blk t).view.emb j) ?_ ?_
  · show win2_10.index t (0 : Fin 2) * 2000 + 1 * (j 0).val = t.val * 2000 + (j 0).val; omega
  · show win2_10.index t (1 : Fin 2) * 96 + 1 * (j 1).val = (j 1).val; omega

/-- An index of the array is in point t's block of window 10 iff each coordinate is in the block's range. -/
theorem mem_blk10 (t : Fin cfg2.N) (i : S50000x96.Idx) :
    i ∈ ((cfg2.win 10).blk t).view.set ↔ ∀ a : Fin 2, win2_10.index t a * S2000x96.size a ≤ (i a).val
      ∧ (i a).val < win2_10.index t a * S2000x96.size a + S2000x96.size a := by
  show i ∈ ((View.whole main_v53_1).slice (win2_10.rect t)).set ↔ _
  rw [View.set_slice_whole, Rect.mem_set_unit]
  exact Iff.rfl

/-- Every index of the array is in the block of the point its row falls in (row r in block r / 2000). -/
theorem cover10 (i : S50000x96.Idx) :
    ∃ t : Fin cfg2.N, (cfg2.win 10).flush t = true ∧ i ∈ ((cfg2.win 10).blk t).view.set := by
  have hi0 : (i 0).val < 50000 := (i 0).isLt
  have hi1 : (i 1).val < 96 := (i 1).isLt
  have hN : cfg2.N = 25 := N_2
  refine ⟨⟨(i 0).val / 2000, by rw [hN]; omega⟩, flush2_10 _, ?_⟩
  rw [mem_blk10]
  obtain ⟨-, -, -, -, -, -, -, -, -, -, ⟨e0, e1⟩⟩ := idx_facts ⟨(i 0).val / 2000, by rw [hN]; omega⟩
  intro a
  match a with
  | ⟨0, _⟩ =>
    show win2_10.index _ (0 : Fin 2) * 2000 ≤ (i 0).val ∧ (i 0).val < win2_10.index _ (0 : Fin 2) * 2000 + 2000
    rw [e0]; show (i 0).val / 2000 * 2000 ≤ (i 0).val ∧ (i 0).val < (i 0).val / 2000 * 2000 + 2000; omega
  | ⟨1, _⟩ =>
    show win2_10.index _ (1 : Fin 2) * 96 ≤ (i 1).val ∧ (i 1).val < win2_10.index _ (1 : Fin 2) * 96 + 96
    rw [e1]; omega

/-- The array after the region: the predator step of the region's entry arrays. -/
theorem final10 (c : Dev nD) : ((dat2 V c).arrAt 10 cfg2.N : S50000x96.Idx → EReal)
    = Cert.LV.pred (V c main_v35_1) (V c main_v47) (fun r => V c main_v12 (ix2 r 0)) (fun j => V c main_v51 (ix2 0 j)) (fun j => V c main_v52 (ix2 0 j)) :=
  (dat2 V c).arrAt_eq_of_cover 10 _ (fun t _ => flushed10_eq V c t) (cover10)

end Cert.KernelIdeal.LvValue2

end
-- ==== Proof.LvValue3.lean ====
/-
  Region 3 of the kernel's @main: one explicit Euler step of the two species, as whole arrays.

  The region runs one elementwise body over a grid of 25 points, point t holding rows 2000 t … 2000 t + 1999 of the
  node arrays and the whole of each coefficient row. At row p and channel q of a block the body computes

    prey      X + (dt · X) · (a q − b q · (aggY · dinv p))
    predator  Y + (dt · Y) · ((0 − g q) + d q · (aggX · dinv p))

  and on the extended reals 0 − x = −x. Each block of an output is therefore the block of ONE function of the
  region's entry arrays, the specification's `prey` / `pred`; the 25 blocks cover the 50000 rows, so the output
  arrays end holding those functions.
-/
import proofs.«101018_j498216206705_2_alg».proof.Proof.Gen.KernelIdeal.Frame
import proofs.«101018_j498216206705_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LvValue3

open Cert.KernelIdeal Cert.KernelIdeal.Gen Idealize.ShloMosaic Idealize.ShloMosaic.TcCoe Idealize.SL.Sem
open Idealize.ShloMosaic.ValueIdx
open Idealize.ShloMosaic.Pipeline (Dat)

/-! ## The body at one element of a block -/

theorem hz : (![0, 0] : Fin 2 → Nat) = fun _ => 0 := funext fun a => by fin_cases a <;> rfl

/-- A row [1, 96] broadcast over 2000 rows, read at (p, q), is the row at q. -/
theorem bcast_row (x : S1x96.Idx → EReal) (h : S1x96.Broadcasts S2000x96) (p : Fin 2000) (q : Fin 96) :
    broadcastTo S2000x96 x h (ix2 p q) = x (ix2 0 q) := by
  refine broadcastTo_apply x h (ix2 p q) (ix2 0 q) fun a => ?_
  match a with
  | ⟨0, _⟩ => rfl
  | ⟨1, _⟩ => rfl

/-- A column [2000, 1] broadcast over 96 channels, read at (p, q), is the column at p. -/
theorem bcast_col (x : S2000x1.Idx → EReal) (h : S2000x1.Broadcasts S2000x96) (p : Fin 2000) (q : Fin 96) :
    broadcastTo S2000x96 x h (ix2 p q) = x (ix2 p 0) := by
  refine broadcastTo_apply x h (ix2 p q) (ix2 p 0) fun a => ?_
  match a with
  | ⟨0, _⟩ => rfl
  | ⟨1, _⟩ => rfl

/-- The prey payload at row p, channel q of a block: one Euler step of the prey there. -/
theorem prey_at (x0 x3 : Vec Ideal S2000x96 .f32) (x4 : Vec Ideal S2000x1 .f32) (x5 x6 : Vec Ideal S1x96 .f32)
    (p : Fin 2000) (q : Fin 96) :
    k3_pay6 x0 x4 x3 x5 x6 (ix2 p q)
      = x0 (ix2 p q) + (Cert.LV.dt * x0 (ix2 p q)) * (x5 (ix2 0 q) - x6 (ix2 0 q) * (x3 (ix2 p q) * x4 (ix2 p 0))) := by
  unfold k3_pay6 k3_pay3
  simp only [shapeCast_self]
  rw [addf_apply, mulf_apply, mulf_apply, subf_apply, mulf_apply, mulf_apply, bcast_row, bcast_row, bcast_col,
    broadcast_apply]
  rfl

/-- The predator payload at row p, channel q of a block: one Euler step of the predator there (0 − g is −g). -/
theorem pred_at (x1 x2 : Vec Ideal S2000x96 .f32) (x4 : Vec Ideal S2000x1 .f32) (x7 x8 : Vec Ideal S1x96 .f32)
    (p : Fin 2000) (q : Fin 96) :
    k3_pay1 (k3_pay2 x1) (k3_pay4 x4 x2) (k3_pay5 x8) (k3_pay7 x1) (k3_pay8 x7) (ix2 p q)
      = x1 (ix2 p q) + (Cert.LV.dt * x1 (ix2 p q)) * (-(x7 (ix2 0 q)) + x8 (ix2 0 q) * (x2 (ix2 p q) * x4 (ix2 p 0))) := by
  unfold k3_pay1 k3_pay2 k3_pay4 k3_pay5 k3_pay7 k3_pay8 k3_pay3 k3_pay2
  simp only [shapeCast_self]
  rw [addf_apply, mulf_apply, mulf_apply, addf_apply, mulf_apply, mulf_apply, bcast_row, bcast_row, bcast_col,
    broadcast_apply, subf_apply, broadcast_apply]
  show _ + _ * ((Ideal.ofBits .f32 0x00000000#32 - _) + _) = _
  rw [Ideal.ofBits_zero_f32, zero_sub]
  rfl

/-- The prey payload at (p, q) from the values its five operands have there. -/
theorem prey_of (x0 x3 : Vec Ideal S2000x96 .f32) (x4 : Vec Ideal S2000x1 .f32) (x5 x6 : Vec Ideal S1x96 .f32)
    (p : Fin 2000) (q : Fin 96) (X A D a b : EReal) (h0 : x0 (ix2 p q) = X) (h3 : x3 (ix2 p q) = A)
    (h4 : x4 (ix2 p 0) = D) (h5 : x5 (ix2 0 q) = a) (h6 : x6 (ix2 0 q) = b) :
    k3_pay6 x0 x4 x3 x5 x6 (ix2 p q) = X + (Cert.LV.dt * X) * (a - b * (A * D)) := by
  rw [prey_at, h0, h3, h4, h5, h6]

/-- The predator payload at (p, q) from the values its five operands have there. -/
theorem pred_of (x1 x2 : Vec Ideal S2000x96 .f32) (x4 : Vec Ideal S2000x1 .f32) (x7 x8 : Vec Ideal S1x96 .f32)
    (p : Fin 2000) (q : Fin 96) (Y A D g d : EReal) (h1 : x1 (ix2 p q) = Y) (h2 : x2 (ix2 p q) = A)
    (h4 : x4 (ix2 p 0) = D) (h7 : x7 (ix2 0 q) = g) (h8 : x8 (ix2 0 q) = d) :
    k3_pay1 (k3_pay2 x1) (k3_pay4 x4 x2) (k3_pay5 x8) (k3_pay7 x1) (k3_pay8 x7) (ix2 p q)
      = Y + (Cert.LV.dt * Y) * (-g + d * (A * D)) := by
  rw [pred_at, h1, h2, h4, h7, h8]

/-! ## The windows' blocks as rows of their arrays -/

/-- The windows' block indices at grid point t: the seven row-blocked windows are at block (t, 0), the four
    coefficient rows at block (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0)
    ∧ (win3_10.index t (0 : Fin 2) = t.val ∧ win3_10.index t (1 : Fin 2) = 0) :=
  (by decide +kernel : ∀ t : Fin grid3.N, _)

variable (V : (c : Dev nD) → (b : Ref sig .tc) → Buf (Elt Ideal) ((c : Thread nD τ).loc b))

/-- Window 0's block at point t, read at (p, q), is its array at row 2000 t + p, channel q. -/
theorem blk0_at (c : Dev nD) (t : Fin cfg3.N) (p : Fin 2000) (q : Fin 96) (k : S50000x96.Idx)
    (h0 : (k 0).val = t.val * 2000 + p.val) (h1 : (k 1).val = q.val) :
    (iblk3 V c 0 t : Vec Ideal S2000x96 .f32) (ix2 p q) = (V c main_v53_0 : S50000x96.Idx → EReal) k := by
  obtain ⟨⟨e0, e1⟩, -, -, -, -, -, -, -, -, -, -⟩ := idx_facts t
  show V c main_v53_0 (((cfg3.win 0).blk t).view.emb (ix2 p q)) = V c main_v53_0 k
  refine congrArg (V c main_v53_0) (funext fun a => Fin.ext ?_)
  match a with
  | ⟨0, _⟩ => show win3_0.index t (0 : Fin 2) * 2000 + 1 * p.val = (k 0).val; omega
  | ⟨1, _⟩ => show win3_0.index t (1 : Fin 2) * 96 + 1 * q.val = (k 1).val; omega

/-- Window 1's block at point t, read at (p, q), is its array at row 2000 t + p, channel q. -/
theorem blk1_at (c : Dev nD) (t : Fin cfg3.N) (p : Fin 2000) (q : Fin 96) (k : S50000x96.Idx)
    (h0 : (k 0).val = t.val * 2000 + p.val) (h1 : (k 1).val = q.val) :
    (iblk3 V c 1 t : Vec Ideal S2000x96 .f32) (ix2 p q) = (V c main_v53_1 : S50000x96.Idx → EReal) k := by
  obtain ⟨-, ⟨e0, e1⟩, -, -, -, -, -, -, -, -, -⟩ := idx_facts t
  show V c main_v53_1 (((cfg3.win 1).blk t).view.emb (ix2 p q)) = V c main_v53_1 k
  refine congrArg (V c main_v53_1) (funext fun a => Fin.ext ?_)
  match a with
  | ⟨0, _⟩ => show win3_1.index t (0 : Fin 2) * 2000 + 1 * p.val = (k 0).val; omega
  | ⟨1, _⟩ => show win3_1.index t (1 : Fin 2) * 96 + 1 * q.val = (k 1).val; omega

/-- Window 2's block at point t, read at (p, q), is its array at row 2000 t + p, channel q. -/
theorem blk2_at (c : Dev nD) (t : Fin cfg3.N) (p : Fin 2000) (q : Fin 96) (k : S50000x96.Idx)
    (h0 : (k 0).val = t.val * 2000 + p.val) (h1 : (k 1).val = q.val) :
    (iblk3 V c 2 t : Vec Ideal S2000x96 .f32) (ix2 p q) = (V c main_v65 : S50000x96.Idx → EReal) k := by
  obtain ⟨-, -, ⟨e0, e1⟩, -, -, -, -, -, -, -, -⟩ := idx_facts t
  show V c main_v65 (((cfg3.win 2).blk t).view.emb (ix2 p q)) = V c main_v65 k
  refine congrArg (V c main_v65) (funext fun a => Fin.ext ?_)
  match a with
  | ⟨0, _⟩ => show win3_2.index t (0 : Fin 2) * 2000 + 1 * p.val = (k 0).val; omega
  | ⟨1, _⟩ => show win3_2.index t (1 : Fin 2) * 96 + 1 * q.val = (k 1).val; omega

/-- Window 3's block at point t, read at (p, q), is its array at row 2000 t + p, channel q. -/
theorem blk3_at (c : Dev nD) (t : Fin cfg3.N) (p : Fin 2000) (q : Fin 96) (k : S50000x96.Idx)
    (h0 : (k 0).val = t.val * 2000 + p.val) (h1 : (k 1).val = q.val) :
    (iblk3 V c 3 t : Vec Ideal S2000x96 .f32) (ix2 p q) = (V c main_v66 : S50000x96.Idx → EReal) k := by
  obtain ⟨-, -, -, ⟨e0, e1⟩, -, -, -, -, -, -, -⟩ := idx_facts t
  show V c main_v66 (((cfg3.win 3).blk t).view.emb (ix2 p q)) = V c main_v66 k
  refine congrArg (V c main_v66) (funext fun a => Fin.ext ?_)
  match a with
  | ⟨0, _⟩ => show win3_3.index t (0 : Fin 2) * 2000 + 1 * p.val = (k 0).val; omega
  | ⟨1, _⟩ => show win3_3.index t (1 : Fin 2) * 96 + 1 * q.val = (k 1).val; omega

/-- Window 4's block (the reciprocal degrees) at point t, read at (p, 0), is its array at row 2000 t + p. -/
theorem blk4_at (c : Dev nD) (t : Fin cfg3.N) (p : Fin 2000) (k : S50000x1.Idx)
    (h0 : (k 0).val = t.val * 2000 + p.val) (h1 : (k 1).val = 0) :
    (iblk3 V c 4 t : Vec Ideal S2000x1 .f32) (ix2 p 0) = (V c main_v12 : S50000x1.Idx → EReal) k := by
  obtain ⟨-, -, -, -, ⟨e0, e1⟩, -, -, -, -, -, -⟩ := idx_facts t
  show V c main_v12 (((cfg3.win 4).blk t).view.emb (ix2 p 0)) = V c main_v12 k
  refine congrArg (V c main_v12) (funext fun a => Fin.ext ?_)
  match a with
  | ⟨0, _⟩ => show win3_4.index t (0 : Fin 2) * 2000 + 1 * p.val = (k 0).val; omega
  | ⟨1, _⟩ => show win3_4.index t (1 : Fin 2) * 1 + 1 * (0 : Fin 1).val = (k 1).val; rw [h1, e1]; rfl

/-- Window 5's block (a coefficient row) at any point is the whole row. -/
theorem blk5_at (c : Dev nD) (t : Fin cfg3.N) (q : Fin 96) (k : S1x96.Idx)
    (h0 : (k 0).val = 0) (h1 : (k 1).val = q.val) :
    (iblk3 V c 5 t : Vec Ideal S1x96 .f32) (ix2 0 q) = (V c main_v67 : S1x96.Idx → EReal) k := by
  obtain ⟨-, -, -, -, -, ⟨e0, e1⟩, -, -, -, -, -⟩ := idx_facts t
  show V c main_v67 (((cfg3.win 5).blk t).view.emb (ix2 0 q)) = V c main_v67 k
  refine congrArg (V c main_v67) (funext fun a => Fin.ext ?_)
  match a with
  | ⟨0, _⟩ => show win3_5.index t (0 : Fin 2) * 1 + 1 * (0 : Fin 1).val = (k 0).val; rw [h0, e0]; rfl
  | ⟨1, _⟩ => show win3_5.index t (1 : Fin 2) * 96 + 1 * q.val = (k 1).val; omega

/-- Window 6's block (a coefficient row) at any point is the whole row. -/
theorem blk6_at (c : Dev nD) (t : Fin cfg3.N) (q : Fin 96) (k : S1x96.Idx)
    (h0 : (k 0).val = 0) (h1 : (k 1).val = q.val) :
    (iblk3 V c 6 t : Vec Ideal S1x96 .f32) (ix2 0 q) = (V c main_v68 : S1x96.Idx → EReal) k := by
  obtain ⟨-, -, -, -, -, -, ⟨e0, e1⟩, -, -, -, -⟩ := idx_facts t
  show V c main_v68 (((cfg3.win 6).blk t).view.emb (ix2 0 q)) = V c main_v68 k
  refine congrArg (V c main_v68) (funext fun a => Fin.ext ?_)
  match a with
  | ⟨0, _⟩ => show win3_6.index t (0 : Fin 2) * 1 + 1 * (0 : Fin 1).val = (k 0).val; rw [h0, e0]; rfl
  | ⟨1, _⟩ => show win3_6.index t (1 : Fin 2) * 96 + 1 * q.val = (k 1).val; omega

/-- Window 7's block (a coefficient row) at any point is the whole row. -/
theorem blk7_at (c : Dev nD) (t : Fin cfg3.N) (q : Fin 96) (k : S1x96.Idx)
    (h0 : (k 0).val = 0) (h1 : (k 1).val = q.val) :
    (iblk3 V c 7 t : Vec Ideal S1x96 .f32) (ix2 0 q) = (V c main_v69 : S1x96.Idx → EReal) k := by
  obtain ⟨-, -, -, -, -, -, -, ⟨e0, e1⟩, -, -, -⟩ := idx_facts t
  show V c main_v69 (((cfg3.win 7).blk t).view.emb (ix2 0 q)) = V c main_v69 k
  refine congrArg (V c main_v69) (funext fun a => Fin.ext ?_)
  match a with
  | ⟨0, _⟩ => show win3_7.index t (0 : Fin 2) * 1 + 1 * (0 : Fin 1).val = (k 0).val; rw [h0, e0]; rfl
  | ⟨1, _⟩ => show win3_7.index t (1 : Fin 2) * 96 + 1 * q.val = (k 1).val; omega

/-- Window 8's block (a coefficient row) at any point is the whole row. -/
theorem blk8_at (c : Dev nD) (t : Fin cfg3.N) (q : Fin 96) (k : S1x96.Idx)
    (h0 : (k 0).val = 0) (h1 : (k 1).val = q.val) :
    (iblk3 V c 8 t : Vec Ideal S1x96 .f32) (ix2 0 q) = (V c main_v70 : S1x96.Idx → EReal) k := by
  obtain ⟨-, -, -, -, -, -, -, -, ⟨e0, e1⟩, -, -⟩ := idx_facts t
  show V c main_v70 (((cfg3.win 8).blk t).view.emb (ix2 0 q)) = V c main_v70 k
  refine congrArg (V c main_v70) (funext fun a => Fin.ext ?_)
  match a with
  | ⟨0, _⟩ => show win3_8.index t (0 : Fin 2) * 1 + 1 * (0 : Fin 1).val = (k 0).val; rw [h0, e0]; rfl
  | ⟨1, _⟩ => show win3_8.index t (1 : Fin 2) * 96 + 1 * q.val = (k 1).val; omega

/-! ## Output window 9: the prey -/

/-- The prey payload of point t's blocks at (p, q) is the specification's step of the entry arrays at the
    array index K of that element (row 2000 t + p, channel q). -/
theorem prey_blk (c : Dev nD) (t : Fin cfg3.N) (p : Fin 2000) (q : Fin 96) (K : S50000x96.Idx)
    (k0 : (K 0).val = t.val * 2000 + p.val) (k1 : (K 1).val = q.val) :
    k3_pay6 (iblk3 V c 0 t) (iblk3 V c 4 t) (iblk3 V c 3 t) (iblk3 V c 5 t) (iblk3 V c 6 t) (ix2 p q)
      = (Cert.LV.prey (V c main_v53_0) (V c main_v66) (fun r => V c main_v12 (ix2 r 0)) (fun j => V c main_v67 (ix2 0 j)) (fun j => V c main_v68 (ix2 0 j))) K :=
  prey_of (iblk3 V c 0 t) (iblk3 V c 3 t) (iblk3 V c 4 t) (iblk3 V c 5 t) (iblk3 V c 6 t) p q
    ((V c main_v53_0 : S50000x96.Idx → EReal) K) ((V c main_v66 : S50000x96.Idx → EReal) K)
    ((V c main_v12 : S50000x1.Idx → EReal) (ix2 (K 0) 0)) ((V c main_v67 : S1x96.Idx → EReal) (ix2 0 (K 1)))
    ((V c main_v68 : S1x96.Idx → EReal) (ix2 0 (K 1)))
    (blk0_at V c t p q K k0 k1) (blk3_at V c t p q K k0 k1) (blk4_at V c t p (ix2 (K 0) 0) k0 rfl)
    (blk5_at V c t q (ix2 0 (K 1)) rfl k1) (blk6_at V c t q (ix2 0 (K 1)) rfl k1)

/-- What point t writes back to window 9's array is block t of the specification's prey step of the entry arrays. -/
theorem flushed9_eq (c : Dev nD) (t : Fin cfg3.N) :
    (dat3 V c).flushed 9 t = ((cfg3.win 9).blk t).view.read (Elt Ideal)
      (Cert.LV.prey (V c main_v53_0) (V c main_v66) (fun r => V c main_v12 (ix2 r 0)) (fun j => V c main_v67 (ix2 0 j)) (fun j => V c main_v68 (ix2 0 j))) := by
  show (cfg3.win 9).cut (grid3.coords t) ((dat3 V c).after 9 t) = _
  rw [after3_9]
  unfold out3_9
  rw [View.canon_unit_zero hz]
  simp only [View.ld_unit_zero (S := S2000x96) hz, View.ld_unit_zero (S := S2000x1) hz, View.ld_unit_zero (S := S1x96) hz]
  obtain ⟨-, -, -, -, -, -, -, -, -, ⟨e0, e1⟩, -⟩ := idx_facts t
  funext j
  have hj0 : (j 0).val < 2000 := (j 0).isLt
  have hj1 : (j 1).val < 96 := (j 1).isLt
  have ej : ((cfg3.win 9).xinj (grid3.coords t) j : S2000x96.Idx)
      = ix2 (⟨(j 0).val, hj0⟩ : Fin 2000) (⟨(j 1).val, hj1⟩ : Fin 96) :=
    funext fun a => match a with | ⟨0, _⟩ => rfl | ⟨1, _⟩ => rfl
  show k3_pay6 (iblk3 V c 0 t) (iblk3 V c 4 t) (iblk3 V c 3 t) (iblk3 V c 5 t) (iblk3 V c 6 t) ((cfg3.win 9).xinj (grid3.coords t) j)
    = (Cert.LV.prey (V c main_v53_0) (V c main_v66) (fun r => V c main_v12 (ix2 r 0)) (fun j => V c main_v67 (ix2 0 j)) (fun j => V c main_v68 (ix2 0 j))) (((cfg3.win 9).blk t).view.emb j)
  refine (congrArg (k3_pay6 (iblk3 V c 0 t) (iblk3 V c 4 t) (iblk3 V c 3 t) (iblk3 V c 5 t) (iblk3 V c 6 t)) ej).trans ?_
  refine prey_blk V c t ⟨(j 0).val, hj0⟩ ⟨(j 1).val, hj1⟩ (((cfg3.win 9).blk t).view.emb j) ?_ ?_
  · show win3_9.index t (0 : Fin 2) * 2000 + 1 * (j 0).val = t.val * 2000 + (j 0).val; omega
  · show win3_9.index t (1 : Fin 2) * 96 + 1 * (j 1).val = (j 1).val; omega

/-- An index of the array is in point t's block of window 9 iff each coordinate is in the block's range. -/
theorem mem_blk9 (t : Fin cfg3.N) (i : S50000x96.Idx) :
    i ∈ ((cfg3.win 9).blk t).view.set ↔ ∀ a : Fin 2, win3_9.index t a * S2000x96.size a ≤ (i a).val
      ∧ (i a).val < win3_9.index t a * S2000x96.size a + S2000x96.size a := by
  show i ∈ ((View.whole main_v71_0).slice (win3_9.rect t)).set ↔ _
  rw [View.set_slice_whole, Rect.mem_set_unit]
  exact Iff.rfl

/-- Every index of the array is in the block of the point its row falls in (row r in block r / 2000). -/
theorem cover9 (i : S50000x96.Idx) :
    ∃ t : Fin cfg3.N, (cfg3.win 9).flush t = true ∧ i ∈ ((cfg3.win 9).blk t).view.set := by
  have hi0 : (i 0).val < 50000 := (i 0).isLt
  have hi1 : (i 1).val < 96 := (i 1).isLt
  have hN : cfg3.N = 25 := N_3
  refine ⟨⟨(i 0).val / 2000, by rw [hN]; omega⟩, flush3_9 _, ?_⟩
  rw [mem_blk9]
  obtain ⟨-, -, -, -, -, -, -, -, -, ⟨e0, e1⟩, -⟩ := idx_facts ⟨(i 0).val / 2000, by rw [hN]; omega⟩
  intro a
  match a with
  | ⟨0, _⟩ =>
    show win3_9.index _ (0 : Fin 2) * 2000 ≤ (i 0).val ∧ (i 0).val < win3_9.index _ (0 : Fin 2) * 2000 + 2000
    rw [e0]; show (i 0).val / 2000 * 2000 ≤ (i 0).val ∧ (i 0).val < (i 0).val / 2000 * 2000 + 2000; omega
  | ⟨1, _⟩ =>
    show win3_9.index _ (1 : Fin 2) * 96 ≤ (i 1).val ∧ (i 1).val < win3_9.index _ (1 : Fin 2) * 96 + 96
    rw [e1]; omega

/-- The array after the region: the prey step of the region's entry arrays. -/
theorem final9 (c : Dev nD) : ((dat3 V c).arrAt 9 cfg3.N : S50000x96.Idx → EReal)
    = Cert.LV.prey (V c main_v53_0) (V c main_v66) (fun r => V c main_v12 (ix2 r 0)) (fun j => V c main_v67 (ix2 0 j)) (fun j => V c main_v68 (ix2 0 j)) :=
  (dat3 V c).arrAt_eq_of_cover 9 _ (fun t _ => flushed9_eq V c t) (cover9)

/-! ## Output window 10: the predator -/

/-- The predator payload of point t's blocks at (p, q) is the specification's step of the entry arrays at the
    array index K of that element (row 2000 t + p, channel q). -/
theorem pred_blk (c : Dev nD) (t : Fin cfg3.N) (p : Fin 2000) (q : Fin 96) (K : S50000x96.Idx)
    (k0 : (K 0).val = t.val * 2000 + p.val) (k1 : (K 1).val = q.val) :
    k3_pay1 (k3_pay2 (iblk3 V c 1 t)) (k3_pay4 (iblk3 V c 4 t) (iblk3 V c 2 t)) (k3_pay5 (iblk3 V c 8 t)) (k3_pay7 (iblk3 V c 1 t)) (k3_pay8 (iblk3 V c 7 t)) (ix2 p q)
      = (Cert.LV.pred (V c main_v53_1) (V c main_v65) (fun r => V c main_v12 (ix2 r 0)) (fun j => V c main_v69 (ix2 0 j)) (fun j => V c main_v70 (ix2 0 j))) K :=
  pred_of (iblk3 V c 1 t) (iblk3 V c 2 t) (iblk3 V c 4 t) (iblk3 V c 7 t) (iblk3 V c 8 t) p q
    ((V c main_v53_1 : S50000x96.Idx → EReal) K) ((V c main_v65 : S50000x96.Idx → EReal) K)
    ((V c main_v12 : S50000x1.Idx → EReal) (ix2 (K 0) 0)) ((V c main_v69 : S1x96.Idx → EReal) (ix2 0 (K 1)))
    ((V c main_v70 : S1x96.Idx → EReal) (ix2 0 (K 1)))
    (blk1_at V c t p q K k0 k1) (blk2_at V c t p q K k0 k1) (blk4_at V c t p (ix2 (K 0) 0) k0 rfl)
    (blk7_at V c t q (ix2 0 (K 1)) rfl k1) (blk8_at V c t q (ix2 0 (K 1)) rfl k1)

/-- What point t writes back to window 10's array is block t of the specification's predator step of the entry arrays. -/
theorem flushed10_eq (c : Dev nD) (t : Fin cfg3.N) :
    (dat3 V c).flushed 10 t = ((cfg3.win 10).blk t).view.read (Elt Ideal)
      (Cert.LV.pred (V c main_v53_1) (V c main_v65) (fun r => V c main_v12 (ix2 r 0)) (fun j => V c main_v69 (ix2 0 j)) (fun j => V c main_v70 (ix2 0 j))) := by
  show (cfg3.win 10).cut (grid3.coords t) ((dat3 V c).after 10 t) = _
  rw [after3_10]
  unfold out3_10
  rw [View.canon_unit_zero hz]
  simp only [View.ld_unit_zero (S := S2000x96) hz, View.ld_unit_zero (S := S2000x1) hz, View.ld_unit_zero (S := S1x96) hz]
  obtain ⟨-, -, -, -, -, -, -, -, -, -, ⟨e0, e1⟩⟩ := idx_facts t
  funext j
  have hj0 : (j 0).val < 2000 := (j 0).isLt
  have hj1 : (j 1).val < 96 := (j 1).isLt
  have ej : ((cfg3.win 10).xinj (grid3.coords t) j : S2000x96.Idx)
      = ix2 (⟨(j 0).val, hj0⟩ : Fin 2000) (⟨(j 1).val, hj1⟩ : Fin 96) :=
    funext fun a => match a with | ⟨0, _⟩ => rfl | ⟨1, _⟩ => rfl
  show k3_pay1 (k3_pay2 (iblk3 V c 1 t)) (k3_pay4 (iblk3 V c 4 t) (iblk3 V c 2 t)) (k3_pay5 (iblk3 V c 8 t)) (k3_pay7 (iblk3 V c 1 t)) (k3_pay8 (iblk3 V c 7 t)) ((cfg3.win 10).xinj (grid3.coords t) j)
    = (Cert.LV.pred (V c main_v53_1) (V c main_v65) (fun r => V c main_v12 (ix2 r 0)) (fun j => V c main_v69 (ix2 0 j)) (fun j => V c main_v70 (ix2 0 j))) (((cfg3.win 10).blk t).view.emb j)
  refine (congrArg (k3_pay1 (k3_pay2 (iblk3 V c 1 t)) (k3_pay4 (iblk3 V c 4 t) (iblk3 V c 2 t)) (k3_pay5 (iblk3 V c 8 t)) (k3_pay7 (iblk3 V c 1 t)) (k3_pay8 (iblk3 V c 7 t))) ej).trans ?_
  refine pred_blk V c t ⟨(j 0).val, hj0⟩ ⟨(j 1).val, hj1⟩ (((cfg3.win 10).blk t).view.emb j) ?_ ?_
  · show win3_10.index t (0 : Fin 2) * 2000 + 1 * (j 0).val = t.val * 2000 + (j 0).val; omega
  · show win3_10.index t (1 : Fin 2) * 96 + 1 * (j 1).val = (j 1).val; omega

/-- An index of the array is in point t's block of window 10 iff each coordinate is in the block's range. -/
theorem mem_blk10 (t : Fin cfg3.N) (i : S50000x96.Idx) :
    i ∈ ((cfg3.win 10).blk t).view.set ↔ ∀ a : Fin 2, win3_10.index t a * S2000x96.size a ≤ (i a).val
      ∧ (i a).val < win3_10.index t a * S2000x96.size a + S2000x96.size a := by
  show i ∈ ((View.whole main_v71_1).slice (win3_10.rect t)).set ↔ _
  rw [View.set_slice_whole, Rect.mem_set_unit]
  exact Iff.rfl

/-- Every index of the array is in the block of the point its row falls in (row r in block r / 2000). -/
theorem cover10 (i : S50000x96.Idx) :
    ∃ t : Fin cfg3.N, (cfg3.win 10).flush t = true ∧ i ∈ ((cfg3.win 10).blk t).view.set := by
  have hi0 : (i 0).val < 50000 := (i 0).isLt
  have hi1 : (i 1).val < 96 := (i 1).isLt
  have hN : cfg3.N = 25 := N_3
  refine ⟨⟨(i 0).val / 2000, by rw [hN]; omega⟩, flush3_10 _, ?_⟩
  rw [mem_blk10]
  obtain ⟨-, -, -, -, -, -, -, -, -, -, ⟨e0, e1⟩⟩ := idx_facts ⟨(i 0).val / 2000, by rw [hN]; omega⟩
  intro a
  match a with
  | ⟨0, _⟩ =>
    show win3_10.index _ (0 : Fin 2) * 2000 ≤ (i 0).val ∧ (i 0).val < win3_10.index _ (0 : Fin 2) * 2000 + 2000
    rw [e0]; show (i 0).val / 2000 * 2000 ≤ (i 0).val ∧ (i 0).val < (i 0).val / 2000 * 2000 + 2000; omega
  | ⟨1, _⟩ =>
    show win3_10.index _ (1 : Fin 2) * 96 ≤ (i 1).val ∧ (i 1).val < win3_10.index _ (1 : Fin 2) * 96 + 96
    rw [e1]; omega

/-- The array after the region: the predator step of the region's entry arrays. -/
theorem final10 (c : Dev nD) : ((dat3 V c).arrAt 10 cfg3.N : S50000x96.Idx → EReal)
    = Cert.LV.pred (V c main_v53_1) (V c main_v65) (fun r => V c main_v12 (ix2 r 0)) (fun j => V c main_v69 (ix2 0 j)) (fun j => V c main_v70 (ix2 0 j)) :=
  (dat3 V c).arrAt_eq_of_cover 10 _ (fun t _ => flushed10_eq V c t) (cover10)

end Cert.KernelIdeal.LvValue3

end
-- ==== Proof.LvValue4.lean ====
/-
  Region 4 of the kernel's @main: one explicit Euler step of the two species, as whole arrays.

  The region runs one elementwise body over a grid of 25 points, point t holding rows 2000 t … 2000 t + 1999 of the
  node arrays and the whole of each coefficient row. At row p and channel q of a block the body computes

    prey      X + (dt · X) · (a q − b q · (aggY · dinv p))
    predator  Y + (dt · Y) · ((0 − g q) + d q · (aggX · dinv p))

  and on the extended reals 0 − x = −x. Each block of an output is therefore the block of ONE function of the
  region's entry arrays, the specification's `prey` / `pred`; the 25 blocks cover the 50000 rows, so the output
  arrays end holding those functions.
-/
import proofs.«101018_j498216206705_2_alg».proof.Proof.Gen.KernelIdeal.Frame
import proofs.«101018_j498216206705_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LvValue4

open Cert.KernelIdeal Cert.KernelIdeal.Gen Idealize.ShloMosaic Idealize.ShloMosaic.TcCoe Idealize.SL.Sem
open Idealize.ShloMosaic.ValueIdx
open Idealize.ShloMosaic.Pipeline (Dat)

/-! ## The body at one element of a block -/

theorem hz : (![0, 0] : Fin 2 → Nat) = fun _ => 0 := funext fun a => by fin_cases a <;> rfl

/-- A row [1, 96] broadcast over 2000 rows, read at (p, q), is the row at q. -/
theorem bcast_row (x : S1x96.Idx → EReal) (h : S1x96.Broadcasts S2000x96) (p : Fin 2000) (q : Fin 96) :
    broadcastTo S2000x96 x h (ix2 p q) = x (ix2 0 q) := by
  refine broadcastTo_apply x h (ix2 p q) (ix2 0 q) fun a => ?_
  match a with
  | ⟨0, _⟩ => rfl
  | ⟨1, _⟩ => rfl

/-- A column [2000, 1] broadcast over 96 channels, read at (p, q), is the column at p. -/
theorem bcast_col (x : S2000x1.Idx → EReal) (h : S2000x1.Broadcasts S2000x96) (p : Fin 2000) (q : Fin 96) :
    broadcastTo S2000x96 x h (ix2 p q) = x (ix2 p 0) := by
  refine broadcastTo_apply x h (ix2 p q) (ix2 p 0) fun a => ?_
  match a with
  | ⟨0, _⟩ => rfl
  | ⟨1, _⟩ => rfl

/-- The prey payload at row p, channel q of a block: one Euler step of the prey there. -/
theorem prey_at (x0 x3 : Vec Ideal S2000x96 .f32) (x4 : Vec Ideal S2000x1 .f32) (x5 x6 : Vec Ideal S1x96 .f32)
    (p : Fin 2000) (q : Fin 96) :
    k4_pay6 x0 x4 x3 x5 x6 (ix2 p q)
      = x0 (ix2 p q) + (Cert.LV.dt * x0 (ix2 p q)) * (x5 (ix2 0 q) - x6 (ix2 0 q) * (x3 (ix2 p q) * x4 (ix2 p 0))) := by
  unfold k4_pay6 k4_pay3
  simp only [shapeCast_self]
  rw [addf_apply, mulf_apply, mulf_apply, subf_apply, mulf_apply, mulf_apply, bcast_row, bcast_row, bcast_col,
    broadcast_apply]
  rfl

/-- The predator payload at row p, channel q of a block: one Euler step of the predator there (0 − g is −g). -/
theorem pred_at (x1 x2 : Vec Ideal S2000x96 .f32) (x4 : Vec Ideal S2000x1 .f32) (x7 x8 : Vec Ideal S1x96 .f32)
    (p : Fin 2000) (q : Fin 96) :
    k4_pay1 (k4_pay2 x1) (k4_pay4 x4 x2) (k4_pay5 x8) (k4_pay7 x1) (k4_pay8 x7) (ix2 p q)
      = x1 (ix2 p q) + (Cert.LV.dt * x1 (ix2 p q)) * (-(x7 (ix2 0 q)) + x8 (ix2 0 q) * (x2 (ix2 p q) * x4 (ix2 p 0))) := by
  unfold k4_pay1 k4_pay2 k4_pay4 k4_pay5 k4_pay7 k4_pay8 k4_pay3 k4_pay2
  simp only [shapeCast_self]
  rw [addf_apply, mulf_apply, mulf_apply, addf_apply, mulf_apply, mulf_apply, bcast_row, bcast_row, bcast_col,
    broadcast_apply, subf_apply, broadcast_apply]
  show _ + _ * ((Ideal.ofBits .f32 0x00000000#32 - _) + _) = _
  rw [Ideal.ofBits_zero_f32, zero_sub]
  rfl

/-- The prey payload at (p, q) from the values its five operands have there. -/
theorem prey_of (x0 x3 : Vec Ideal S2000x96 .f32) (x4 : Vec Ideal S2000x1 .f32) (x5 x6 : Vec Ideal S1x96 .f32)
    (p : Fin 2000) (q : Fin 96) (X A D a b : EReal) (h0 : x0 (ix2 p q) = X) (h3 : x3 (ix2 p q) = A)
    (h4 : x4 (ix2 p 0) = D) (h5 : x5 (ix2 0 q) = a) (h6 : x6 (ix2 0 q) = b) :
    k4_pay6 x0 x4 x3 x5 x6 (ix2 p q) = X + (Cert.LV.dt * X) * (a - b * (A * D)) := by
  rw [prey_at, h0, h3, h4, h5, h6]

/-- The predator payload at (p, q) from the values its five operands have there. -/
theorem pred_of (x1 x2 : Vec Ideal S2000x96 .f32) (x4 : Vec Ideal S2000x1 .f32) (x7 x8 : Vec Ideal S1x96 .f32)
    (p : Fin 2000) (q : Fin 96) (Y A D g d : EReal) (h1 : x1 (ix2 p q) = Y) (h2 : x2 (ix2 p q) = A)
    (h4 : x4 (ix2 p 0) = D) (h7 : x7 (ix2 0 q) = g) (h8 : x8 (ix2 0 q) = d) :
    k4_pay1 (k4_pay2 x1) (k4_pay4 x4 x2) (k4_pay5 x8) (k4_pay7 x1) (k4_pay8 x7) (ix2 p q)
      = Y + (Cert.LV.dt * Y) * (-g + d * (A * D)) := by
  rw [pred_at, h1, h2, h4, h7, h8]

/-! ## The windows' blocks as rows of their arrays -/

/-- The windows' block indices at grid point t: the seven row-blocked windows are at block (t, 0), the four
    coefficient rows at block (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0)
    ∧ (win4_10.index t (0 : Fin 2) = t.val ∧ win4_10.index t (1 : Fin 2) = 0) :=
  (by decide +kernel : ∀ t : Fin grid4.N, _)

variable (V : (c : Dev nD) → (b : Ref sig .tc) → Buf (Elt Ideal) ((c : Thread nD τ).loc b))

/-- Window 0's block at point t, read at (p, q), is its array at row 2000 t + p, channel q. -/
theorem blk0_at (c : Dev nD) (t : Fin cfg4.N) (p : Fin 2000) (q : Fin 96) (k : S50000x96.Idx)
    (h0 : (k 0).val = t.val * 2000 + p.val) (h1 : (k 1).val = q.val) :
    (iblk4 V c 0 t : Vec Ideal S2000x96 .f32) (ix2 p q) = (V c main_v71_0 : S50000x96.Idx → EReal) k := by
  obtain ⟨⟨e0, e1⟩, -, -, -, -, -, -, -, -, -, -⟩ := idx_facts t
  show V c main_v71_0 (((cfg4.win 0).blk t).view.emb (ix2 p q)) = V c main_v71_0 k
  refine congrArg (V c main_v71_0) (funext fun a => Fin.ext ?_)
  match a with
  | ⟨0, _⟩ => show win4_0.index t (0 : Fin 2) * 2000 + 1 * p.val = (k 0).val; omega
  | ⟨1, _⟩ => show win4_0.index t (1 : Fin 2) * 96 + 1 * q.val = (k 1).val; omega

/-- Window 1's block at point t, read at (p, q), is its array at row 2000 t + p, channel q. -/
theorem blk1_at (c : Dev nD) (t : Fin cfg4.N) (p : Fin 2000) (q : Fin 96) (k : S50000x96.Idx)
    (h0 : (k 0).val = t.val * 2000 + p.val) (h1 : (k 1).val = q.val) :
    (iblk4 V c 1 t : Vec Ideal S2000x96 .f32) (ix2 p q) = (V c main_v71_1 : S50000x96.Idx → EReal) k := by
  obtain ⟨-, ⟨e0, e1⟩, -, -, -, -, -, -, -, -, -⟩ := idx_facts t
  show V c main_v71_1 (((cfg4.win 1).blk t).view.emb (ix2 p q)) = V c main_v71_1 k
  refine congrArg (V c main_v71_1) (funext fun a => Fin.ext ?_)
  match a with
  | ⟨0, _⟩ => show win4_1.index t (0 : Fin 2) * 2000 + 1 * p.val = (k 0).val; omega
  | ⟨1, _⟩ => show win4_1.index t (1 : Fin 2) * 96 + 1 * q.val = (k 1).val; omega

/-- Window 2's block at point t, read at (p, q), is its array at row 2000 t + p, channel q. -/
theorem blk2_at (c : Dev nD) (t : Fin cfg4.N) (p : Fin 2000) (q : Fin 96) (k : S50000x96.Idx)
    (h0 : (k 0).val = t.val * 2000 + p.val) (h1 : (k 1).val = q.val) :
    (iblk4 V c 2 t : Vec Ideal S2000x96 .f32) (ix2 p q) = (V c main_v83 : S50000x96.Idx → EReal) k := by
  obtain ⟨-, -, ⟨e0, e1⟩, -, -, -, -, -, -, -, -⟩ := idx_facts t
  show V c main_v83 (((cfg4.win 2).blk t).view.emb (ix2 p q)) = V c main_v83 k
  refine congrArg (V c main_v83) (funext fun a => Fin.ext ?_)
  match a with
  | ⟨0, _⟩ => show win4_2.index t (0 : Fin 2) * 2000 + 1 * p.val = (k 0).val; omega
  | ⟨1, _⟩ => show win4_2.index t (1 : Fin 2) * 96 + 1 * q.val = (k 1).val; omega

/-- Window 3's block at point t, read at (p, q), is its array at row 2000 t + p, channel q. -/
theorem blk3_at (c : Dev nD) (t : Fin cfg4.N) (p : Fin 2000) (q : Fin 96) (k : S50000x96.Idx)
    (h0 : (k 0).val = t.val * 2000 + p.val) (h1 : (k 1).val = q.val) :
    (iblk4 V c 3 t : Vec Ideal S2000x96 .f32) (ix2 p q) = (V c main_v84 : S50000x96.Idx → EReal) k := by
  obtain ⟨-, -, -, ⟨e0, e1⟩, -, -, -, -, -, -, -⟩ := idx_facts t
  show V c main_v84 (((cfg4.win 3).blk t).view.emb (ix2 p q)) = V c main_v84 k
  refine congrArg (V c main_v84) (funext fun a => Fin.ext ?_)
  match a with
  | ⟨0, _⟩ => show win4_3.index t (0 : Fin 2) * 2000 + 1 * p.val = (k 0).val; omega
  | ⟨1, _⟩ => show win4_3.index t (1 : Fin 2) * 96 + 1 * q.val = (k 1).val; omega

/-- Window 4's block (the reciprocal degrees) at point t, read at (p, 0), is its array at row 2000 t + p. -/
theorem blk4_at (c : Dev nD) (t : Fin cfg4.N) (p : Fin 2000) (k : S50000x1.Idx)
    (h0 : (k 0).val = t.val * 2000 + p.val) (h1 : (k 1).val = 0) :
    (iblk4 V c 4 t : Vec Ideal S2000x1 .f32) (ix2 p 0) = (V c main_v12 : S50000x1.Idx → EReal) k := by
  obtain ⟨-, -, -, -, ⟨e0, e1⟩, -, -, -, -, -, -⟩ := idx_facts t
  show V c main_v12 (((cfg4.win 4).blk t).view.emb (ix2 p 0)) = V c main_v12 k
  refine congrArg (V c main_v12) (funext fun a => Fin.ext ?_)
  match a with
  | ⟨0, _⟩ => show win4_4.index t (0 : Fin 2) * 2000 + 1 * p.val = (k 0).val; omega
  | ⟨1, _⟩ => show win4_4.index t (1 : Fin 2) * 1 + 1 * (0 : Fin 1).val = (k 1).val; rw [h1, e1]; rfl

/-- Window 5's block (a coefficient row) at any point is the whole row. -/
theorem blk5_at (c : Dev nD) (t : Fin cfg4.N) (q : Fin 96) (k : S1x96.Idx)
    (h0 : (k 0).val = 0) (h1 : (k 1).val = q.val) :
    (iblk4 V c 5 t : Vec Ideal S1x96 .f32) (ix2 0 q) = (V c main_v85 : S1x96.Idx → EReal) k := by
  obtain ⟨-, -, -, -, -, ⟨e0, e1⟩, -, -, -, -, -⟩ := idx_facts t
  show V c main_v85 (((cfg4.win 5).blk t).view.emb (ix2 0 q)) = V c main_v85 k
  refine congrArg (V c main_v85) (funext fun a => Fin.ext ?_)
  match a with
  | ⟨0, _⟩ => show win4_5.index t (0 : Fin 2) * 1 + 1 * (0 : Fin 1).val = (k 0).val; rw [h0, e0]; rfl
  | ⟨1, _⟩ => show win4_5.index t (1 : Fin 2) * 96 + 1 * q.val = (k 1).val; omega

/-- Window 6's block (a coefficient row) at any point is the whole row. -/
theorem blk6_at (c : Dev nD) (t : Fin cfg4.N) (q : Fin 96) (k : S1x96.Idx)
    (h0 : (k 0).val = 0) (h1 : (k 1).val = q.val) :
    (iblk4 V c 6 t : Vec Ideal S1x96 .f32) (ix2 0 q) = (V c main_v86 : S1x96.Idx → EReal) k := by
  obtain ⟨-, -, -, -, -, -, ⟨e0, e1⟩, -, -, -, -⟩ := idx_facts t
  show V c main_v86 (((cfg4.win 6).blk t).view.emb (ix2 0 q)) = V c main_v86 k
  refine congrArg (V c main_v86) (funext fun a => Fin.ext ?_)
  match a with
  | ⟨0, _⟩ => show win4_6.index t (0 : Fin 2) * 1 + 1 * (0 : Fin 1).val = (k 0).val; rw [h0, e0]; rfl
  | ⟨1, _⟩ => show win4_6.index t (1 : Fin 2) * 96 + 1 * q.val = (k 1).val; omega

/-- Window 7's block (a coefficient row) at any point is the whole row. -/
theorem blk7_at (c : Dev nD) (t : Fin cfg4.N) (q : Fin 96) (k : S1x96.Idx)
    (h0 : (k 0).val = 0) (h1 : (k 1).val = q.val) :
    (iblk4 V c 7 t : Vec Ideal S1x96 .f32) (ix2 0 q) = (V c main_v87 : S1x96.Idx → EReal) k := by
  obtain ⟨-, -, -, -, -, -, -, ⟨e0, e1⟩, -, -, -⟩ := idx_facts t
  show V c main_v87 (((cfg4.win 7).blk t).view.emb (ix2 0 q)) = V c main_v87 k
  refine congrArg (V c main_v87) (funext fun a => Fin.ext ?_)
  match a with
  | ⟨0, _⟩ => show win4_7.index t (0 : Fin 2) * 1 + 1 * (0 : Fin 1).val = (k 0).val; rw [h0, e0]; rfl
  | ⟨1, _⟩ => show win4_7.index t (1 : Fin 2) * 96 + 1 * q.val = (k 1).val; omega

/-- Window 8's block (a coefficient row) at any point is the whole row. -/
theorem blk8_at (c : Dev nD) (t : Fin cfg4.N) (q : Fin 96) (k : S1x96.Idx)
    (h0 : (k 0).val = 0) (h1 : (k 1).val = q.val) :
    (iblk4 V c 8 t : Vec Ideal S1x96 .f32) (ix2 0 q) = (V c main_v88 : S1x96.Idx → EReal) k := by
  obtain ⟨-, -, -, -, -, -, -, -, ⟨e0, e1⟩, -, -⟩ := idx_facts t
  show V c main_v88 (((cfg4.win 8).blk t).view.emb (ix2 0 q)) = V c main_v88 k
  refine congrArg (V c main_v88) (funext fun a => Fin.ext ?_)
  match a with
  | ⟨0, _⟩ => show win4_8.index t (0 : Fin 2) * 1 + 1 * (0 : Fin 1).val = (k 0).val; rw [h0, e0]; rfl
  | ⟨1, _⟩ => show win4_8.index t (1 : Fin 2) * 96 + 1 * q.val = (k 1).val; omega

/-! ## Output window 9: the prey -/

/-- The prey payload of point t's blocks at (p, q) is the specification's step of the entry arrays at the
    array index K of that element (row 2000 t + p, channel q). -/
theorem prey_blk (c : Dev nD) (t : Fin cfg4.N) (p : Fin 2000) (q : Fin 96) (K : S50000x96.Idx)
    (k0 : (K 0).val = t.val * 2000 + p.val) (k1 : (K 1).val = q.val) :
    k4_pay6 (iblk4 V c 0 t) (iblk4 V c 4 t) (iblk4 V c 3 t) (iblk4 V c 5 t) (iblk4 V c 6 t) (ix2 p q)
      = (Cert.LV.prey (V c main_v71_0) (V c main_v84) (fun r => V c main_v12 (ix2 r 0)) (fun j => V c main_v85 (ix2 0 j)) (fun j => V c main_v86 (ix2 0 j))) K :=
  prey_of (iblk4 V c 0 t) (iblk4 V c 3 t) (iblk4 V c 4 t) (iblk4 V c 5 t) (iblk4 V c 6 t) p q
    ((V c main_v71_0 : S50000x96.Idx → EReal) K) ((V c main_v84 : S50000x96.Idx → EReal) K)
    ((V c main_v12 : S50000x1.Idx → EReal) (ix2 (K 0) 0)) ((V c main_v85 : S1x96.Idx → EReal) (ix2 0 (K 1)))
    ((V c main_v86 : S1x96.Idx → EReal) (ix2 0 (K 1)))
    (blk0_at V c t p q K k0 k1) (blk3_at V c t p q K k0 k1) (blk4_at V c t p (ix2 (K 0) 0) k0 rfl)
    (blk5_at V c t q (ix2 0 (K 1)) rfl k1) (blk6_at V c t q (ix2 0 (K 1)) rfl k1)

/-- What point t writes back to window 9's array is block t of the specification's prey step of the entry arrays. -/
theorem flushed9_eq (c : Dev nD) (t : Fin cfg4.N) :
    (dat4 V c).flushed 9 t = ((cfg4.win 9).blk t).view.read (Elt Ideal)
      (Cert.LV.prey (V c main_v71_0) (V c main_v84) (fun r => V c main_v12 (ix2 r 0)) (fun j => V c main_v85 (ix2 0 j)) (fun j => V c main_v86 (ix2 0 j))) := by
  show (cfg4.win 9).cut (grid4.coords t) ((dat4 V c).after 9 t) = _
  rw [after4_9]
  unfold out4_9
  rw [View.canon_unit_zero hz]
  simp only [View.ld_unit_zero (S := S2000x96) hz, View.ld_unit_zero (S := S2000x1) hz, View.ld_unit_zero (S := S1x96) hz]
  obtain ⟨-, -, -, -, -, -, -, -, -, ⟨e0, e1⟩, -⟩ := idx_facts t
  funext j
  have hj0 : (j 0).val < 2000 := (j 0).isLt
  have hj1 : (j 1).val < 96 := (j 1).isLt
  have ej : ((cfg4.win 9).xinj (grid4.coords t) j : S2000x96.Idx)
      = ix2 (⟨(j 0).val, hj0⟩ : Fin 2000) (⟨(j 1).val, hj1⟩ : Fin 96) :=
    funext fun a => match a with | ⟨0, _⟩ => rfl | ⟨1, _⟩ => rfl
  show k4_pay6 (iblk4 V c 0 t) (iblk4 V c 4 t) (iblk4 V c 3 t) (iblk4 V c 5 t) (iblk4 V c 6 t) ((cfg4.win 9).xinj (grid4.coords t) j)
    = (Cert.LV.prey (V c main_v71_0) (V c main_v84) (fun r => V c main_v12 (ix2 r 0)) (fun j => V c main_v85 (ix2 0 j)) (fun j => V c main_v86 (ix2 0 j))) (((cfg4.win 9).blk t).view.emb j)
  refine (congrArg (k4_pay6 (iblk4 V c 0 t) (iblk4 V c 4 t) (iblk4 V c 3 t) (iblk4 V c 5 t) (iblk4 V c 6 t)) ej).trans ?_
  refine prey_blk V c t ⟨(j 0).val, hj0⟩ ⟨(j 1).val, hj1⟩ (((cfg4.win 9).blk t).view.emb j) ?_ ?_
  · show win4_9.index t (0 : Fin 2) * 2000 + 1 * (j 0).val = t.val * 2000 + (j 0).val; omega
  · show win4_9.index t (1 : Fin 2) * 96 + 1 * (j 1).val = (j 1).val; omega

/-- An index of the array is in point t's block of window 9 iff each coordinate is in the block's range. -/
theorem mem_blk9 (t : Fin cfg4.N) (i : S50000x96.Idx) :
    i ∈ ((cfg4.win 9).blk t).view.set ↔ ∀ a : Fin 2, win4_9.index t a * S2000x96.size a ≤ (i a).val
      ∧ (i a).val < win4_9.index t a * S2000x96.size a + S2000x96.size a := by
  show i ∈ ((View.whole main_v89_0).slice (win4_9.rect t)).set ↔ _
  rw [View.set_slice_whole, Rect.mem_set_unit]
  exact Iff.rfl

/-- Every index of the array is in the block of the point its row falls in (row r in block r / 2000). -/
theorem cover9 (i : S50000x96.Idx) :
    ∃ t : Fin cfg4.N, (cfg4.win 9).flush t = true ∧ i ∈ ((cfg4.win 9).blk t).view.set := by
  have hi0 : (i 0).val < 50000 := (i 0).isLt
  have hi1 : (i 1).val < 96 := (i 1).isLt
  have hN : cfg4.N = 25 := N_4
  refine ⟨⟨(i 0).val / 2000, by rw [hN]; omega⟩, flush4_9 _, ?_⟩
  rw [mem_blk9]
  obtain ⟨-, -, -, -, -, -, -, -, -, ⟨e0, e1⟩, -⟩ := idx_facts ⟨(i 0).val / 2000, by rw [hN]; omega⟩
  intro a
  match a with
  | ⟨0, _⟩ =>
    show win4_9.index _ (0 : Fin 2) * 2000 ≤ (i 0).val ∧ (i 0).val < win4_9.index _ (0 : Fin 2) * 2000 + 2000
    rw [e0]; show (i 0).val / 2000 * 2000 ≤ (i 0).val ∧ (i 0).val < (i 0).val / 2000 * 2000 + 2000; omega
  | ⟨1, _⟩ =>
    show win4_9.index _ (1 : Fin 2) * 96 ≤ (i 1).val ∧ (i 1).val < win4_9.index _ (1 : Fin 2) * 96 + 96
    rw [e1]; omega

/-- The array after the region: the prey step of the region's entry arrays. -/
theorem final9 (c : Dev nD) : ((dat4 V c).arrAt 9 cfg4.N : S50000x96.Idx → EReal)
    = Cert.LV.prey (V c main_v71_0) (V c main_v84) (fun r => V c main_v12 (ix2 r 0)) (fun j => V c main_v85 (ix2 0 j)) (fun j => V c main_v86 (ix2 0 j)) :=
  (dat4 V c).arrAt_eq_of_cover 9 _ (fun t _ => flushed9_eq V c t) (cover9)

/-! ## Output window 10: the predator -/

/-- The predator payload of point t's blocks at (p, q) is the specification's step of the entry arrays at the
    array index K of that element (row 2000 t + p, channel q). -/
theorem pred_blk (c : Dev nD) (t : Fin cfg4.N) (p : Fin 2000) (q : Fin 96) (K : S50000x96.Idx)
    (k0 : (K 0).val = t.val * 2000 + p.val) (k1 : (K 1).val = q.val) :
    k4_pay1 (k4_pay2 (iblk4 V c 1 t)) (k4_pay4 (iblk4 V c 4 t) (iblk4 V c 2 t)) (k4_pay5 (iblk4 V c 8 t)) (k4_pay7 (iblk4 V c 1 t)) (k4_pay8 (iblk4 V c 7 t)) (ix2 p q)
      = (Cert.LV.pred (V c main_v71_1) (V c main_v83) (fun r => V c main_v12 (ix2 r 0)) (fun j => V c main_v87 (ix2 0 j)) (fun j => V c main_v88 (ix2 0 j))) K :=
  pred_of (iblk4 V c 1 t) (iblk4 V c 2 t) (iblk4 V c 4 t) (iblk4 V c 7 t) (iblk4 V c 8 t) p q
    ((V c main_v71_1 : S50000x96.Idx → EReal) K) ((V c main_v83 : S50000x96.Idx → EReal) K)
    ((V c main_v12 : S50000x1.Idx → EReal) (ix2 (K 0) 0)) ((V c main_v87 : S1x96.Idx → EReal) (ix2 0 (K 1)))
    ((V c main_v88 : S1x96.Idx → EReal) (ix2 0 (K 1)))
    (blk1_at V c t p q K k0 k1) (blk2_at V c t p q K k0 k1) (blk4_at V c t p (ix2 (K 0) 0) k0 rfl)
    (blk7_at V c t q (ix2 0 (K 1)) rfl k1) (blk8_at V c t q (ix2 0 (K 1)) rfl k1)

/-- What point t writes back to window 10's array is block t of the specification's predator step of the entry arrays. -/
theorem flushed10_eq (c : Dev nD) (t : Fin cfg4.N) :
    (dat4 V c).flushed 10 t = ((cfg4.win 10).blk t).view.read (Elt Ideal)
      (Cert.LV.pred (V c main_v71_1) (V c main_v83) (fun r => V c main_v12 (ix2 r 0)) (fun j => V c main_v87 (ix2 0 j)) (fun j => V c main_v88 (ix2 0 j))) := by
  show (cfg4.win 10).cut (grid4.coords t) ((dat4 V c).after 10 t) = _
  rw [after4_10]
  unfold out4_10
  rw [View.canon_unit_zero hz]
  simp only [View.ld_unit_zero (S := S2000x96) hz, View.ld_unit_zero (S := S2000x1) hz, View.ld_unit_zero (S := S1x96) hz]
  obtain ⟨-, -, -, -, -, -, -, -, -, -, ⟨e0, e1⟩⟩ := idx_facts t
  funext j
  have hj0 : (j 0).val < 2000 := (j 0).isLt
  have hj1 : (j 1).val < 96 := (j 1).isLt
  have ej : ((cfg4.win 10).xinj (grid4.coords t) j : S2000x96.Idx)
      = ix2 (⟨(j 0).val, hj0⟩ : Fin 2000) (⟨(j 1).val, hj1⟩ : Fin 96) :=
    funext fun a => match a with | ⟨0, _⟩ => rfl | ⟨1, _⟩ => rfl
  show k4_pay1 (k4_pay2 (iblk4 V c 1 t)) (k4_pay4 (iblk4 V c 4 t) (iblk4 V c 2 t)) (k4_pay5 (iblk4 V c 8 t)) (k4_pay7 (iblk4 V c 1 t)) (k4_pay8 (iblk4 V c 7 t)) ((cfg4.win 10).xinj (grid4.coords t) j)
    = (Cert.LV.pred (V c main_v71_1) (V c main_v83) (fun r => V c main_v12 (ix2 r 0)) (fun j => V c main_v87 (ix2 0 j)) (fun j => V c main_v88 (ix2 0 j))) (((cfg4.win 10).blk t).view.emb j)
  refine (congrArg (k4_pay1 (k4_pay2 (iblk4 V c 1 t)) (k4_pay4 (iblk4 V c 4 t) (iblk4 V c 2 t)) (k4_pay5 (iblk4 V c 8 t)) (k4_pay7 (iblk4 V c 1 t)) (k4_pay8 (iblk4 V c 7 t))) ej).trans ?_
  refine pred_blk V c t ⟨(j 0).val, hj0⟩ ⟨(j 1).val, hj1⟩ (((cfg4.win 10).blk t).view.emb j) ?_ ?_
  · show win4_10.index t (0 : Fin 2) * 2000 + 1 * (j 0).val = t.val * 2000 + (j 0).val; omega
  · show win4_10.index t (1 : Fin 2) * 96 + 1 * (j 1).val = (j 1).val; omega

/-- An index of the array is in point t's block of window 10 iff each coordinate is in the block's range. -/
theorem mem_blk10 (t : Fin cfg4.N) (i : S50000x96.Idx) :
    i ∈ ((cfg4.win 10).blk t).view.set ↔ ∀ a : Fin 2, win4_10.index t a * S2000x96.size a ≤ (i a).val
      ∧ (i a).val < win4_10.index t a * S2000x96.size a + S2000x96.size a := by
  show i ∈ ((View.whole main_v89_1).slice (win4_10.rect t)).set ↔ _
  rw [View.set_slice_whole, Rect.mem_set_unit]
  exact Iff.rfl

/-- Every index of the array is in the block of the point its row falls in (row r in block r / 2000). -/
theorem cover10 (i : S50000x96.Idx) :
    ∃ t : Fin cfg4.N, (cfg4.win 10).flush t = true ∧ i ∈ ((cfg4.win 10).blk t).view.set := by
  have hi0 : (i 0).val < 50000 := (i 0).isLt
  have hi1 : (i 1).val < 96 := (i 1).isLt
  have hN : cfg4.N = 25 := N_4
  refine ⟨⟨(i 0).val / 2000, by rw [hN]; omega⟩, flush4_10 _, ?_⟩
  rw [mem_blk10]
  obtain ⟨-, -, -, -, -, -, -, -, -, -, ⟨e0, e1⟩⟩ := idx_facts ⟨(i 0).val / 2000, by rw [hN]; omega⟩
  intro a
  match a with
  | ⟨0, _⟩ =>
    show win4_10.index _ (0 : Fin 2) * 2000 ≤ (i 0).val ∧ (i 0).val < win4_10.index _ (0 : Fin 2) * 2000 + 2000
    rw [e0]; show (i 0).val / 2000 * 2000 ≤ (i 0).val ∧ (i 0).val < (i 0).val / 2000 * 2000 + 2000; omega
  | ⟨1, _⟩ =>
    show win4_10.index _ (1 : Fin 2) * 96 ≤ (i 1).val ∧ (i 1).val < win4_10.index _ (1 : Fin 2) * 96 + 96
    rw [e1]; omega

/-- The array after the region: the predator step of the region's entry arrays. -/
theorem final10 (c : Dev nD) : ((dat4 V c).arrAt 10 cfg4.N : S50000x96.Idx → EReal)
    = Cert.LV.pred (V c main_v71_1) (V c main_v83) (fun r => V c main_v12 (ix2 r 0)) (fun j => V c main_v87 (ix2 0 j)) (fun j => V c main_v88 (ix2 0 j)) :=
  (dat4 V c).arrAt_eq_of_cover 10 _ (fun t _ => flushed10_eq V c t) (cover10)

end Cert.KernelIdeal.LvValue4

end
-- ==== Proof.ReadoutValue.lean ====
/-
  The last region of the idealized kernel, read as one function of the arrays it finds.

  The region runs a 25-point grid over blocks of 2000 rows of the 50000 nodes. At a point the body takes one explicit
  Euler step of the prey and predator blocks,

    X' = X + (dt · X) · (a − b · (aggY · dinv))        Y' = Y + (dt · Y) · ((0 − g) + d · (aggX · dinv)),

  with the reciprocal degrees broadcast along the channels and the coefficient rows along the nodes, and stores the
  readout X'·Wx + Y'·Wy + bias, the two products taken by the matrix unit into zero accumulators; the casts to the
  narrower float format around the products are the identity on the extended reals, and 0 − g is −g there.

  This module reads that off the generated frame of the region: each payload of the body at an index of its block
  (`prey_apply`, `dtPred_apply`, `growth_apply`, `readout_apply`, together `body_apply`); each input block as the rows of
  its array that the point's block index names (`blk0_apply` … `blk11_apply`, from the index maps decided over the grid,
  `idx_facts`); hence what a point writes back is its block of the specification's `Cert.LV.readout` of one
  `Cert.LV.prey` / `Cert.LV.pred` step (`flushed_eq`); the 25 blocks cover the output array, row `r` by point
  `r / 2000` (`cover`); so the array after the run is that function (`final12`).
-/
import proofs.«101018_j498216206705_2_alg».proof.Proof.Gen.KernelIdeal.Frame
import proofs.«101018_j498216206705_2_alg».proof.Proof.Spec
import proofs.«101018_j498216206705_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ReadoutValue

open Cert.KernelIdeal Cert.KernelIdeal.Gen Idealize.ShloMosaic Idealize.ShloMosaic.ValueIdx

/-! ## Layout operations at an index -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payloads at an index -/

/-- The prey species after one Euler step, at row `p` and channel `k` of the block. -/
theorem prey_apply (x0 : Vec Ideal S2000x96 .f32) (x4 : Vec Ideal S2000x1 .f32) (x3 : Vec Ideal S2000x96 .f32)
    (x5 x6 : Vec Ideal S1x96 .f32) (p : Fin 2000) (k : Fin 96) :
    k5_pay4 x0 x4 x3 x5 x6 (ix2 p k)
      = x0 (ix2 p k) + (Cert.LV.dt * x0 (ix2 p k))
          * (x5 (ix2 (0 : Fin 1) k) - x6 (ix2 (0 : Fin 1) k) * (x3 (ix2 p k) * x4 (ix2 p (0 : Fin 1)))) := by
  unfold k5_pay4 k5_pay3
  simp only [shapeCast_self]
  rw [addf_apply, mulf_apply, mulf_apply, subf_apply, mulf_apply, mulf_apply, broadcast_apply,
    broadcastTo_1b_ab_apply, broadcastTo_1b_ab_apply, broadcastTo_a1_ab_apply]
  rfl

/-- The predator block passes through unchanged (a shape cast to the same shape). -/
theorem pass_apply (x1 : Vec Ideal S2000x96 .f32) : k5_pay2 x1 = x1 := by
  unfold k5_pay2
  exact shapeCast_self _ _

/-- The step size times the predator species, at an index. -/
theorem dtPred_apply (x1 : Vec Ideal S2000x96 .f32) (p : Fin 2000) (k : Fin 96) :
    k5_pay5 x1 (ix2 p k) = Cert.LV.dt * x1 (ix2 p k) := by
  unfold k5_pay5
  rw [pass_apply]
  rfl

/-- The predator's growth factor at an index: the body's `0 − g` is `−g` on the extended reals. -/
theorem growth_apply (x4 : Vec Ideal S2000x1 .f32) (x2 : Vec Ideal S2000x96 .f32) (x7 x8 : Vec Ideal S1x96 .f32)
    (p : Fin 2000) (k : Fin 96) :
    k5_pay6 x4 x2 x7 x8 (ix2 p k)
      = -(x7 (ix2 (0 : Fin 1) k)) + x8 (ix2 (0 : Fin 1) k) * (x2 (ix2 p k) * x4 (ix2 p (0 : Fin 1))) := by
  unfold k5_pay6 k5_pay3
  simp only [shapeCast_self]
  rw [addf_apply, mulf_apply, mulf_apply, broadcastTo_1b_ab_apply, broadcastTo_1b_ab_apply, broadcastTo_a1_ab_apply,
    subf_apply, broadcast_apply]
  show (Ideal.ofBits .f32 0x00000000#32 - x7 (ix2 (0 : Fin 1) k)) + _ = _
  rw [Ideal.ofBits_zero_f32, zero_sub]

/-- The readout of a block at row `p` and class `q`: the two species' products with their halves of the weights, each
    a sum over the 96 channels of row `p`, added, plus the bias; the predator species enters after its Euler step. -/
theorem readout_apply (v3 v29 v31 v37 : FVec Ideal S2000x96 .f32) (v42 v45 : Vec Ideal S96x40 .f32)
    (v51 : Vec Ideal S1x40 .f32) (p : Fin 2000) (q : Fin 40) :
    k5_pay1 v3 v29 v31 v37 v42 v45 v51 (ix2 p q)
      = ((∑ k : Fin 96, v29 (ix2 p k) * v42 (ix2 k q))
          + ∑ k : Fin 96, (v3 (ix2 p k) + v31 (ix2 p k) * v37 (ix2 p k)) * v45 (ix2 k q)) + v51 (ix2 (0 : Fin 1) q) := by
  unfold k5_pay1
  simp only [shapeCast_self]
  rw [addf_apply, addf_apply, broadcastTo_1b_ab_apply]
  refine congrArg₂ (· + ·) (congrArg₂ (· + ·) ?_ ?_) rfl
  · exact Cert.PlainDot.matmul_zero_apply 2000 96 40 none _ _ (ix2 p q)
  · exact Cert.PlainDot.matmul_zero_apply 2000 96 40 none _ _ (ix2 p q)

/-! ## The specification at an index, and the whole body at an index -/

/-- The specification's readout of one Euler step, at row `r` and class `q`, over arrays with their unit axes kept. -/
theorem spec_apply (X Y aggX aggY : Cert.LV.Arr 50000 96) (dinv : Cert.LV.Arr 50000 1) (a b g d : Cert.LV.Arr 1 96)
    (Wx Wy : Cert.LV.Arr 96 40) (bias : Cert.LV.Arr 1 40) (r : Fin 50000) (q : Fin 40) :
    Cert.LV.readout
        (Cert.LV.prey X aggY (fun r => dinv (ix2 r 0)) (fun j => a (ix2 0 j)) (fun j => b (ix2 0 j)))
        (Cert.LV.pred Y aggX (fun r => dinv (ix2 r 0)) (fun j => g (ix2 0 j)) (fun j => d (ix2 0 j)))
        (fun k j => Wx (ix2 k j)) (fun k j => Wy (ix2 k j)) (fun j => bias (ix2 0 j)) (ix2 r q)
      = ((∑ k : Fin 96, (X (ix2 r k) + (Cert.LV.dt * X (ix2 r k))
              * (a (ix2 (0 : Fin 1) k) - b (ix2 (0 : Fin 1) k) * (aggY (ix2 r k) * dinv (ix2 r (0 : Fin 1))))) * Wx (ix2 k q))
          + ∑ k : Fin 96, (Y (ix2 r k) + (Cert.LV.dt * Y (ix2 r k))
              * (-(g (ix2 (0 : Fin 1) k)) + d (ix2 (0 : Fin 1) k) * (aggX (ix2 r k) * dinv (ix2 r (0 : Fin 1))))) * Wy (ix2 k q))
        + bias (ix2 (0 : Fin 1) q) := rfl

/-- The body's stored value at row `p` and class `q` of a block, from the twelve input blocks. -/
theorem body_apply (x0 x1 x2 x3 : Vec Ideal S2000x96 .f32) (x4 : Vec Ideal S2000x1 .f32) (x5 x6 x7 x8 : Vec Ideal S1x96 .f32)
    (x9 x10 : Vec Ideal S96x40 .f32) (x11 : Vec Ideal S1x40 .f32) (p : Fin 2000) (q : Fin 40) :
    k5_pay1 (k5_pay2 x1) (k5_pay4 x0 x4 x3 x5 x6) (k5_pay5 x1) (k5_pay6 x4 x2 x7 x8) x9 x10 x11 (ix2 p q)
      = ((∑ k : Fin 96, (x0 (ix2 p k) + (Cert.LV.dt * x0 (ix2 p k))
              * (x5 (ix2 (0 : Fin 1) k) - x6 (ix2 (0 : Fin 1) k) * (x3 (ix2 p k) * x4 (ix2 p (0 : Fin 1))))) * x9 (ix2 k q))
          + ∑ k : Fin 96, (x1 (ix2 p k) + (Cert.LV.dt * x1 (ix2 p k))
              * (-(x7 (ix2 (0 : Fin 1) k)) + x8 (ix2 (0 : Fin 1) k) * (x2 (ix2 p k) * x4 (ix2 p (0 : Fin 1))))) * x10 (ix2 k q))
        + x11 (ix2 (0 : Fin 1) q) := by
  rw [readout_apply]
  simp only [prey_apply, pass_apply, dtPred_apply, growth_apply]

open Idealize.ShloMosaic.TcCoe Idealize.SL.Sem
open Idealize.ShloMosaic.Pipeline (Dat)

variable (V : (c : Dev nD) → (b : Ref sig .tc) → Buf (Elt Ideal) ((c : Thread nD τ).loc b))

/-! ## The blocks of the grid -/

/-- The printed index maps over the 25 grid points: the five row-blocked inputs and the output are at row block `t`, the
    coefficient rows, the weights and the bias at their one block. -/
theorem idx_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = t.val ∧ win5_3.index t (1 : Fin 2) = 0)
    ∧ (win5_4.index t (0 : Fin 2) = t.val ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = 0 ∧ win5_9.index t (1 : Fin 2) = 0)
    ∧ (win5_10.index t (0 : Fin 2) = 0 ∧ win5_10.index t (1 : Fin 2) = 0)
    ∧ (win5_11.index t (0 : Fin 2) = 0 ∧ win5_11.index t (1 : Fin 2) = 0)
    ∧ (win5_12.index t (0 : Fin 2) = t.val ∧ win5_12.index t (1 : Fin 2) = 0) :=
  (by decide +kernel : ∀ t : Fin grid5.N, _)

/-- The prey block at point `t` is rows `2000 t … 2000 t + 1999` of its array. -/
theorem blk0_apply (c : Dev nD) (t : Fin cfg5.N) (p : Fin 2000) (r : Fin 50000) (hr : r.val = 2000 * t.val + p.val) (k : Fin 96) :
    (iblk5 V c 0 t : Vec Ideal S2000x96 .f32) (ix2 p k) = (V c main_v89_0 : Cert.LV.Arr 50000 96) (ix2 r k) := by
  obtain ⟨⟨e0, e1⟩, -⟩ := idx_facts t
  unfold iblk5
  rw [View.read_apply]
  show V c main_v89_0 _ = V c main_v89_0 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 96 + 1 * k.val = k.val; rw [e1]; omega

/-- The predator block at point `t` is rows `2000 t … 2000 t + 1999` of its array. -/
theorem blk1_apply (c : Dev nD) (t : Fin cfg5.N) (p : Fin 2000) (r : Fin 50000) (hr : r.val = 2000 * t.val + p.val) (k : Fin 96) :
    (iblk5 V c 1 t : Vec Ideal S2000x96 .f32) (ix2 p k) = (V c main_v89_1 : Cert.LV.Arr 50000 96) (ix2 r k) := by
  obtain ⟨-, ⟨e0, e1⟩, -⟩ := idx_facts t
  unfold iblk5
  rw [View.read_apply]
  show V c main_v89_1 _ = V c main_v89_1 _
  congr 1
  funext a
  apply Fin.ext
  match a with
  | ⟨0, _⟩ => show win5_1.index t (0 : Fin 2) * 2000 + 1 * p.val = r.val; rw [e0, hr]; omega
  | ⟨1, _⟩ => show win5_1.index t (1 : Fin 2) * 96 + 1 * k.val = k.val; rw [e1]; omega

/-- The block of the prey's neighbour sums at point `t` is rows `2000 t … 2000 t + 1999` of its array. -/
theorem blk2_apply (c : Dev nD) (t : Fin cfg5.N) (p : Fin 2000) (r : Fin 50000) (hr : r.val = 2000 * t.val + p.val) (k : Fin 96) :
    (iblk5 V c 2 t : Vec Ideal S2000x96 .f32) (ix2 p k) = (V c main_v101 : Cert.LV.Arr 50000 96) (ix2 r k) := by
  obtain ⟨-, -, ⟨e0, e1⟩, -⟩ := idx_facts t
  unfold iblk5
  rw [View.read_apply]
  show V c main_v101 _ = V c main_v101 _
  congr 1
  funext a
  apply Fin.ext
  match a with
  | ⟨0, _⟩ => show win5_2.index t (0 : Fin 2) * 2000 + 1 * p.val = r.val; rw [e0, hr]; omega
  | ⟨1, _⟩ => show win5_2.index t (1 : Fin 2) * 96 + 1 * k.val = k.val; rw [e1]; omega

/-- The block of the predator's neighbour sums at point `t` is rows `2000 t … 2000 t + 1999` of its array. -/
theorem blk3_apply (c : Dev nD) (t : Fin cfg5.N) (p : Fin 2000) (r : Fin 50000) (hr : r.val = 2000 * t.val + p.val) (k : Fin 96) :
    (iblk5 V c 3 t : Vec Ideal S2000x96 .f32) (ix2 p k) = (V c main_v102 : Cert.LV.Arr 50000 96) (ix2 r k) := by
  obtain ⟨-, -, -, ⟨e0, e1⟩, -⟩ := idx_facts t
  unfold iblk5
  rw [View.read_apply]
  show V c main_v102 _ = V c main_v102 _
  congr 1
  funext a
  apply Fin.ext
  match a with
  | ⟨0, _⟩ => show win5_3.index t (0 : Fin 2) * 2000 + 1 * p.val = r.val; rw [e0, hr]; omega
  | ⟨1, _⟩ => show win5_3.index t (1 : Fin 2) * 96 + 1 * k.val = k.val; rw [e1]; omega

/-- The block of reciprocal degrees at point `t` is rows `2000 t … 2000 t + 1999` of its array. -/
theorem blk4_apply (c : Dev nD) (t : Fin cfg5.N) (p : Fin 2000) (r : Fin 50000) (hr : r.val = 2000 * t.val + p.val) :
    (iblk5 V c 4 t : Vec Ideal S2000x1 .f32) (ix2 p (0 : Fin 1)) = (V c main_v12 : Cert.LV.Arr 50000 1) (ix2 r (0 : Fin 1)) := by
  obtain ⟨-, -, -, -, ⟨e0, e1⟩, -⟩ := idx_facts t
  unfold iblk5
  rw [View.read_apply]
  show V c main_v12 _ = V c main_v12 _
  congr 1
  funext a
  apply Fin.ext
  match a with
  | ⟨0, _⟩ => show win5_4.index t (0 : Fin 2) * 2000 + 1 * p.val = r.val; rw [e0, hr]; omega
  | ⟨1, _⟩ => show win5_4.index t (1 : Fin 2) * 1 + 1 * (0 : Fin 1).val = (0 : Fin 1).val; rw [e1]; omega

/-- The prey's growth coefficients: the window's one block is its whole array, at every point. -/
theorem blk5_apply (c : Dev nD) (t : Fin cfg5.N) (j : S1x96.Idx) :
    (iblk5 V c 5 t : Vec Ideal S1x96 .f32) j = (V c main_v103 : Cert.LV.Arr 1 96) j := by
  obtain ⟨-, -, -, -, -, ⟨e0, e1⟩, -⟩ := idx_facts t
  unfold iblk5
  rw [View.read_apply]
  show V c main_v103 _ = V c main_v103 _
  congr 1
  funext a
  apply Fin.ext
  match a with
  | ⟨0, _⟩ => show win5_5.index t (0 : Fin 2) * 1 + 1 * (j 0).val = (j 0).val; rw [e0]; omega
  | ⟨1, _⟩ => show win5_5.index t (1 : Fin 2) * 96 + 1 * (j 1).val = (j 1).val; rw [e1]; omega

/-- The prey's predation coefficients: the window's one block is its whole array, at every point. -/
theorem blk6_apply (c : Dev nD) (t : Fin cfg5.N) (j : S1x96.Idx) :
    (iblk5 V c 6 t : Vec Ideal S1x96 .f32) j = (V c main_v104 : Cert.LV.Arr 1 96) j := by
  obtain ⟨-, -, -, -, -, -, ⟨e0, e1⟩, -⟩ := idx_facts t
  unfold iblk5
  rw [View.read_apply]
  show V c main_v104 _ = V c main_v104 _
  congr 1
  funext a
  apply Fin.ext
  match a with
  | ⟨0, _⟩ => show win5_6.index t (0 : Fin 2) * 1 + 1 * (j 0).val = (j 0).val; rw [e0]; omega
  | ⟨1, _⟩ => show win5_6.index t (1 : Fin 2) * 96 + 1 * (j 1).val = (j 1).val; rw [e1]; omega

/-- The predator's death coefficients: the window's one block is its whole array, at every point. -/
theorem blk7_apply (c : Dev nD) (t : Fin cfg5.N) (j : S1x96.Idx) :
    (iblk5 V c 7 t : Vec Ideal S1x96 .f32) j = (V c main_v105 : Cert.LV.Arr 1 96) j := by
  obtain ⟨-, -, -, -, -, -, -, ⟨e0, e1⟩, -⟩ := idx_facts t
  unfold iblk5
  rw [View.read_apply]
  show V c main_v105 _ = V c main_v105 _
  congr 1
  funext a
  apply Fin.ext
  match a with
  | ⟨0, _⟩ => show win5_7.index t (0 : Fin 2) * 1 + 1 * (j 0).val = (j 0).val; rw [e0]; omega
  | ⟨1, _⟩ => show win5_7.index t (1 : Fin 2) * 96 + 1 * (j 1).val = (j 1).val; rw [e1]; omega

/-- The predator's growth coefficients: the window's one block is its whole array, at every point. -/
theorem blk8_apply (c : Dev nD) (t : Fin cfg5.N) (j : S1x96.Idx) :
    (iblk5 V c 8 t : Vec Ideal S1x96 .f32) j = (V c main_v106 : Cert.LV.Arr 1 96) j := by
  obtain ⟨-, -, -, -, -, -, -, -, ⟨e0, e1⟩, -⟩ := idx_facts t
  unfold iblk5
  rw [View.read_apply]
  show V c main_v106 _ = V c main_v106 _
  congr 1
  funext a
  apply Fin.ext
  match a with
  | ⟨0, _⟩ => show win5_8.index t (0 : Fin 2) * 1 + 1 * (j 0).val = (j 0).val; rw [e0]; omega
  | ⟨1, _⟩ => show win5_8.index t (1 : Fin 2) * 96 + 1 * (j 1).val = (j 1).val; rw [e1]; omega

/-- The prey half of the readout weights: the window's one block is its whole array, at every point. -/
theorem blk9_apply (c : Dev nD) (t : Fin cfg5.N) (j : S96x40.Idx) :
    (iblk5 V c 9 t : Vec Ideal S96x40 .f32) j = (V c main_v16 : Cert.LV.Arr 96 40) j := by
  obtain ⟨-, -, -, -, -, -, -, -, -, ⟨e0, e1⟩, -⟩ := idx_facts t
  unfold iblk5
  rw [View.read_apply]
  show V c main_v16 _ = V c main_v16 _
  congr 1
  funext a
  apply Fin.ext
  match a with
  | ⟨0, _⟩ => show win5_9.index t (0 : Fin 2) * 96 + 1 * (j 0).val = (j 0).val; rw [e0]; omega
  | ⟨1, _⟩ => show win5_9.index t (1 : Fin 2) * 40 + 1 * (j 1).val = (j 1).val; rw [e1]; omega

/-- The predator half of the readout weights: the window's one block is its whole array, at every point. -/
theorem blk10_apply (c : Dev nD) (t : Fin cfg5.N) (j : S96x40.Idx) :
    (iblk5 V c 10 t : Vec Ideal S96x40 .f32) j = (V c main_v17 : Cert.LV.Arr 96 40) j := by
  obtain ⟨-, -, -, -, -, -, -, -, -, -, ⟨e0, e1⟩, -⟩ := idx_facts t
  unfold iblk5
  rw [View.read_apply]
  show V c main_v17 _ = V c main_v17 _
  congr 1
  funext a
  apply Fin.ext
  match a with
  | ⟨0, _⟩ => show win5_10.index t (0 : Fin 2) * 96 + 1 * (j 0).val = (j 0).val; rw [e0]; omega
  | ⟨1, _⟩ => show win5_10.index t (1 : Fin 2) * 40 + 1 * (j 1).val = (j 1).val; rw [e1]; omega

/-- The readout bias: the window's one block is its whole array, at every point. -/
theorem blk11_apply (c : Dev nD) (t : Fin cfg5.N) (j : S1x40.Idx) :
    (iblk5 V c 11 t : Vec Ideal S1x40 .f32) j = (V c main_v107 : Cert.LV.Arr 1 40) j := by
  obtain ⟨-, -, -, -, -, -, -, -, -, -, -, ⟨e0, e1⟩, -⟩ := idx_facts t
  unfold iblk5
  rw [View.read_apply]
  show V c main_v107 _ = V c main_v107 _
  congr 1
  funext a
  apply Fin.ext
  match a with
  | ⟨0, _⟩ => show win5_11.index t (0 : Fin 2) * 1 + 1 * (j 0).val = (j 0).val; rw [e0]; omega
  | ⟨1, _⟩ => show win5_11.index t (1 : Fin 2) * 40 + 1 * (j 1).val = (j 1).val; rw [e1]; omega

/-! ## What a point writes back, and the array after the run -/

theorem hz : (![0, 0] : Fin 2 → Nat) = fun _ => 0 := funext fun a => by fin_cases a <;> rfl

/-- The readout of one Euler step of both species, as one function of the arrays the region finds. -/
abbrev result (c : Dev nD) : Cert.LV.Arr 50000 40 :=
  Cert.LV.readout
    (Cert.LV.prey (V c main_v89_0) (V c main_v102) (fun r => V c main_v12 (ix2 r 0)) (fun j => V c main_v103 (ix2 0 j)) (fun j => V c main_v104 (ix2 0 j)))
    (Cert.LV.pred (V c main_v89_1) (V c main_v101) (fun r => V c main_v12 (ix2 r 0)) (fun j => V c main_v105 (ix2 0 j)) (fun j => V c main_v106 (ix2 0 j)))
    (fun k j => V c main_v16 (ix2 k j)) (fun k j => V c main_v17 (ix2 k j)) (fun j => V c main_v107 (ix2 0 j))

/-- Row `p`, class `q` of the output's block at point `t` is row `2000 t + p`, class `q` of the output array. -/
theorem emb12 (t : Fin cfg5.N) (p : Fin 2000) (q : Fin 40) (r : Fin 50000) (hr : r.val = 2000 * t.val + p.val) :
    (((cfg5.win 12).blk t).view.emb (ix2 p q) : S50000x40.Idx) = ix2 r q := by
  obtain ⟨-, -, -, -, -, -, -, -, -, -, -, -, ⟨e0, e1⟩⟩ := idx_facts t
  funext a
  apply Fin.ext
  match a with
  | ⟨0, _⟩ => show win5_12.index t (0 : Fin 2) * 2000 + 1 * p.val = r.val; rw [e0, hr]; omega
  | ⟨1, _⟩ => show win5_12.index t (1 : Fin 2) * 40 + 1 * q.val = q.val; rw [e1]; omega

/-- What point `t` writes back is block `t` of `result`. -/
theorem flushed_eq (c : Dev nD) (t : Fin cfg5.N) :
    (dat5 V c).flushed 12 t = ((cfg5.win 12).blk t).view.read (Elt Ideal) (result V c) := by
  show (cfg5.win 12).cut (grid5.coords t) ((dat5 V c).after 12 t) = _
  rw [after5_12]
  unfold out5_12
  rw [View.canon_unit_zero hz]
  simp only [View.ld_unit_zero (S := S2000x96) hz, View.ld_unit_zero (S := S2000x1) hz, View.ld_unit_zero (S := S1x96) hz,
    View.ld_unit_zero (S := S96x40) hz, View.ld_unit_zero (S := S1x40) hz]
  funext j
  obtain ⟨p, q, rfl⟩ : ∃ (p : Fin 2000) (q : Fin 40), j = ix2 p q := ⟨j 0, j 1, eq_ix2 j⟩
  have hN : cfg5.N = 25 := N_5
  have ht : t.val < 25 := Nat.lt_of_lt_of_eq t.isLt hN
  obtain ⟨r, hr⟩ : ∃ r : Fin 50000, r.val = 2000 * t.val + p.val := ⟨⟨2000 * t.val + p.val, by have := p.isLt; omega⟩, rfl⟩
  rw [View.read_apply, emb12 t p q r hr]
  refine (body_apply (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) (iblk5 V c 11 t) p q).trans ?_
  refine Eq.trans ?_ (spec_apply (V c main_v89_0) (V c main_v89_1) (V c main_v101) (V c main_v102) (V c main_v12)
    (V c main_v103) (V c main_v104) (V c main_v105) (V c main_v106) (V c main_v16) (V c main_v17) (V c main_v107) r q).symm
  refine congrArg₂ (· + ·) (congrArg₂ (· + ·) (Finset.sum_congr rfl fun k _ => ?_) (Finset.sum_congr rfl fun k _ => ?_)) ?_
  · rw [blk0_apply V c t p r hr k, blk3_apply V c t p r hr k, blk4_apply V c t p r hr, blk5_apply V c t, blk6_apply V c t,
      blk9_apply V c t]
  · rw [blk1_apply V c t p r hr k, blk2_apply V c t p r hr k, blk4_apply V c t p r hr, blk7_apply V c t, blk8_apply V c t,
      blk10_apply V c t]
  · exact blk11_apply V c t _

/-- An index of the output array is in point `t`'s block iff each coordinate is in the block's range on its axis. -/
theorem mem_blk (t : Fin cfg5.N) (i : S50000x40.Idx) :
    i ∈ ((cfg5.win 12).blk t).view.set ↔ ∀ a : Fin 2, win5_12.index t a * S2000x40.size a ≤ (i a).val
      ∧ (i a).val < win5_12.index t a * S2000x40.size a + S2000x40.size a := by
  show i ∈ ((View.whole main_v108).slice (win5_12.rect t)).set ↔ _
  rw [View.set_slice_whole, Rect.mem_set_unit]
  exact Iff.rfl

/-- Every row of the output array is in the block of the point that is its number divided by 2000. -/
theorem cover (i : S50000x40.Idx) :
    ∃ t : Fin cfg5.N, (cfg5.win 12).flush t = true ∧ i ∈ ((cfg5.win 12).blk t).view.set := by
  have hi0 : (i 0).val < 50000 := (i 0).isLt
  have hi1 : (i 1).val < 40 := (i 1).isLt
  have hN : cfg5.N = 25 := N_5
  obtain ⟨t, ht⟩ : ∃ t : Fin cfg5.N, t.val = (i 0).val / 2000 :=
    ⟨⟨(i 0).val / 2000, Nat.lt_of_lt_of_eq (by omega) hN.symm⟩, rfl⟩
  obtain ⟨-, -, -, -, -, -, -, -, -, -, -, -, ⟨e0, e1⟩⟩ := idx_facts t
  refine ⟨t, flush5_12 t, ?_⟩
  rw [mem_blk]
  intro a
  match a with
  | ⟨0, _⟩ =>
    show win5_12.index t (0 : Fin 2) * 2000 ≤ (i 0).val ∧ (i 0).val < win5_12.index t (0 : Fin 2) * 2000 + 2000
    rw [e0, ht]; omega
  | ⟨1, _⟩ =>
    show win5_12.index t (1 : Fin 2) * 40 ≤ (i 1).val ∧ (i 1).val < win5_12.index t (1 : Fin 2) * 40 + 40
    rw [e1]; omega

/-- The output array after the run: the readout of one Euler step of the two species, of the arrays the region finds. -/
theorem final12 (c : Dev nD) : ((dat5 V c).arrAt 12 cfg5.N : S50000x40.Idx → EReal) =
    Cert.LV.readout
      (Cert.LV.prey (V c main_v89_0) (V c main_v102) (fun r => V c main_v12 (ix2 r 0)) (fun j => V c main_v103 (ix2 0 j)) (fun j => V c main_v104 (ix2 0 j)))
      (Cert.LV.pred (V c main_v89_1) (V c main_v101) (fun r => V c main_v12 (ix2 r 0)) (fun j => V c main_v105 (ix2 0 j)) (fun j => V c main_v106 (ix2 0 j)))
      (fun k j => V c main_v16 (ix2 k j)) (fun k j => V c main_v17 (ix2 k j)) (fun j => V c main_v107 (ix2 0 j)) :=
  (dat5 V c).arrAt_eq_of_cover 12 (result V c) (fun t _ => flushed_eq V c t) cover

end Cert.KernelIdeal.ReadoutValue

end
-- ==== Proof.KValue.lean ====
/-
  What the kernel's program computes: its result array is the network of the specification, built from the memory the
  program is launched from.

  Region by region along the fold. The first region lifts the input features to the two species. Each of the next four
  regions takes one Euler step: its coefficient rows are rows of the coefficient arguments, its starting species are
  the previous region's results, and its neighbour sums are the left and right halves of the side-by-side neighbour
  sum of both species — which are the separate neighbour sums of the first and of the second species. The last
  region takes the fifth step and applies the readout to it.
-/
import proofs.«101018_j498216206705_2_alg».proof.Proof.Gen.KernelIdeal.Frame
import proofs.«101018_j498216206705_2_alg».proof.Proof.KCarry
import proofs.«101018_j498216206705_2_alg».proof.Proof.KIngr
import proofs.«101018_j498216206705_2_alg».proof.Proof.SegSum
import proofs.«101018_j498216206705_2_alg».proof.Proof.LiftValue
import proofs.«101018_j498216206705_2_alg».proof.Proof.LvValue1
import proofs.«101018_j498216206705_2_alg».proof.Proof.LvValue2
import proofs.«101018_j498216206705_2_alg».proof.Proof.LvValue3
import proofs.«101018_j498216206705_2_alg».proof.Proof.LvValue4
import proofs.«101018_j498216206705_2_alg».proof.Proof.ReadoutValue
import Idealize.ShloMosaic.Lib.ValueLayout

set_option maxRecDepth 16384

noncomputable section

namespace Cert.KernelIdeal.KValue

open Cert.KernelIdeal Cert.KernelIdeal.Gen Cert.KernelIdeal.KHost Cert.KernelIdeal.KCarry
open Idealize.ShloMosaic Idealize.ShloMosaic.TcCoe Idealize.SL.Sem Idealize.ShloMosaic.StableHlo Idealize.ShloMosaic.ValueIdx
open Cert.LV

/-- The left half of the side-by-side neighbour sum is the first species' neighbour sum. -/
theorem aggL_eq (X Y : Arr 50000 96) (d s) : (aggL (F := Ideal) X Y d s : Arr 50000 96) = ragg d s X :=
  Cert.Seg.agg_left X Y (dstN d) (srcN s)
/-- The right half is the second species'. -/
theorem aggR_eq (X Y : Arr 50000 96) (d s) : (aggR (F := Ideal) X Y d s : Arr 50000 96) = ragg d s Y :=
  Cert.Seg.agg_right X Y (dstN d) (srcN s)

variable (m : (ℓ : Loc nD τ sig) → Buf (Elt Ideal) ℓ) (ρ : Dev nD → PrngReg) (c : Dev nD)

/-- The network's ingredients, read off the launch memory. -/
def ing : Ing :=
  ingOf (m ((c : Thread nD τ).loc main_arg1)) (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))
def wx : Fin 96 → Fin 40 → EReal := wxOf (m ((c : Thread nD τ).loc main_arg10))
def wy : Fin 96 → Fin 40 → EReal := wyOf (m ((c : Thread nD τ).loc main_arg10))
def bias : Fin 40 → EReal := biasOf (m ((c : Thread nD τ).loc main_arg11))

/-- The ingredients' lifts, spelt out. -/
theorem ing_X0 : (ing m c).X0 = lift (m ((c : Thread nD τ).loc main_arg0)) (m ((c : Thread nD τ).loc main_arg2))
    (fun j => (m ((c : Thread nD τ).loc main_arg3) : (⟨1, ![96]⟩ : Shape).Idx → EReal) (ix1 j)) := rfl
theorem ing_Y0 : (ing m c).Y0 = lift (m ((c : Thread nD τ).loc main_arg0)) (m ((c : Thread nD τ).loc main_arg4))
    (fun j => (m ((c : Thread nD τ).loc main_arg5) : (⟨1, ![96]⟩ : Shape).Idx → EReal) (ix1 j)) := rfl

/-! ## The lift -/

theorem X0_eq : (W2 m ρ c (Proc.devRef .tc main_v15_0) : Arr 50000 96) = (ing m c).X0 := by
  refine (W2_arr m ρ c 5).trans ((Cert.KernelIdeal.LiftValue.final5 (V1 m ρ) c).trans ?_)
  show lift (W1 m ρ c (Proc.devRef .tc main_arg0)) (W1 m ρ c (Proc.devRef .tc main_arg2)) (fun j => W1 m ρ c (Proc.devRef .tc main_v13) (ix2 0 j)) = _
  rw [arg0_1 m ρ c, arg2_1 m ρ c, v13_1 m ρ c, ing_X0 m c]
  congr 1
  funext j
  exact shapeCast_a_1a_apply _ _ 0 j
theorem Y0_eq : (W2 m ρ c (Proc.devRef .tc main_v15_1) : Arr 50000 96) = (ing m c).Y0 := by
  refine (W2_arr m ρ c 6).trans ((Cert.KernelIdeal.LiftValue.final6 (V1 m ρ) c).trans ?_)
  show lift (W1 m ρ c (Proc.devRef .tc main_arg0)) (W1 m ρ c (Proc.devRef .tc main_arg4)) (fun j => W1 m ρ c (Proc.devRef .tc main_v14) (ix2 0 j)) = _
  rw [arg0_1 m ρ c, arg4_1 m ρ c, v14_1 m ρ c, ing_Y0 m c]
  congr 1
  funext j
  exact shapeCast_a_1a_apply _ _ 0 j

/-! ## Step 1 -/

theorem X1_eq : (W4 m ρ c (Proc.devRef .tc main_v35_0) : Arr 50000 96) = X1 (ing m c) := by
  refine (W4_arr m ρ c 9).trans ((Cert.KernelIdeal.LvValue1.final9 (V3 m ρ) c).trans ?_)
  unfold X1
  refine prey_congr ((in1_0 m ρ c).trans (X0_eq m ρ c)) ?_ ?_ ?_ ?_
  · refine (agg1_1 m ρ c).trans ?_
    rw [X0_eq m ρ c, Y0_eq m ρ c]
    exact aggR_eq _ _ _ _
  · funext r; exact congrFun (v12_3 m ρ c) (ix2 r 0)
  · funext j; exact (congrFun (coef1_0 m ρ c) (ix2 0 j)).trans (row_apply _ 0 (by omega) _ j)
  · funext j; exact (congrFun (coef1_1 m ρ c) (ix2 0 j)).trans (row_apply _ 0 (by omega) _ j)
theorem Y1_eq : (W4 m ρ c (Proc.devRef .tc main_v35_1) : Arr 50000 96) = Y1 (ing m c) := by
  refine (W4_arr m ρ c 10).trans ((Cert.KernelIdeal.LvValue1.final10 (V3 m ρ) c).trans ?_)
  unfold Y1
  refine pred_congr ((in1_1 m ρ c).trans (Y0_eq m ρ c)) ?_ ?_ ?_ ?_
  · refine (agg1_0 m ρ c).trans ?_
    rw [X0_eq m ρ c, Y0_eq m ρ c]
    exact aggL_eq _ _ _ _
  · funext r; exact congrFun (v12_3 m ρ c) (ix2 r 0)
  · funext j; exact (congrFun (coef1_2 m ρ c) (ix2 0 j)).trans (row_apply _ 0 (by omega) _ j)
  · funext j; exact (congrFun (coef1_3 m ρ c) (ix2 0 j)).trans (row_apply _ 0 (by omega) _ j)

/-! ## Step 2 -/

theorem X2_eq : (W6 m ρ c (Proc.devRef .tc main_v53_0) : Arr 50000 96) = X2 (ing m c) := by
  refine (W6_arr m ρ c 9).trans ((Cert.KernelIdeal.LvValue2.final9 (V5 m ρ) c).trans ?_)
  unfold X2
  refine prey_congr ((in2_0 m ρ c).trans (X1_eq m ρ c)) ?_ ?_ ?_ ?_
  · refine (agg2_1 m ρ c).trans ?_
    rw [X1_eq m ρ c, Y1_eq m ρ c]
    exact aggR_eq _ _ _ _
  · funext r; exact congrFun (v12_5 m ρ c) (ix2 r 0)
  · funext j; exact (congrFun (coef2_0 m ρ c) (ix2 0 j)).trans (row_apply _ 1 (by omega) _ j)
  · funext j; exact (congrFun (coef2_1 m ρ c) (ix2 0 j)).trans (row_apply _ 1 (by omega) _ j)
theorem Y2_eq : (W6 m ρ c (Proc.devRef .tc main_v53_1) : Arr 50000 96) = Y2 (ing m c) := by
  refine (W6_arr m ρ c 10).trans ((Cert.KernelIdeal.LvValue2.final10 (V5 m ρ) c).trans ?_)
  unfold Y2
  refine pred_congr ((in2_1 m ρ c).trans (Y1_eq m ρ c)) ?_ ?_ ?_ ?_
  · refine (agg2_0 m ρ c).trans ?_
    rw [X1_eq m ρ c, Y1_eq m ρ c]
    exact aggL_eq _ _ _ _
  · funext r; exact congrFun (v12_5 m ρ c) (ix2 r 0)
  · funext j; exact (congrFun (coef2_2 m ρ c) (ix2 0 j)).trans (row_apply _ 1 (by omega) _ j)
  · funext j; exact (congrFun (coef2_3 m ρ c) (ix2 0 j)).trans (row_apply _ 1 (by omega) _ j)

/-! ## Step 3 -/

theorem X3_eq : (W8 m ρ c (Proc.devRef .tc main_v71_0) : Arr 50000 96) = X3 (ing m c) := by
  refine (W8_arr m ρ c 9).trans ((Cert.KernelIdeal.LvValue3.final9 (V7 m ρ) c).trans ?_)
  unfold X3
  refine prey_congr ((in3_0 m ρ c).trans (X2_eq m ρ c)) ?_ ?_ ?_ ?_
  · refine (agg3_1 m ρ c).trans ?_
    rw [X2_eq m ρ c, Y2_eq m ρ c]
    exact aggR_eq _ _ _ _
  · funext r; exact congrFun (v12_7 m ρ c) (ix2 r 0)
  · funext j; exact (congrFun (coef3_0 m ρ c) (ix2 0 j)).trans (row_apply _ 2 (by omega) _ j)
  · funext j; exact (congrFun (coef3_1 m ρ c) (ix2 0 j)).trans (row_apply _ 2 (by omega) _ j)
theorem Y3_eq : (W8 m ρ c (Proc.devRef .tc main_v71_1) : Arr 50000 96) = Y3 (ing m c) := by
  refine (W8_arr m ρ c 10).trans ((Cert.KernelIdeal.LvValue3.final10 (V7 m ρ) c).trans ?_)
  unfold Y3
  refine pred_congr ((in3_1 m ρ c).trans (Y2_eq m ρ c)) ?_ ?_ ?_ ?_
  · refine (agg3_0 m ρ c).trans ?_
    rw [X2_eq m ρ c, Y2_eq m ρ c]
    exact aggL_eq _ _ _ _
  · funext r; exact congrFun (v12_7 m ρ c) (ix2 r 0)
  · funext j; exact (congrFun (coef3_2 m ρ c) (ix2 0 j)).trans (row_apply _ 2 (by omega) _ j)
  · funext j; exact (congrFun (coef3_3 m ρ c) (ix2 0 j)).trans (row_apply _ 2 (by omega) _ j)

/-! ## Step 4 -/

theorem X4_eq : (W10 m ρ c (Proc.devRef .tc main_v89_0) : Arr 50000 96) = X4 (ing m c) := by
  refine (W10_arr m ρ c 9).trans ((Cert.KernelIdeal.LvValue4.final9 (V9 m ρ) c).trans ?_)
  unfold X4
  refine prey_congr ((in4_0 m ρ c).trans (X3_eq m ρ c)) ?_ ?_ ?_ ?_
  · refine (agg4_1 m ρ c).trans ?_
    rw [X3_eq m ρ c, Y3_eq m ρ c]
    exact aggR_eq _ _ _ _
  · funext r; exact congrFun (v12_9 m ρ c) (ix2 r 0)
  · funext j; exact (congrFun (coef4_0 m ρ c) (ix2 0 j)).trans (row_apply _ 3 (by omega) _ j)
  · funext j; exact (congrFun (coef4_1 m ρ c) (ix2 0 j)).trans (row_apply _ 3 (by omega) _ j)
theorem Y4_eq : (W10 m ρ c (Proc.devRef .tc main_v89_1) : Arr 50000 96) = Y4 (ing m c) := by
  refine (W10_arr m ρ c 10).trans ((Cert.KernelIdeal.LvValue4.final10 (V9 m ρ) c).trans ?_)
  unfold Y4
  refine pred_congr ((in4_1 m ρ c).trans (Y3_eq m ρ c)) ?_ ?_ ?_ ?_
  · refine (agg4_0 m ρ c).trans ?_
    rw [X3_eq m ρ c, Y3_eq m ρ c]
    exact aggL_eq _ _ _ _
  · funext r; exact congrFun (v12_9 m ρ c) (ix2 r 0)
  · funext j; exact (congrFun (coef4_2 m ρ c) (ix2 0 j)).trans (row_apply _ 3 (by omega) _ j)
  · funext j; exact (congrFun (coef4_3 m ρ c) (ix2 0 j)).trans (row_apply _ 3 (by omega) _ j)

/-! ## The fifth step and the readout -/

/-- The readout with its ingredients replaced by equals. -/
theorem readout_congr {X X' Y Y' : Arr 50000 96} {Wx Wx' Wy Wy' : Fin 96 → Fin 40 → EReal} {b b' : Fin 40 → EReal}
    (hX : X = X') (hY : Y = Y') (hWx : Wx = Wx') (hWy : Wy = Wy') (hb : b = b') : readout X Y Wx Wy b = readout X' Y' Wx' Wy' b' := by
  subst hX hY hWx hWy hb; rfl

theorem out_eq : (W12 m ρ c (Proc.devRef .tc main_v108) : Arr 50000 40) = out (ing m c) (wx m c) (wy m c) (bias m c) := by
  refine (W12_arr m ρ c 12).trans ((Cert.KernelIdeal.ReadoutValue.final12 (V11 m ρ) c).trans ?_)
  unfold out
  refine readout_congr (prey_congr ((in5_0 m ρ c).trans (X4_eq m ρ c)) ?_ ?_ ?_ ?_) (pred_congr ((in5_1 m ρ c).trans (Y4_eq m ρ c)) ?_ ?_ ?_ ?_) ?_ ?_ ?_
  · refine (agg5_1 m ρ c).trans ?_
    rw [X4_eq m ρ c, Y4_eq m ρ c]
    exact aggR_eq _ _ _ _
  · funext r; exact congrFun (v12_11 m ρ c) (ix2 r 0)
  · funext j; exact (congrFun (coef5_0 m ρ c) (ix2 0 j)).trans (row_apply _ 4 (by omega) _ j)
  · funext j; exact (congrFun (coef5_1 m ρ c) (ix2 0 j)).trans (row_apply _ 4 (by omega) _ j)
  · refine (agg5_0 m ρ c).trans ?_
    rw [X4_eq m ρ c, Y4_eq m ρ c]
    exact aggL_eq _ _ _ _
  · funext r; exact congrFun (v12_11 m ρ c) (ix2 r 0)
  · funext j; exact (congrFun (coef5_2 m ρ c) (ix2 0 j)).trans (row_apply _ 4 (by omega) _ j)
  · funext j; exact (congrFun (coef5_3 m ρ c) (ix2 0 j)).trans (row_apply _ 4 (by omega) _ j)
  · funext k j
    exact (congrFun (v16_11 m ρ c) (ix2 k j)).trans (slice2_axis0_apply 0 _ _ k j ⟨k.val, by omega⟩ (Nat.zero_add _).symm)
  · funext k j
    exact (congrFun (v17_11 m ρ c) (ix2 k j)).trans (slice2_axis0_apply 96 _ _ k j ⟨96 + k.val, by omega⟩ rfl)
  · funext j
    exact (congrFun (v107_11 m ρ c) (ix2 0 j)).trans (shapeCast_a_1a_apply _ _ 0 j)

end Cert.KernelIdeal.KValue

end
-- ==== Proof.RefValue.lean ====
/-
  The idealized reference's named stages are the specification's functions.

  On the extended reals every float operation is exact, so each stage of the reference's host program can be read
  index by index. The lift of the 128 input features is `tanh` of a row-by-column sum plus a per-channel bias. One
  Euler step adds to a species `dt` times the species times a per-channel rate, in which the other species enters
  through its sum over a node's in-neighbours scaled by the node's reciprocal in-degree; the per-channel coefficients
  are rows of `5 × 96` arrays, one row per step. The readout contracts the 192 channels of the two species side by
  side against a `192 × 40` matrix, which is the sum of the contraction of the first species against the matrix's
  first 96 rows and of the second against its last 96 rows.

  How the neighbour sum is computed is not opened here: it is named `agg` and carried as one function of a species.
-/
import proofs.«101018_j498216206705_2_alg».proof.Proof.Gen.ReferenceIdeal.Run
import proofs.«101018_j498216206705_2_alg».proof.Proof.Spec
import proofs.«101018_j498216206705_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.ValueIdx
  Idealize.ShloMosaic.StableHlo

/-! ## Reading the broadcasts of one step at a node and a channel -/

/-- A per-channel vector, broadcast to every node, reads its channel. -/
theorem chan_apply (v : FVec Ideal S96 .f32) (r : Fin 50000) (c : Fin 96) :
    broadcastInDim S50000x96 ![0, 1] bcast_S1x96_S50000x96_0_1 (broadcastInDim S1x96 ![1] bcast_S96_S1x96_1 v) (ix2 r c)
      = v (ix1 c) :=
  (broadcastInDim_apply _ _ _ (ix2 r c) (ix2 (0 : Fin 1) c) (fun a => by
      match a with
      | ⟨0, _⟩ => rfl
      | ⟨1, _⟩ => rfl)).trans
    (broadcastInDim_apply _ _ _ (ix2 (0 : Fin 1) c) (ix1 c) (fun a => by
      match a with
      | ⟨0, _⟩ => rfl))

/-- Row `l` of a `5 × 96` coefficient array, cut out, flattened and broadcast to every node, reads the array at
    `(l, c)`. -/
theorem coef_apply (o : Nat) (h : S5x96.Slices ![o, 0] S1x96) (l : Fin 5) (hl : l.val = o) (A : FVec Ideal S5x96 .f32)
    (r : Fin 50000) (c : Fin 96) :
    broadcastInDim S50000x96 ![0, 1] bcast_S1x96_S50000x96_0_1 (broadcastInDim S1x96 ![1] bcast_S96_S1x96_1
        (shapeCast _ (extractStridedSlice S1x96 ![o, 0] A h) shapeCasts_S1x96_S96)) (ix2 r c)
      = A (ix2 l c) :=
  (chan_apply _ r c).trans
    ((shapeCast_1a_a_apply _ _ c).trans (slice2_axis0_apply o A h (0 : Fin 1) c l (by rw [hl]; rfl)))

/-- The same with the row negated before the broadcast. -/
theorem coef_neg_apply (o : Nat) (h : S5x96.Slices ![o, 0] S1x96) (l : Fin 5) (hl : l.val = o) (A : FVec Ideal S5x96 .f32)
    (r : Fin 50000) (c : Fin 96) :
    broadcastInDim S50000x96 ![0, 1] bcast_S1x96_S50000x96_0_1 (broadcastInDim S1x96 ![1] bcast_S96_S1x96_1
        (Host.negf (shapeCast _ (extractStridedSlice S1x96 ![o, 0] A h) shapeCasts_S1x96_S96))) (ix2 r c)
      = -(A (ix2 l c)) :=
  (chan_apply _ r c).trans
    (congrArg (fun x : EReal => -x)
      ((shapeCast_1a_a_apply _ _ c).trans (slice2_axis0_apply o A h (0 : Fin 1) c l (by rw [hl]; rfl))))

/-- The step size, broadcast to every node and channel. -/
theorem dt_apply (r : Fin 50000) (c : Fin 96) :
    broadcastInDim S50000x96 ![] bcast_S_S50000x96 (constant (F := Ideal) S_ .f32 0x3D4CCCCD#32) (ix2 r c) = Cert.LV.dt :=
  broadcastInDim_apply _ _ _ (ix2 r c) ix0 (fun a => a.elim0)

/-- A per-node column, broadcast over the channels, reads its node. -/
theorem node_apply (dv : FVec Ideal S50000x1 .f32) (r : Fin 50000) (c : Fin 96) :
    broadcastInDim S50000x96 ![0, 1] bcast_S50000x1_S50000x96_0_1 dv (ix2 r c) = dv (ix2 r (0 : Fin 1)) :=
  broadcastInDim_apply _ _ _ (ix2 r c) (ix2 r (0 : Fin 1)) (fun a => by
    match a with
    | ⟨0, _⟩ => rfl
    | ⟨1, _⟩ => rfl)

/-! ## One Euler step, generic in its ingredients -/

/-- The prey's step layer is the specification's `prey`. -/
theorem prey_layer (o : Nat) (h : S5x96.Slices ![o, 0] S1x96) (l : Fin 5) (hl : l.val = o)
    (X aggraw : FVec Ideal S50000x96 .f32) (dv : FVec Ideal S50000x1 .f32) (A B : FVec Ideal S5x96 .f32) :
    (addf X (mulf (mulf (broadcastInDim S50000x96 ![] bcast_S_S50000x96 (constant S_ .f32 0x3D4CCCCD#32)) X)
      (subf (broadcastInDim S50000x96 ![0, 1] bcast_S1x96_S50000x96_0_1 (broadcastInDim S1x96 ![1] bcast_S96_S1x96_1
              (shapeCast _ (extractStridedSlice S1x96 ![o, 0] A h) shapeCasts_S1x96_S96)))
        (mulf (broadcastInDim S50000x96 ![0, 1] bcast_S1x96_S50000x96_0_1 (broadcastInDim S1x96 ![1] bcast_S96_S1x96_1
                (shapeCast _ (extractStridedSlice S1x96 ![o, 0] B h) shapeCasts_S1x96_S96)))
          (mulf aggraw (broadcastInDim S50000x96 ![0, 1] bcast_S50000x1_S50000x96_0_1 dv))))) : FVec Ideal S50000x96 .f32)
      = Cert.LV.prey X aggraw (fun r => dv (ix2 r (0 : Fin 1))) (fun j => A (ix2 l j)) (fun j => B (ix2 l j)) := by
  funext i
  obtain ⟨r, c, rfl⟩ : ∃ (r : Fin 50000) (c : Fin 96), i = ix2 r c := ⟨i 0, i 1, eq_ix2 i⟩
  show _ = X (ix2 r c) + (Cert.LV.dt * X (ix2 r c)) * (A (ix2 l c) - B (ix2 l c) * (aggraw (ix2 r c) * dv (ix2 r (0 : Fin 1))))
  rw [addf_apply, mulf_apply, mulf_apply, subf_apply, mulf_apply, mulf_apply, dt_apply, coef_apply o h l hl A,
    coef_apply o h l hl B, node_apply]

/-- The predator's step layer is the specification's `pred`. -/
theorem pred_layer (o : Nat) (h : S5x96.Slices ![o, 0] S1x96) (l : Fin 5) (hl : l.val = o)
    (Y aggraw : FVec Ideal S50000x96 .f32) (dv : FVec Ideal S50000x1 .f32) (G D : FVec Ideal S5x96 .f32) :
    (addf Y (mulf (mulf (broadcastInDim S50000x96 ![] bcast_S_S50000x96 (constant S_ .f32 0x3D4CCCCD#32)) Y)
      (addf (broadcastInDim S50000x96 ![0, 1] bcast_S1x96_S50000x96_0_1 (broadcastInDim S1x96 ![1] bcast_S96_S1x96_1
              (Host.negf (shapeCast _ (extractStridedSlice S1x96 ![o, 0] G h) shapeCasts_S1x96_S96))))
        (mulf (broadcastInDim S50000x96 ![0, 1] bcast_S1x96_S50000x96_0_1 (broadcastInDim S1x96 ![1] bcast_S96_S1x96_1
                (shapeCast _ (extractStridedSlice S1x96 ![o, 0] D h) shapeCasts_S1x96_S96)))
          (mulf aggraw (broadcastInDim S50000x96 ![0, 1] bcast_S50000x1_S50000x96_0_1 dv))))) : FVec Ideal S50000x96 .f32)
      = Cert.LV.pred Y aggraw (fun r => dv (ix2 r (0 : Fin 1))) (fun j => G (ix2 l j)) (fun j => D (ix2 l j)) := by
  funext i
  obtain ⟨r, c, rfl⟩ : ∃ (r : Fin 50000) (c : Fin 96), i = ix2 r c := ⟨i 0, i 1, eq_ix2 i⟩
  show _ = Y (ix2 r c) + (Cert.LV.dt * Y (ix2 r c)) * (-(G (ix2 l c)) + D (ix2 l c) * (aggraw (ix2 r c) * dv (ix2 r (0 : Fin 1))))
  rw [addf_apply, mulf_apply, mulf_apply, addf_apply, mulf_apply, mulf_apply, dt_apply, coef_neg_apply o h l hl G,
    coef_apply o h l hl D, node_apply]

/-! ## The reference's neighbour sum, named -/

variable (V0 : Valuation τ sig (Elt Ideal))

/-- The edges' destination nodes, as a column of scatter indices. -/
def dstB : IVec S800000x1 32 := broadcastInDim S800000x1 ![0] bcast_S800000_S800000x1_0 (res_main_v3 V0)

/-- The edges' source nodes (a negative index wrapped once), as a column of gather indices. -/
def srcB : IVec S800000x1 32 :=
  broadcastInDim S800000x1 ![0] bcast_S800000_S800000x1_0 (select (cmpi .slt (res_main_v1 V0) (broadcastInDim S800000 ![] bcast_S_S800000 (constantI S_ 32 0#32))) (addi (res_main_v1 V0) (broadcastInDim S800000 ![] bcast_S_S800000 (constantI S_ 32 50000#32))) (res_main_v1 V0))

/-- The sum of a species over each node's in-neighbours: gather the rows at the edges' sources, add them at the edges'
    destinations into zero. -/
def agg (X : FVec Ideal S50000x96 .f32) : FVec Ideal S50000x96 .f32 :=
  Host.scatterAdd (F := Ideal) scatter_S50000x96_S800000x1_S800000x96_1_0_0_1 (broadcastInDim S50000x96 ![] bcast_S_S50000x96 (constant (F := Ideal) S_ .f32 0x00000000#32)) (dstB V0) (Host.gather gather_S50000x96_S800000x1_S800000x96_1_0_n_n_0_1_196 X (srcB V0))

/-- The reciprocal in-degree of a node. -/
def dinv : Fin 50000 → EReal := fun r => res_main_v12 V0 (ix2 r (0 : Fin 1))

/-- Row `l` of a `5 × 96` coefficient array. -/
def row (l : Fin 5) (A : FVec Ideal S5x96 .f32) : Fin 96 → EReal := fun j => A (ix2 l j)

theorem dinv_apply (r : Fin 50000) : dinv V0 r = res_main_v12 V0 (ix2 r (0 : Fin 1)) := rfl
theorem row_apply (l : Fin 5) (A : FVec Ideal S5x96 .f32) (j : Fin 96) : row l A j = A (ix2 l j) := rfl

/-! ## The four named steps -/

theorem X1_eq : (res_main_v60 V0 : FVec Ideal S50000x96 .f32)
    = Cert.LV.prey (res_main_v17 V0) (agg V0 (res_main_v22 V0)) (dinv V0) (row 0 (V0 (Proc.devRef .tc main_arg6))) (row 0 (V0 (Proc.devRef .tc main_arg7))) := by
  unfold res_main_v60
  exact prey_layer 0 slices_S5x96_S1x96_0_0 0 rfl (res_main_v17 V0) (agg V0 (res_main_v22 V0)) (res_main_v12 V0) _ _

theorem Y1_eq : (res_main_v75 V0 : FVec Ideal S50000x96 .f32)
    = Cert.LV.pred (res_main_v22 V0) (agg V0 (res_main_v17 V0)) (dinv V0) (row 0 (V0 (Proc.devRef .tc main_arg8))) (row 0 (V0 (Proc.devRef .tc main_arg9))) := by
  unfold res_main_v75
  exact pred_layer 0 slices_S5x96_S1x96_0_0 0 rfl (res_main_v22 V0) (agg V0 (res_main_v17 V0)) (res_main_v12 V0) _ _

theorem X2_eq : (res_main_v113 V0 : FVec Ideal S50000x96 .f32)
    = Cert.LV.prey (res_main_v60 V0) (agg V0 (res_main_v75 V0)) (dinv V0) (row 1 (V0 (Proc.devRef .tc main_arg6))) (row 1 (V0 (Proc.devRef .tc main_arg7))) := by
  unfold res_main_v113
  exact prey_layer 1 slices_S5x96_S1x96_1_0 1 rfl (res_main_v60 V0) (agg V0 (res_main_v75 V0)) (res_main_v12 V0) _ _

theorem Y2_eq : (res_main_v128 V0 : FVec Ideal S50000x96 .f32)
    = Cert.LV.pred (res_main_v75 V0) (agg V0 (res_main_v60 V0)) (dinv V0) (row 1 (V0 (Proc.devRef .tc main_arg8))) (row 1 (V0 (Proc.devRef .tc main_arg9))) := by
  unfold res_main_v128
  exact pred_layer 1 slices_S5x96_S1x96_1_0 1 rfl (res_main_v75 V0) (agg V0 (res_main_v60 V0)) (res_main_v12 V0) _ _

theorem X3_eq : (res_main_v166 V0 : FVec Ideal S50000x96 .f32)
    = Cert.LV.prey (res_main_v113 V0) (agg V0 (res_main_v128 V0)) (dinv V0) (row 2 (V0 (Proc.devRef .tc main_arg6))) (row 2 (V0 (Proc.devRef .tc main_arg7))) := by
  unfold res_main_v166
  exact prey_layer 2 slices_S5x96_S1x96_2_0 2 rfl (res_main_v113 V0) (agg V0 (res_main_v128 V0)) (res_main_v12 V0) _ _

theorem Y3_eq : (res_main_v181 V0 : FVec Ideal S50000x96 .f32)
    = Cert.LV.pred (res_main_v128 V0) (agg V0 (res_main_v113 V0)) (dinv V0) (row 2 (V0 (Proc.devRef .tc main_arg8))) (row 2 (V0 (Proc.devRef .tc main_arg9))) := by
  unfold res_main_v181
  exact pred_layer 2 slices_S5x96_S1x96_2_0 2 rfl (res_main_v128 V0) (agg V0 (res_main_v113 V0)) (res_main_v12 V0) _ _

theorem X4_eq : (res_main_v219 V0 : FVec Ideal S50000x96 .f32)
    = Cert.LV.prey (res_main_v166 V0) (agg V0 (res_main_v181 V0)) (dinv V0) (row 3 (V0 (Proc.devRef .tc main_arg6))) (row 3 (V0 (Proc.devRef .tc main_arg7))) := by
  unfold res_main_v219
  exact prey_layer 3 slices_S5x96_S1x96_3_0 3 rfl (res_main_v166 V0) (agg V0 (res_main_v181 V0)) (res_main_v12 V0) _ _

theorem Y4_eq : (res_main_v234 V0 : FVec Ideal S50000x96 .f32)
    = Cert.LV.pred (res_main_v181 V0) (agg V0 (res_main_v166 V0)) (dinv V0) (row 3 (V0 (Proc.devRef .tc main_arg8))) (row 3 (V0 (Proc.devRef .tc main_arg9))) := by
  unfold res_main_v234
  exact pred_layer 3 slices_S5x96_S1x96_3_0 3 rfl (res_main_v181 V0) (agg V0 (res_main_v166 V0)) (res_main_v12 V0) _ _

/-! ## The lift of the input features -/

/-- The lift layer is the specification's `lift`: the product's element is the sum over the 128 features, the bias
    reads its channel, and the host's tanh is the extended reals' tanh. -/
theorem lift_layer (x : FVec Ideal S50000x128 .f32) (W : FVec Ideal S128x96 .f32) (b : FVec Ideal S96 .f32) :
    (Host.tanh (addf (Host.dotGeneral dot_S50000x128_S128x96_S50000x96_1_0_0_1_n_n none x W)
        (broadcastInDim S50000x96 ![0, 1] bcast_S1x96_S50000x96_0_1 (broadcastInDim S1x96 ![1] bcast_S96_S1x96_1 b))) :
      FVec Ideal S50000x96 .f32)
      = Cert.LV.lift x W (fun j => b (ix1 j)) := by
  funext i
  obtain ⟨r, c, rfl⟩ : ∃ (r : Fin 50000) (c : Fin 96), i = ix2 r c := ⟨i 0, i 1, eq_ix2 i⟩
  have hd : Host.dotGeneral dot_S50000x128_S128x96_S50000x96_1_0_0_1_n_n none x W (ix2 r c)
      = ∑ k : Fin 128, x (ix2 r k) * W (ix2 k c) :=
    Cert.PlainDot.dotGeneral_apply 50000 128 96 none .single x W (ix2 r c)
  show Ideal.tanh (Host.dotGeneral dot_S50000x128_S128x96_S50000x96_1_0_0_1_n_n none x W (ix2 r c)
      + broadcastInDim S50000x96 ![0, 1] bcast_S1x96_S50000x96_0_1 (broadcastInDim S1x96 ![1] bcast_S96_S1x96_1 b) (ix2 r c))
    = Ideal.tanh ((∑ k : Fin 128, x (ix2 r k) * W (ix2 k c)) + b (ix1 c))
  rw [hd, chan_apply]

theorem X0_eq : (res_main_v17 V0 : FVec Ideal S50000x96 .f32)
    = Cert.LV.lift (V0 (Proc.devRef .tc main_arg0)) (V0 (Proc.devRef .tc main_arg2)) (fun j => V0 (Proc.devRef .tc main_arg3) (ix1 j)) := by
  unfold res_main_v17
  exact lift_layer _ _ _

theorem Y0_eq : (res_main_v22 V0 : FVec Ideal S50000x96 .f32)
    = Cert.LV.lift (V0 (Proc.devRef .tc main_arg0)) (V0 (Proc.devRef .tc main_arg4)) (fun j => V0 (Proc.devRef .tc main_arg5) (ix1 j)) := by
  unfold res_main_v22
  exact lift_layer _ _ _

/-! ## The readout -/

/-- The two species side by side read the prey in the first 96 columns … -/
theorem cat_left (X Y : FVec Ideal S50000x96 .f32) (r : Fin 50000) (k : Fin 96) (k' : Fin 192) (hk : k'.val = k.val) :
    concatenate S50000x192 1 [⟨S50000x96, X⟩, ⟨S50000x96, Y⟩] concatenates_S50000x96_S50000x96_S50000x192_d1 (ix2 r k') = X (ix2 r k) :=
  concatenate_pair_apply_left 1 X Y _ (ix2 r k') rfl (ix2 r k) (fun b => by
    match b with
    | ⟨0, _⟩ => rfl
    | ⟨1, _⟩ => exact hk.symm)

/-- … and the predator in the last 96. -/
theorem cat_right (X Y : FVec Ideal S50000x96 .f32) (r : Fin 50000) (k : Fin 96) (k' : Fin 192) (hk : k'.val = 96 + k.val) :
    concatenate S50000x192 1 [⟨S50000x96, X⟩, ⟨S50000x96, Y⟩] concatenates_S50000x96_S50000x96_S50000x192_d1 (ix2 r k') = Y (ix2 r k) :=
  concatenate_pair_apply_right 1 X Y _ (ix2 r k') rfl rfl (ix2 r k) (fun b hb => by
    match b, hb with
    | ⟨0, _⟩, _ => rfl
    | ⟨1, _⟩, hb => exact absurd rfl hb)
    (by show k.val + 96 = k'.val; omega)

/-- A sum over 192 = 96 + 96 terms is the sum of its first 96 plus the sum of its last 96. -/
theorem sum_192 (f : Fin 192 → EReal) :
    (∑ k : Fin 192, f k) = (∑ k : Fin 96, f ⟨k.val, by omega⟩) + ∑ k : Fin 96, f ⟨96 + k.val, by omega⟩ :=
  Fin.sum_univ_add (a := 96) (b := 96) f

/-- The readout layer is the specification's `readout` of whatever the two species are equal to: the 192-term
    contraction over the two species side by side is the sum of the two 96-term halves. -/
theorem readout_layer (X Y X' Y' : FVec Ideal S50000x96 .f32) (hX : X = X') (hY : Y = Y')
    (W : FVec Ideal S192x40 .f32) (b : FVec Ideal S40 .f32) :
    (addf (Host.dotGeneral dot_S50000x192_S192x40_S50000x40_1_0_0_1_n_n none (concatenate S50000x192 1 [⟨S50000x96, X⟩, ⟨S50000x96, Y⟩] concatenates_S50000x96_S50000x96_S50000x192_d1) W)
        (broadcastInDim S50000x40 ![0, 1] bcast_S1x40_S50000x40_0_1 (broadcastInDim S1x40 ![1] bcast_S40_S1x40_1 b)) :
      FVec Ideal S50000x40 .f32)
      = Cert.LV.readout X' Y' (fun k j => W (ix2 ⟨k.val, by omega⟩ j)) (fun k j => W (ix2 ⟨96 + k.val, by omega⟩ j))
          (fun j => b (ix1 j)) := by
  subst hX hY
  funext i
  obtain ⟨r, c, rfl⟩ : ∃ (r : Fin 50000) (c : Fin 40), i = ix2 r c := ⟨i 0, i 1, eq_ix2 i⟩
  have hd : Host.dotGeneral dot_S50000x192_S192x40_S50000x40_1_0_0_1_n_n none (concatenate S50000x192 1 [⟨S50000x96, X⟩, ⟨S50000x96, Y⟩] concatenates_S50000x96_S50000x96_S50000x192_d1) W (ix2 r c)
      = ∑ k : Fin 192, (concatenate S50000x192 1 [⟨S50000x96, X⟩, ⟨S50000x96, Y⟩] concatenates_S50000x96_S50000x96_S50000x192_d1) (ix2 r k) * W (ix2 k c) :=
    Cert.PlainDot.dotGeneral_apply 50000 192 40 none .single _ W (ix2 r c)
  have hb : broadcastInDim S50000x40 ![0, 1] bcast_S1x40_S50000x40_0_1 (broadcastInDim S1x40 ![1] bcast_S40_S1x40_1 b) (ix2 r c)
      = b (ix1 c) :=
    (broadcastInDim_apply _ _ _ (ix2 r c) (ix2 (0 : Fin 1) c) (fun a => by
        match a with
        | ⟨0, _⟩ => rfl
        | ⟨1, _⟩ => rfl)).trans
      (broadcastInDim_apply _ _ _ (ix2 (0 : Fin 1) c) (ix1 c) (fun a => by
        match a with
        | ⟨0, _⟩ => rfl))
  show Host.dotGeneral dot_S50000x192_S192x40_S50000x40_1_0_0_1_n_n none (concatenate S50000x192 1 [⟨S50000x96, X⟩, ⟨S50000x96, Y⟩] concatenates_S50000x96_S50000x96_S50000x192_d1) W (ix2 r c)
      + broadcastInDim S50000x40 ![0, 1] bcast_S1x40_S50000x40_0_1 (broadcastInDim S1x40 ![1] bcast_S40_S1x40_1 b) (ix2 r c)
    = ((∑ k : Fin 96, X (ix2 r k) * W (ix2 ⟨k.val, by omega⟩ c)) + ∑ k : Fin 96, Y (ix2 r k) * W (ix2 ⟨96 + k.val, by omega⟩ c))
      + b (ix1 c)
  rw [hd, hb, sum_192]
  congr 2
  · exact Finset.sum_congr rfl fun k _ => by rw [cat_left X Y r k ⟨k.val, by omega⟩ rfl]
  · exact Finset.sum_congr rfl fun k _ => by rw [cat_right X Y r k ⟨96 + k.val, by omega⟩ rfl]

theorem out_eq : (val6 V0 (Proc.devRef .tc main_v292) : FVec Ideal S50000x40 .f32)
    = Cert.LV.readout
        (Cert.LV.prey (res_main_v219 V0) (agg V0 (res_main_v234 V0)) (dinv V0) (row 4 (V0 (Proc.devRef .tc main_arg6))) (row 4 (V0 (Proc.devRef .tc main_arg7))))
        (Cert.LV.pred (res_main_v234 V0) (agg V0 (res_main_v219 V0)) (dinv V0) (row 4 (V0 (Proc.devRef .tc main_arg8))) (row 4 (V0 (Proc.devRef .tc main_arg9))))
        (fun k j => V0 (Proc.devRef .tc main_arg10) (ix2 ⟨k.val, by omega⟩ j))
        (fun k j => V0 (Proc.devRef .tc main_arg10) (ix2 ⟨96 + k.val, by omega⟩ j))
        (fun j => V0 (Proc.devRef .tc main_arg11) (ix1 j)) := by
  rw [val6_main_v292]
  exact readout_layer _ _ _ _
    (prey_layer 4 slices_S5x96_S1x96_4_0 4 rfl (res_main_v219 V0) (agg V0 (res_main_v234 V0)) (res_main_v12 V0) _ _)
    (pred_layer 4 slices_S5x96_S1x96_4_0 4 rfl (res_main_v234 V0) (agg V0 (res_main_v219 V0)) (res_main_v12 V0) _ _)
    _ _

end Cert.ReferenceIdeal.RefValue

end
-- ==== Proof.RefNet.lean ====
/-
  The idealized reference computes the network of the specification, built from its argument arrays with the same
  ingredient functions as the kernel's side: its named stages are the lifts and the four Euler steps, and its result
  is the fifth step through the readout.
-/
import proofs.«101018_j498216206705_2_alg».proof.Proof.RefValue
import proofs.«101018_j498216206705_2_alg».proof.Proof.KIngr

noncomputable section

namespace Cert.ReferenceIdeal.RefNet

open Cert.ReferenceIdeal Cert.ReferenceIdeal.Value Cert.ReferenceIdeal.RefValue
open Idealize.ShloMosaic Idealize.ShloMosaic.TcCoe Idealize.SL.Sem Idealize.ShloMosaic.StableHlo Idealize.ShloMosaic.ValueIdx
open Cert.LV

variable (V0 : Valuation τ sig (Elt Ideal))

/-- The network's ingredients from the reference's argument arrays. -/
def ingR : Ing :=
  Cert.KernelIdeal.KValue.ingOf (V0 (Proc.devRef .tc main_arg1)) (V0 (Proc.devRef .tc main_arg0)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9))

/-- The reference's neighbour sum, reciprocal degrees and coefficient rows are the ingredients': the same chains of
    host operations on the same argument arrays. -/
theorem agg_eq : RefValue.agg V0 = (ingR V0).agg := rfl
theorem dinv_eq : RefValue.dinv V0 = (ingR V0).dinv := rfl

theorem X0 : (res_main_v17 V0 : Arr 50000 96) = (ingR V0).X0 := RefValue.X0_eq V0
theorem Y0 : (res_main_v22 V0 : Arr 50000 96) = (ingR V0).Y0 := RefValue.Y0_eq V0
theorem X1 : (res_main_v60 V0 : Arr 50000 96) = Cert.LV.X1 (ingR V0) := by
  rw [RefValue.X1_eq, X0 V0, Y0 V0, agg_eq V0, dinv_eq V0]; rfl
theorem Y1 : (res_main_v75 V0 : Arr 50000 96) = Cert.LV.Y1 (ingR V0) := by
  rw [RefValue.Y1_eq, X0 V0, Y0 V0, agg_eq V0, dinv_eq V0]; rfl
theorem X2 : (res_main_v113 V0 : Arr 50000 96) = Cert.LV.X2 (ingR V0) := by
  rw [RefValue.X2_eq, X1 V0, Y1 V0, agg_eq V0, dinv_eq V0]; rfl
theorem Y2 : (res_main_v128 V0 : Arr 50000 96) = Cert.LV.Y2 (ingR V0) := by
  rw [RefValue.Y2_eq, X1 V0, Y1 V0, agg_eq V0, dinv_eq V0]; rfl
theorem X3 : (res_main_v166 V0 : Arr 50000 96) = Cert.LV.X3 (ingR V0) := by
  rw [RefValue.X3_eq, X2 V0, Y2 V0, agg_eq V0, dinv_eq V0]; rfl
theorem Y3 : (res_main_v181 V0 : Arr 50000 96) = Cert.LV.Y3 (ingR V0) := by
  rw [RefValue.Y3_eq, X2 V0, Y2 V0, agg_eq V0, dinv_eq V0]; rfl
theorem X4 : (res_main_v219 V0 : Arr 50000 96) = Cert.LV.X4 (ingR V0) := by
  rw [RefValue.X4_eq, X3 V0, Y3 V0, agg_eq V0, dinv_eq V0]; rfl
theorem Y4 : (res_main_v234 V0 : Arr 50000 96) = Cert.LV.Y4 (ingR V0) := by
  rw [RefValue.Y4_eq, X3 V0, Y3 V0, agg_eq V0, dinv_eq V0]; rfl

/-- The reference's result. -/
theorem out_eq : (val6 V0 (Proc.devRef .tc main_v292) : Arr 50000 40)
    = Cert.LV.out (ingR V0) (Cert.KernelIdeal.KValue.wxOf (V0 (Proc.devRef .tc main_arg10)))
        (Cert.KernelIdeal.KValue.wyOf (V0 (Proc.devRef .tc main_arg10))) (Cert.KernelIdeal.KValue.biasOf (V0 (Proc.devRef .tc main_arg11))) := by
  rw [RefValue.out_eq, X4 V0, Y4 V0, agg_eq V0, dinv_eq V0]; rfl

end Cert.ReferenceIdeal.RefNet

end
-- ==== Proof.lean ====
/-
  The kernel's program and its reference compute the same class scores on the extended reals.

  Both are the graph Lotka–Volterra network of Proof/Spec.lean and Proof/Net.lean: two species lifted from the input
  features by an affine map and tanh, five explicit Euler steps in which each species reads the other's sum over a
  node's in-neighbours scaled by the reciprocal in-degree, and a linear readout of both species. The programs differ
  in how they arrange this. The kernel's program computes the lift, each step and the readout in grid regions over
  blocks of 2000 nodes, and sums both species over the in-neighbours at once, side by side in 192 columns, taking
  the left and right halves afterwards; the reference sums each species separately and reads out the two species
  side by side against the whole 192-row matrix. The two arrangements agree because a neighbour sum acts column by
  column (Proof/SegSum.lean) and because a sum over 192 channels is the sum over the first 96 plus the sum over the
  last 96 (Proof/RefValue.lean); no other law of arithmetic is used, so the inputs' finiteness is never needed.

  The kernel's side: Proof/KRun.lean (the run, with the result named), Proof/KHost.lean and Proof/KCarry.lean (the
  host stretches and what reaches each region), Proof/LiftValue.lean, Proof/LvValue1–4.lean, Proof/ReadoutValue.lean
  (what each grid region leaves in its arrays), Proof/KValue.lean (the result is the network). The reference's side:
  its run, Proof/RefValue.lean and Proof/RefNet.lean. The idealization rewrote nothing, so the kernel's program is
  its own idealization.
-/
import proofs.«101018_j498216206705_2_alg».proof.Defs
import proofs.«101018_j498216206705_2_alg».proof.Proof.Gen.Kernel
import proofs.«101018_j498216206705_2_alg».proof.Proof.Gen.Kernel.Skeleton
import proofs.«101018_j498216206705_2_alg».proof.Proof.Gen.Kernel.Launch
import proofs.«101018_j498216206705_2_alg».proof.Proof.Gen.Kernel.Points
import proofs.«101018_j498216206705_2_alg».proof.Proof.Gen.Kernel.Frame
import proofs.«101018_j498216206705_2_alg».proof.Proof.Gen.KernelIdeal
import proofs.«101018_j498216206705_2_alg».proof.Proof.Gen.KernelIdeal.Skeleton
import proofs.«101018_j498216206705_2_alg».proof.Proof.Gen.KernelIdeal.Launch
import proofs.«101018_j498216206705_2_alg».proof.Proof.Gen.KernelIdeal.Points
import proofs.«101018_j498216206705_2_alg».proof.Proof.Gen.KernelIdeal.Frame
import proofs.«101018_j498216206705_2_alg».proof.Proof.Gen.ReferenceIdeal
import proofs.«101018_j498216206705_2_alg».proof.Proof.Gen.ReferenceIdeal.Run
import proofs.«101018_j498216206705_2_alg».proof.Proof.Gen.Pre_finite_inputs
import proofs.«101018_j498216206705_2_alg».proof.Proof.KRun
import proofs.«101018_j498216206705_2_alg».proof.Proof.KValue
import proofs.«101018_j498216206705_2_alg».proof.Proof.RefNet
import Idealize.ShloMosaic.Adequacy
import Idealize.ShloMosaic.Init

noncomputable section

namespace Cert.Proof

open Idealize.ShloMosaic Idealize.SL.Sem Idealize.ShloMosaic.StableHlo

/-- The word-level program runs and leaves its arguments as launched. -/
theorem frame_kernel : Cert.frame_Kernel := fun m ρ _ => Cert.Kernel.Gen.frame m ρ
/-- So does the program read on the extended reals. -/
theorem frame_kernelIdeal : Cert.frame_KernelIdeal := fun m ρ _ => Cert.KernelIdeal.Gen.frame m ρ
/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the network's class scores. -/
theorem algebraic : Cert.algebraic_KernelIdeal_ReferenceIdeal := by
  intro m ρ m' ρ' _ hagree
  refine ⟨fun c => (Cert.LV.out (Cert.KernelIdeal.KValue.ing m c) (Cert.KernelIdeal.KValue.wx m c) (Cert.KernelIdeal.KValue.wy m c) (Cert.KernelIdeal.KValue.bias m c) : Cert.LV.Arr 50000 40), ?_, ?_⟩
  · exact (θ_run Cert.KernelIdeal.defs _ _).mono (fun r h c => ⟨(h c).1.trans (Cert.KernelIdeal.KValue.out_eq m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Value.val6_main_v292 (launchContents m' c)).symm.trans
      ((Cert.ReferenceIdeal.RefNet.out_eq (launchContents m' c)).trans ?_)
    obtain ⟨h0, h1, h2, h3, h4, h5, h6, h7, h8, h9, h10, h11⟩ := hagree c
    show Cert.LV.out (Cert.KernelIdeal.KValue.ingOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
        (Cert.KernelIdeal.KValue.wxOf (m' ((c.tc : Thread Cert.ReferenceIdeal.nD Cert.ReferenceIdeal.τ).loc Cert.ReferenceIdeal.main_arg10))) (Cert.KernelIdeal.KValue.wyOf (m' ((c.tc : Thread Cert.ReferenceIdeal.nD Cert.ReferenceIdeal.τ).loc Cert.ReferenceIdeal.main_arg10))) (Cert.KernelIdeal.KValue.biasOf (m' ((c.tc : Thread Cert.ReferenceIdeal.nD Cert.ReferenceIdeal.τ).loc Cert.ReferenceIdeal.main_arg11)))
      = Cert.LV.out (Cert.KernelIdeal.KValue.ingOf (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        (Cert.KernelIdeal.KValue.wxOf (m ((c.tc : Thread Cert.KernelIdeal.nD Cert.KernelIdeal.τ).loc Cert.KernelIdeal.main_arg10))) (Cert.KernelIdeal.KValue.wyOf (m ((c.tc : Thread Cert.KernelIdeal.nD Cert.KernelIdeal.τ).loc Cert.KernelIdeal.main_arg10))) (Cert.KernelIdeal.KValue.biasOf (m ((c.tc : Thread Cert.KernelIdeal.nD Cert.KernelIdeal.τ).loc Cert.KernelIdeal.main_arg11)))
    rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
